-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x200 : Shape := ⟨2, ![256, 200]⟩
abbrev S100000x300 : Shape := ⟨2, ![100000, 300]⟩
abbrev S200x300 : Shape := ⟨2, ![200, 300]⟩
abbrev S_ : Shape := ⟨0, ![]⟩

class Facts : Prop where
  bcast_S_S256x200 : S_.BroadcastsInDim S256x200 (![] : Fin 0 → Fin S256x200.rank)
  reducesTo_S256x200_S_d0_1 : S256x200.ReducesTo [0, 1] S_
  h_S_ : 0 < S_.numel
  bcast_S_S100000x300 : S_.BroadcastsInDim S100000x300 (![] : Fin 0 → Fin S100000x300.rank)
  reducesTo_S100000x300_S_d0_1 : S100000x300.ReducesTo [0, 1] S_
  bcast_S_S200x300 : S_.BroadcastsInDim S200x300 (![] : Fin 0 → Fin S200x300.rank)
  reducesTo_S200x300_S_d0_1 : S200x300.ReducesTo [0, 1] S_

variable [Facts]

def fn_part1 {F : FTy → Type} [FloatOps F] (main_arg4 : FVec F S200x300 .f32) (main_v13 : IVec S_ 1) (main_v16 : IVec S200x300 1) : IVec S_ 1 :=
  let main_c_5 : IVec S_ 1 := constantI S_ 1 1#1
  let main_v17 : IVec S_ 1 := (fun x v => Host.reduce IntOp.andi x v reducesTo_S200x300_S_d0_1 h_S_) main_v16 main_c_5
  let main_v18 : IVec S_ 1 := andi main_v13 main_v17
  let main_v19 : FVec F S200x300 .f32 := Host.absf main_arg4
  let main_cst_6 : FVec F S_ .f32 := constant S_ .f32 0x7F800000#32
  let main_v20 : FVec F S200x300 .f32 := broadcastInDim S200x300 ![] bcast_S_S200x300 main_cst_6
  let main_v21 : IVec S200x300 1 := cmpf .olt main_v19 main_v20
  let main_c_7 : IVec S_ 1 := constantI S_ 1 1#1
  let main_v22 : IVec S_ 1 := (fun x v => Host.reduce IntOp.andi x v reducesTo_S200x300_S_d0_1 h_S_) main_v21 main_c_7
  let main_v23 : IVec S_ 1 := andi main_v18 main_v22
  let main_cst_8 : FVec F S_ .f32 := constant S_ .f32 0x00000000#32
  let main_v24 : FVec F S200x300 .f32 := broadcastInDim S200x300 ![] bcast_S_S200x300 main_cst_8
  let main_v25 : IVec S200x300 1 := cmpf .ogt main_arg4 main_v24
  let main_c_9 : IVec S_ 1 := constantI S_ 1 1#1
  let main_v26 : IVec S_ 1 := (fun x v => Host.reduce IntOp.andi x v reducesTo_S200x300_S_d0_1 h_S_) main_v25 main_c_9
  let main_v27 : IVec S_ 1 := andi main_v23 main_v26
  main_v27

def fn {F : FTy → Type} [FloatOps F] (main_arg0 : FVec F S256x200 .f32) (main_arg1 : FVec F S100000x300 .f32) (main_arg2 : FVec F S200x300 .f32) (main_arg3 : FVec F S200x300 .f32) (main_arg4 : FVec F S200x300 .f32) : IVec S_ 1 :=
  let main_v0 : FVec F S256x200 .f32 := Host.absf main_arg0
  let main_cst : FVec F S_ .f32 := constant S_ .f32 0x7F800000#32
  let main_v1 : FVec F S256x200 .f32 := broadcastInDim S256x200 ![] bcast_S_S256x200 main_cst
  let main_v2 : IVec S256x200 1 := cmpf .olt main_v0 main_v1
  let main_c : IVec S_ 1 := constantI S_ 1 1#1
  let main_v3 : IVec S_ 1 := (fun x v => Host.reduce IntOp.andi x v reducesTo_S256x200_S_d0_1 h_S_) main_v2 main_c
  let main_v4 : FVec F S100000x300 .f32 := Host.absf main_arg1
  let main_cst_0 : FVec F S_ .f32 := constant S_ .f32 0x7F800000#32
  let main_v5 : FVec F S100000x300 .f32 := broadcastInDim S100000x300 ![] bcast_S_S100000x300 main_cst_0
  let main_v6 : IVec S100000x300 1 := cmpf .olt main_v4 main_v5
  let main_c_1 : IVec S_ 1 := constantI S_ 1 1#1
  let main_v7 : IVec S_ 1 := (fun x v => Host.reduce IntOp.andi x v reducesTo_S100000x300_S_d0_1 h_S_) main_v6 main_c_1
  let main_v8 : IVec S_ 1 := andi main_v3 main_v7
  let main_v9 : FVec F S200x300 .f32 := Host.absf main_arg2
  let main_cst_2 : FVec F S_ .f32 := constant S_ .f32 0x7F800000#32
  let main_v10 : FVec F S200x300 .f32 := broadcastInDim S200x300 ![] bcast_S_S200x300 main_cst_2
  let main_v11 : IVec S200x300 1 := cmpf .olt main_v9 main_v10
  let main_c_3 : IVec S_ 1 := constantI S_ 1 1#1
  let main_v12 : IVec S_ 1 := (fun x v => Host.reduce IntOp.andi x v reducesTo_S200x300_S_d0_1 h_S_) main_v11 main_c_3
  let main_v13 : IVec S_ 1 := andi main_v8 main_v12
  let main_v14 : FVec F S200x300 .f32 := Host.absf main_arg3
  let main_cst_4 : FVec F S_ .f32 := constant S_ .f32 0x7F800000#32
  let main_v15 : FVec F S200x300 .f32 := broadcastInDim S200x300 ![] bcast_S_S200x300 main_cst_4
  let main_v16 : IVec S200x300 1 := cmpf .olt main_v14 main_v15
  fn_part1 (F := F) main_arg4 main_v13 main_v16
-- ==== Kernel.lean ====
abbrev S256x200 : Shape := ⟨2, ![256, 200]⟩
abbrev S100000x300 : Shape := ⟨2, ![100000, 300]⟩
abbrev S200x300 : Shape := ⟨2, ![200, 300]⟩
abbrev S_ : Shape := ⟨0, ![]⟩
abbrev S200 : Shape := ⟨1, ![200]⟩
abbrev S300x200 : Shape := ⟨2, ![300, 200]⟩
abbrev S1x200 : Shape := ⟨2, ![1, 200]⟩
abbrev S100096x300 : Shape := ⟨2, ![100096, 300]⟩
abbrev S16x200 : Shape := ⟨2, ![16, 200]⟩
abbrev S2176x300 : Shape := ⟨2, ![2176, 300]⟩
abbrev S8x200 : Shape := ⟨2, ![8, 200]⟩
abbrev S2176x200 : Shape := ⟨2, ![2176, 200]⟩
abbrev S256x100096 : Shape := ⟨2, ![256, 100096]⟩
abbrev S256x2176 : Shape := ⟨2, ![256, 2176]⟩
abbrev S256x100000 : Shape := ⟨2, ![256, 100000]⟩
abbrev S256x100200 : Shape := ⟨2, ![256, 100200]⟩

abbrev nBuf : Space → Nat
  | .hbm => 67
  | .vmem => 28
  | .smem => 0
  | _ => 0

abbrev bufTy : (tb : Table) → Fin (tcTables nBuf tb) → BufTy
  | .hbm, ⟨0, _⟩ => ⟨S256x200, .f32⟩
  | .hbm, ⟨1, _⟩ => ⟨S100000x300, .f32⟩
  | .hbm, ⟨2, _⟩ => ⟨S200x300, .f32⟩
  | .hbm, ⟨3, _⟩ => ⟨S200x300, .f32⟩
  | .hbm, ⟨4, _⟩ => ⟨S200x300, .f32⟩
  | .hbm, ⟨5, _⟩ => ⟨S_, .f32⟩
  | .hbm, ⟨6, _⟩ => ⟨S200x300, .f32⟩
  | .hbm, ⟨7, _⟩ => ⟨S200x300, .f32⟩
  | .hbm, ⟨8, _⟩ => ⟨S200x300, .f32⟩
  | .hbm, ⟨9, _⟩ => ⟨S200x300, .f32⟩
  | .hbm, ⟨10, _⟩ => ⟨S_, .f32⟩
  | .hbm, ⟨11, _⟩ => ⟨S200, .f32⟩
  | .hbm, ⟨12, _⟩ => ⟨S_, .f32⟩
  | .hbm, ⟨13, _⟩ => ⟨S200, .f32⟩
  | .hbm, ⟨14, _⟩ => ⟨S200, .f32⟩
  | .hbm, ⟨15, _⟩ => ⟨S200x300, .f32⟩
  | .hbm, ⟨16, _⟩ => ⟨S_, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S200x300, .f32⟩
  | .hbm, ⟨21, _⟩ => ⟨S200x300, .f32⟩
  | .hbm, ⟨22, _⟩ => ⟨S200x300, .f32⟩
  | .hbm, ⟨23, _⟩ => ⟨S200x300, .f32⟩
  | .hbm, ⟨24, _⟩ => ⟨S_, .f32⟩
  | .hbm, ⟨25, _⟩ => ⟨S200, .f32⟩
  | .hbm, ⟨26, _⟩ => ⟨S200x300, .f32⟩
  | .hbm, ⟨27, _⟩ => ⟨S_, .f32⟩
  | .hbm, ⟨28, _⟩ => ⟨S200, .f32⟩
  | .hbm, ⟨29, _⟩ => ⟨S_, .f32⟩
  | .hbm, ⟨30, _⟩ => ⟨S200, .f32⟩
  | .hbm, ⟨31, _⟩ => ⟨S200, .f32⟩
  | .hbm, ⟨32, _⟩ => ⟨S_, .f32⟩
  | .hbm, ⟨33, _⟩ => ⟨S200, .f32⟩
  | .hbm, ⟨34, _⟩ => ⟨S200, .f32⟩
  | .hbm, ⟨35, _⟩ => ⟨S_, .f32⟩
  | .hbm, ⟨36, _⟩ => ⟨S200, .f32⟩
  | .hbm, ⟨37, _⟩ => ⟨S200, .f32⟩
  | .hbm, ⟨38, _⟩ => ⟨S300x200, .f32⟩
  | .hbm, ⟨39, _⟩ => ⟨S300x200, .f32⟩
  | .hbm, ⟨40, _⟩ => ⟨S300x200, .f32⟩
  | .hbm, ⟨41, _⟩ => ⟨S1x200, .f32⟩
  | .hbm, ⟨42, _⟩ => ⟨S1x200, .f32⟩
  | .hbm, ⟨43, _⟩ => ⟨S1x200, .f32⟩
  | .hbm, ⟨44, _⟩ => ⟨S1x200, .f32⟩
  | .hbm, ⟨45, _⟩ => ⟨S_, .i32⟩
  | .hbm, ⟨46, _⟩ => ⟨S_, .f32⟩
  | .hbm, ⟨47, _⟩ => ⟨S100096x300, .f32⟩
  | .hbm, ⟨48, _⟩ => ⟨S16x200, .f32⟩
  | .hbm, ⟨49, _⟩ => ⟨S16x200, .f32⟩
  | .hbm, ⟨50, _⟩ => ⟨S1x200, .f32⟩
  | .hbm, ⟨51, _⟩ => ⟨S1x200, .f32⟩
  | .hbm, ⟨52, _⟩ => ⟨S1x200, .f32⟩
  | .hbm, ⟨53, _⟩ => ⟨S1x200, .f32⟩
  | .hbm, ⟨54, _⟩ => ⟨S1x200, .f32⟩
  | .hbm, ⟨55, _⟩ => ⟨S1x200, .f32⟩
  | .hbm, ⟨56, _⟩ => ⟨S1x200, .f32⟩
  | .hbm, ⟨57, _⟩ => ⟨S1x200, .f32⟩
  | .hbm, ⟨58, _⟩ => ⟨S1x200, .f32⟩
  | .hbm, ⟨59, _⟩ => ⟨S1x200, .f32⟩
  | .hbm, ⟨60, _⟩ => ⟨S1x200, .f32⟩
  | .hbm, ⟨61, _⟩ => ⟨S1x200, .f32⟩
  | .hbm, ⟨62, _⟩ => ⟨S1x200, .f32⟩
  | .hbm, ⟨63, _⟩ => ⟨S1x200, .f32⟩
  | .hbm, ⟨64, _⟩ => ⟨S256x100096, .f32⟩
  | .hbm, ⟨65, _⟩ => ⟨S256x100000, .f32⟩
  | .hbm, ⟨66, _⟩ => ⟨S256x100200, .f32⟩
  | .local _ .vmem, ⟨0, _⟩ => ⟨S2176x300, .f32⟩
  | .local _ .vmem, ⟨1, _⟩ => ⟨S2176x300, .f32⟩
  | .local _ .vmem, ⟨2, _⟩ => ⟨S300x200, .f32⟩
  | .local _ .vmem, ⟨3, _⟩ => ⟨S300x200, .f32⟩
  | .local _ .vmem, ⟨4, _⟩ => ⟨S300x200, .f32⟩
  | .local _ .vmem, ⟨5, _⟩ => ⟨S1x200, .f32⟩
  | .local _ .vmem, ⟨6, _⟩ => ⟨S1x200, .f32⟩
  | .local _ .vmem, ⟨7, _⟩ => ⟨S1x200, .f32⟩
  | .local _ .vmem, ⟨8, _⟩ => ⟨S1x200, .f32⟩
  | .local _ .vmem, ⟨9, _⟩ => ⟨S8x200, .f32⟩
  | .local _ .vmem, ⟨10, _⟩ => ⟨S8x200, .f32⟩
  | .local _ .vmem, ⟨11, _⟩ => ⟨S8x200, .f32⟩
  | .local _ .vmem, ⟨12, _⟩ => ⟨S8x200, .f32⟩
  | .local _ .vmem, ⟨13, _⟩ => ⟨S1x200, .f32⟩
  | .local _ .vmem, ⟨14, _⟩ => ⟨S1x200, .f32⟩
  | .local _ .vmem, ⟨15, _⟩ => ⟨S2176x300, .f32⟩
  | .local _ .vmem, ⟨16, _⟩ => ⟨S2176x300, .f32⟩
  | .local _ .vmem, ⟨17, _⟩ => ⟨S300x200, .f32⟩
  | .local _ .vmem, ⟨18, _⟩ => ⟨S300x200, .f32⟩
  | .local _ .vmem, ⟨19, _⟩ => ⟨S300x200, .f32⟩
  | .local _ .vmem, ⟨20, _⟩ => ⟨S1x200, .f32⟩
  | .local _ .vmem, ⟨21, _⟩ => ⟨S1x200, .f32⟩
  | .local _ .vmem, ⟨22, _⟩ => ⟨S1x200, .f32⟩
  | .local _ .vmem, ⟨23, _⟩ => ⟨S1x200, .f32⟩
  | .local _ .vmem, ⟨24, _⟩ => ⟨S1x200, .f32⟩
  | .local _ .vmem, ⟨25, _⟩ => ⟨S256x200, .f32⟩
  | .local _ .vmem, ⟨26, _⟩ => ⟨S256x2176, .f32⟩
  | .local _ .vmem, ⟨27, _⟩ => ⟨S256x2176, .f32⟩
  | _, _ => ⟨S256x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨2, ![2, 23], ![false, false]⟩

def k0_cond2 (i : grid0.Coords) : BitVec 1 :=
  let arg1 : BitVec 32 := BitVec.ofNat 32 (i 1).val
  let c22_i32 : BitVec 32 := 22#32
  let v72 : BitVec 1 := Scalar.cmpi .eq arg1 c22_i32
  let v73 : BitVec 32 := Scalar.extui v72
  let c0_i32_33 : BitVec 32 := 0#32
  let v74 : BitVec 1 := Scalar.cmpi .ne v73 c0_i32_33
  v74

def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S300x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S300x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S300x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![46], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2176x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S300x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x200 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x200 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x200 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x200 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x2176 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S200x300 : S_.BroadcastsInDim S200x300 (![] : Fin 0 → Fin S200x300.rank)
  reducesTo_S200x300_S200_d1 : S200x300.ReducesTo [1] S200
  h_S_ : 0 < S_.numel
  bcast_S_S200 : S_.BroadcastsInDim S200 (![] : Fin 0 → Fin S200.rank)
  transposes_S200x300_S300x200_1_0 : S200x300.Transposes [1, 0] S300x200
  shapeCasts_S200_S1x200 : S200.ShapeCasts S1x200
  pads_S100000x300_S100096x300_0960_000 : S100000x300.Pads (![0, 0] : Fin 2 → Nat) ![96, 0] ![0, 0] S100096x300
  inb_S1x200_S1x200_0_0 : ∀ a, (![0, 0] : Fin 2 → Nat) a + S1x200.size a ≤ S1x200.size a
  h_S1x200 : 0 < S1x200.numel
  shapeCasts_S1x200_S1x200 : S1x200.ShapeCasts S1x200
  inb_S2176x300_S2176x300_0_0 : ∀ a, (![0, 0] : Fin 2 → Nat) a + S2176x300.size a ≤ S2176x300.size a
  h_S2176x300 : 0 < S2176x300.numel
  shapeCasts_S2176x300_S2176x300 : S2176x300.ShapeCasts S2176x300
  inb_S300x200_S300x200_0_0 : ∀ a, (![0, 0] : Fin 2 → Nat) a + S300x200.size a ≤ S300x200.size a
  h_S300x200 : 0 < S300x200.numel
  shapeCasts_S300x200_S300x200 : S300x200.ShapeCasts S300x200
  bitsLt_bf16_f32 : FTy.bits .bf16 < FTy.bits .f32
  broadcasts_S1x200_S2176x200 : S1x200.Broadcasts S2176x200
  iota_S2176x200_d0_w32 : S2176x200.Iotas .tc 32 [0]
  reduces_S2176x200_S200 : S2176x200.Reduces [0] S200
  broadcasts_S1x200_S8x200 : S1x200.Broadcasts S8x200
  inb_S8x200_S8x200_0_0 : ∀ a, (![0, 0] : Fin 2 → Nat) a + S8x200.size a ≤ S8x200.size a
  h_S8x200 : 0 < S8x200.numel
  slices_S16x200_S1x200_0_0 : S16x200.Slices ![0, 0] S1x200
  slices_S16x200_S1x200_8_0 : S16x200.Slices ![8, 0] S1x200
  inb_S256x200_S256x200_0_0 : ∀ a, (![0, 0] : Fin 2 → Nat) a + S256x200.size a ≤ S256x200.size a
  h_S256x200 : 0 < S256x200.numel
  inb_S256x2176_S256x2176_0_0 : ∀ a, (![0, 0] : Fin 2 → Nat) a + S256x2176.size a ≤ S256x2176.size a
  h_S256x2176 : 0 < S256x2176.numel
  slices_S256x100096_S256x100000_0_0 : S256x100096.Slices ![0, 0] S256x100000
  concatenates_S256x200_S256x100000_S256x100200_d1 : Shape.Concatenates [S256x200, S256x100000] S256x100200 1
  dot_S2176x300_S300x200_S2176x200_1_0_0_1_n_n_wf : DotDims.WF S2176x300 S300x200 S2176x200 [1] [0] [0] [1] [] []
  dot_S256x200_S2176x200_S256x2176_1_1_0_0_n_n_wf : DotDims.WF S256x200 S2176x200 S256x2176 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2176x300.size a ≤ S100096x300.size a
  hwx0_0 : ∀ i : grid0.Coords, EltTy.bits .f32 = 32 ∨ (Rect.block (s := S100096x300) S2176x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x200.size a ≤ S300x200.size a
  hwx0_1 : ∀ i : grid0.Coords, EltTy.bits .f32 = 32 ∨ (Rect.block (s := S300x200) S300x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x200.size a ≤ S300x200.size a
  hwx0_2 : ∀ i : grid0.Coords, EltTy.bits .f32 = 32 ∨ (Rect.block (s := S300x200) S300x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x200.size a ≤ S300x200.size a
  hwx0_3 : ∀ i : grid0.Coords, EltTy.bits .f32 = 32 ∨ (Rect.block (s := S300x200) S300x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x200.size a ≤ S1x200.size a
  hwx0_4 : ∀ i : grid0.Coords, EltTy.bits .f32 = 32 ∨ (Rect.block (s := S1x200) S1x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x200.size a ≤ S1x200.size a
  hwx0_6 : ∀ i : grid0.Coords, EltTy.bits .f32 = 32 ∨ (Rect.block (s := S1x200) S1x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x200.size a ≤ S1x200.size a
  hwx0_7 : ∀ i : grid0.Coords, EltTy.bits .f32 = 32 ∨ (Rect.block (s := S1x200) S1x200.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x200.size a ≤ S16x200.size a
  hwx0_8 : ∀ i : grid0.Coords, EltTy.bits .f32 = 32 ∨ (Rect.block (s := S16x200) S8x200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x200.size a ≤ S16x200.size a
  hwx0_9 : ∀ i : grid0.Coords, EltTy.bits .f32 = 32 ∨ (Rect.block (s := S16x200) S8x200.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2176x300.size a ≤ S100096x300.size a
  hwx1_0 : ∀ i : grid1.Coords, EltTy.bits .f32 = 32 ∨ (Rect.block (s := S100096x300) S2176x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x200.size a ≤ S300x200.size a
  hwx1_1 : ∀ i : grid1.Coords, EltTy.bits .f32 = 32 ∨ (Rect.block (s := S300x200) S300x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x200.size a ≤ S300x200.size a
  hwx1_2 : ∀ i : grid1.Coords, EltTy.bits .f32 = 32 ∨ (Rect.block (s := S300x200) S300x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x200.size a ≤ S300x200.size a
  hwx1_3 : ∀ i : grid1.Coords, EltTy.bits .f32 = 32 ∨ (Rect.block (s := S300x200) S300x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x200.size a ≤ S1x200.size a
  hwx1_5 : ∀ i : grid1.Coords, EltTy.bits .f32 = 32 ∨ (Rect.block (s := S1x200) S1x200.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x200.size a ≤ S1x200.size a
  hwx1_6 : ∀ i : grid1.Coords, EltTy.bits .f32 = 32 ∨ (Rect.block (s := S1x200) S1x200.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x200.size a ≤ S1x200.size a
  hwx1_7 : ∀ i : grid1.Coords, EltTy.bits .f32 = 32 ∨ (Rect.block (s := S1x200) S1x200.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x200.size a ≤ S1x200.size a
  hwx1_8 : ∀ i : grid1.Coords, EltTy.bits .f32 = 32 ∨ (Rect.block (s := S1x200) S1x200.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x200.size a ≤ S256x200.size a
  hwx1_9 : ∀ i : grid1.Coords, EltTy.bits .f32 = 32 ∨ (Rect.block (s := S256x200) S256x200.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x2176.size a ≤ S256x100096.size a
  hwx1_10 : ∀ i : grid1.Coords, EltTy.bits .f32 = 32 ∨ (Rect.block (s := S256x100096) S256x2176.size (cc1_transform_10 i) (hinb1_10 i)).WholeWords (EltTy.packing .f32)

variable [Facts₀]

def dot_S2176x300_S300x200_S2176x200_1_0_0_1_n_n : DotDims S2176x300 S300x200 S2176x200 where
  lhsContracting := [1]
  rhsContracting := [0]
  lhsNonContracting := [0]
  rhsNonContracting := [1]
  lhsBatch := []
  rhsBatch := []
  wf := dot_S2176x300_S300x200_S2176x200_1_0_0_1_n_n_wf
def dot_S256x200_S2176x200_S256x2176_1_1_0_0_n_n : DotDims S256x200 S2176x200 S256x2176 where
  lhsContracting := [1]
  rhsContracting := [1]
  lhsNonContracting := [0]
  rhsNonContracting := [0]
  lhsBatch := []
  rhsBatch := []
  wf := dot_S256x200_S2176x200_S256x2176_1_1_0_0_n_n_wf

abbrev win0_0 : Pipeline.Window sig grid0 :=
  Pipeline.Window.ofSpec (Memref.whole main_v31) S2176x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S300x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S300x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S300x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32_0) S8x200.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v32_1) S8x200.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v31) S2176x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S300x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S300x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S300x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x200.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x200.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S1x200.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg0) S256x200.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v47) S256x2176.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S256x200 : Shape := ⟨2, ![256, 200]⟩
abbrev S100000x300 : Shape := ⟨2, ![100000, 300]⟩
abbrev S200x300 : Shape := ⟨2, ![200, 300]⟩
abbrev S_ : Shape := ⟨0, ![]⟩
abbrev S200 : Shape := ⟨1, ![200]⟩
abbrev S300x200 : Shape := ⟨2, ![300, 200]⟩
abbrev S100000x200 : Shape := ⟨2, ![100000, 200]⟩
abbrev S1x200 : Shape := ⟨2, ![1, 200]⟩
abbrev S200x100000 : Shape := ⟨2, ![200, 100000]⟩
abbrev S200x1 : Shape := ⟨2, ![200, 1]⟩
abbrev S256x100000 : Shape := ⟨2, ![256, 100000]⟩
abbrev S256x100200 : Shape := ⟨2, ![256, 100200]⟩

abbrev nBuf : Space → Nat
  | .hbm => 79
  | .vmem => 0
  | .smem => 0
  | _ => 0

abbrev bufTy : (tb : Table) → Fin (tcTables nBuf tb) → BufTy
  | .hbm, ⟨0, _⟩ => ⟨S256x200, .f32⟩
  | .hbm, ⟨1, _⟩ => ⟨S100000x300, .f32⟩
  | .hbm, ⟨2, _⟩ => ⟨S200x300, .f32⟩
  | .hbm, ⟨3, _⟩ => ⟨S200x300, .f32⟩
  | .hbm, ⟨4, _⟩ => ⟨S200x300, .f32⟩
  | .hbm, ⟨5, _⟩ => ⟨S_, .f32⟩
  | .hbm, ⟨6, _⟩ => ⟨S200x300, .f32⟩
  | .hbm, ⟨7, _⟩ => ⟨S200x300, .f32⟩
  | .hbm, ⟨8, _⟩ => ⟨S200x300, .f32⟩
  | .hbm, ⟨9, _⟩ => ⟨S200x300, .f32⟩
  | .hbm, ⟨10, _⟩ => ⟨S_, .f32⟩
  | .hbm, ⟨11, _⟩ => ⟨S200, .f32⟩
  | .hbm, ⟨12, _⟩ => ⟨S_, .f32⟩
  | .hbm, ⟨13, _⟩ => ⟨S200, .f32⟩
  | .hbm, ⟨14, _⟩ => ⟨S200, .f32⟩
  | .hbm, ⟨15, _⟩ => ⟨S200x300, .f32⟩
  | .hbm, ⟨16, _⟩ => ⟨S_, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S200x300, .f32⟩
  | .hbm, ⟨21, _⟩ => ⟨S100000x300, .f32⟩
  | .hbm, ⟨22, _⟩ => ⟨S300x200, .f32⟩
  | .hbm, ⟨23, _⟩ => ⟨S100000x200, .f32⟩
  | .hbm, ⟨24, _⟩ => ⟨S200x300, .f32⟩
  | .hbm, ⟨25, _⟩ => ⟨S300x200, .f32⟩
  | .hbm, ⟨26, _⟩ => ⟨S100000x200, .f32⟩
  | .hbm, ⟨27, _⟩ => ⟨S_, .f32⟩
  | .hbm, ⟨28, _⟩ => ⟨S100000x200, .f32⟩
  | .hbm, ⟨29, _⟩ => ⟨S100000x200, .f32⟩
  | .hbm, ⟨30, _⟩ => ⟨S100000x200, .f32⟩
  | .hbm, ⟨31, _⟩ => ⟨S200x300, .f32⟩
  | .hbm, ⟨32, _⟩ => ⟨S200x300, .f32⟩
  | .hbm, ⟨33, _⟩ => ⟨S_, .f32⟩
  | .hbm, ⟨34, _⟩ => ⟨S200, .f32⟩
  | .hbm, ⟨35, _⟩ => ⟨S1x200, .f32⟩
  | .hbm, ⟨36, _⟩ => ⟨S100000x200, .f32⟩
  | .hbm, ⟨37, _⟩ => ⟨S100000x200, .f32⟩
  | .hbm, ⟨38, _⟩ => ⟨S300x200, .f32⟩
  | .hbm, ⟨39, _⟩ => ⟨S100000x200, .f32⟩
  | .hbm, ⟨40, _⟩ => ⟨S200x300, .f32⟩
  | .hbm, ⟨41, _⟩ => ⟨S_, .f32⟩
  | .hbm, ⟨42, _⟩ => ⟨S200, .f32⟩
  | .hbm, ⟨43, _⟩ => ⟨S1x200, .f32⟩
  | .hbm, ⟨44, _⟩ => ⟨S100000x200, .f32⟩
  | .hbm, ⟨45, _⟩ => ⟨S100000x200, .f32⟩
  | .hbm, ⟨46, _⟩ => ⟨S100000x200, .f32⟩
  | .hbm, ⟨47, _⟩ => ⟨S1x200, .f32⟩
  | .hbm, ⟨48, _⟩ => ⟨S100000x200, .f32⟩
  | .hbm, ⟨49, _⟩ => ⟨S100000x200, .f32⟩
  | .hbm, ⟨50, _⟩ => ⟨S100000x200, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S200, .f32⟩
  | .hbm, ⟨55, _⟩ => ⟨S200, .f32⟩
  | .hbm, ⟨56, _⟩ => ⟨S1x200, .f32⟩
  | .hbm, ⟨57, _⟩ => ⟨S100000x200, .f32⟩
  | .hbm, ⟨58, _⟩ => ⟨S100000x200, .f32⟩
  | .hbm, ⟨59, _⟩ => ⟨S_, .f32⟩
  | .hbm, ⟨60, _⟩ => ⟨S100000x200, .f32⟩
  | .hbm, ⟨61, _⟩ => ⟨S100000x200, .f32⟩
  | .hbm, ⟨62, _⟩ => ⟨S200x100000, .f32⟩
  | .hbm, ⟨63, _⟩ => ⟨S_, .f32⟩
  | .hbm, ⟨64, _⟩ => ⟨S200, .f32⟩
  | .hbm, ⟨65, _⟩ => ⟨S_, .f32⟩
  | .hbm, ⟨66, _⟩ => ⟨S200, .f32⟩
  | .hbm, ⟨67, _⟩ => ⟨S200, .f32⟩
  | .hbm, ⟨68, _⟩ => ⟨S200x1, .f32⟩
  | .hbm, ⟨69, _⟩ => ⟨S200x100000, .f32⟩
  | .hbm, ⟨70, _⟩ => ⟨S200x100000, .f32⟩
  | .hbm, ⟨71, _⟩ => ⟨S200x100000, .f32⟩
  | .hbm, ⟨72, _⟩ => ⟨S_, .f32⟩
  | .hbm, ⟨73, _⟩ => ⟨S200, .f32⟩
  | .hbm, ⟨74, _⟩ => ⟨S200x1, .f32⟩
  | .hbm, ⟨75, _⟩ => ⟨S200x100000, .f32⟩
  | .hbm, ⟨76, _⟩ => ⟨S200x100000, .f32⟩
  | .hbm, ⟨77, _⟩ => ⟨S256x100000, .f32⟩
  | .hbm, ⟨78, _⟩ => ⟨S256x100200, .f32⟩
  | _, _ => ⟨S256x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  bcast_S_S200x300 : S_.BroadcastsInDim S200x300 (![] : Fin 0 → Fin S200x300.rank)
  reducesTo_S200x300_S200_d1 : S200x300.ReducesTo [1] S200
  h_S_ : 0 < S_.numel
  bcast_S_S200 : S_.BroadcastsInDim S200 (![] : Fin 0 → Fin S200.rank)
  transposes_S200x300_S300x200_1_0 : S200x300.Transposes [1, 0] S300x200
  bcast_S_S100000x200 : S_.BroadcastsInDim S100000x200 (![] : Fin 0 → Fin S100000x200.rank)
  bcast_S200_S1x200_1 : S200.BroadcastsInDim S1x200 (![1] : Fin 1 → Fin S1x200.rank)
  bcast_S1x200_S100000x200_0_1 : S1x200.BroadcastsInDim S100000x200 (![0, 1] : Fin 2 → Fin S100000x200.rank)
  transposes_S100000x200_S200x100000_1_0 : S100000x200.Transposes [1, 0] S200x100000
  reducesTo_S200x100000_S200_d1 : S200x100000.ReducesTo [1] S200
  bcast_S200_S200x1_0 : S200.BroadcastsInDim S200x1 (![0] : Fin 1 → Fin S200x1.rank)
  bcast_S200x1_S200x100000_0_1 : S200x1.BroadcastsInDim S200x100000 (![0, 1] : Fin 2 → Fin S200x100000.rank)
  concatenates_S256x200_S256x100000_S256x100200_d1 : Shape.Concatenates [S256x200, S256x100000] S256x100200 1
  dot_S100000x300_S300x200_S100000x200_1_0_0_1_n_n_wf : DotDims.WF S100000x300 S300x200 S100000x200 [1] [0] [0] [1] [] []
  dot_S256x200_S200x100000_S256x100000_1_0_0_1_n_n_wf : DotDims.WF S256x200 S200x100000 S256x100000 [1] [0] [0] [1] [] []

variable [Facts₀]

def dot_S100000x300_S300x200_S100000x200_1_0_0_1_n_n : DotDims S100000x300 S300x200 S100000x200 where
  lhsContracting := [1]
  rhsContracting := [0]
  lhsNonContracting := [0]
  rhsNonContracting := [1]
  lhsBatch := []
  rhsBatch := []
  wf := dot_S100000x300_S300x200_S100000x200_1_0_0_1_n_n_wf
def dot_S256x200_S200x100000_S256x100000_1_0_0_1_n_n : DotDims S256x200 S200x100000 S256x100000 where
  lhsContracting := [1]
  rhsContracting := [0]
  lhsNonContracting := [0]
  rhsNonContracting := [1]
  lhsBatch := []
  rhsBatch := []
  wf := dot_S256x200_S200x100000_S256x100000_1_0_0_1_n_n_wf

class Facts : Prop extends Facts₀ where

variable [Facts]
-- ==== Proof.KStatsRuns.lean ====
/-
  The first kernel (the statistics pass) as a region entered from ANY contents `V` of the TensorCore's buffers.

  The grid is 2 × 23: the 46 tiles of 2176 words in order, the first 23 swept by one half and the last 23 by the other.
  A sweep keeps two 1 × 200 rows between its tiles, one number per topic each: a LEVEL and a SUM. At the sweep's first
  tile (case A) both are started afresh — the level at the fill, the sum at zero — and then, as at every tile, the
  level is raised to at least the tile's largest logit and the sum, rescaled to the new level, takes the tile's
  `exp (logit - level)` over its 2176 words; at a middle tile (case B) only that; at the sweep's last tile (case C) the two
  rows are moreover copied over the 8 rows of the sweep's block of each result. The results' blocks are idle, and not
  written back, at every tile but a sweep's last. What the rows hold after a tile is found by running the body once per
  case at symbolic operands; nothing the body computes is written out here.
-/
import proofs.«136091_j11613591568915_2_alg».proof.Proof.Gen.Kernel.Launch
import proofs.«136091_j11613591568915_2_alg».proof.Proof.Gen.Kernel.Skeleton
import proofs.«136091_j11613591568915_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinates -/

/-- "This is a sweep's first tile": the second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 23 = 0 :=
  (by decide +kernel : ∀ t : Fin grid0.N, cond0_0 (grid0.coords t) ↔ t.val % 23 = 0)
/-- "This is a sweep's last tile": the second coordinate is 22. -/
abbrev cond0_1 (i : grid0.Coords) : Prop := k0_cond2 i = 1#1
theorem hcond0_1 : ∀ t : Fin cfg0.N, cond0_1 (grid0.coords t) ↔ t.val % 23 = 22 :=
  (by decide +kernel : ∀ t : Fin grid0.N, cond0_1 (grid0.coords t) ↔ t.val % 23 = 22)

/-! ## Where the results' windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the pipeline calls the body with -/

abbrev ms0_0 (t : Fin cfg0.N) : Memref sig .tc .vmem S2176x300 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S300x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S300x200 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S300x200 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x200 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x200 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x200 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x200 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x200 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x200 .f32 := win0_9.stage (cfg0.slots t 9)
abbrev hs0_9 (t : Fin cfg0.N) : (ms0_9 t).IsWhole := hstage0_9 ((cfg0.slots t 9).cast nbuf0_9)
/-- The level row and the sum row: whole scoped buffers of the kernel's own. -/
abbrev scM0 : Memref sig .tc .vmem S1x200 .f32 := Memref.whole cc0_scratch0
abbrev scM1 : Memref sig .tc .vmem S1x200 .f32 := Memref.whole cc0_scratch1
abbrev VS0 : View sig .tc .vmem S1x200 .f32 := scM0.view
abbrev VS1 : View sig .tc .vmem S1x200 .f32 := scM1.view
/-- One staging buffer of each result's window, through which its contents are stated. -/
abbrev VO8 : View sig .tc .vmem S8x200 .f32 := (Memref.whole cc0_stg8_0 : Memref sig .tc .vmem S8x200 .f32).view
abbrev VO9 : View sig .tc .vmem S8x200 .f32 := (Memref.whole cc0_stg9_0 : Memref sig .tc .vmem S8x200 .f32).view

/-! ## The body, once per case -/

set_option maxHeartbeats 8000000 in
/-- CASE A, a sweep's first tile: the rows are started afresh and then updated; the results' buffers are handed back
    untouched. The pieces each row ends with are the run's witness. -/
noncomputable def statsRunA (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) :
    Σ' (LS0 : List (View.Piece (Elt F) S1x200 .f32)), { LS1 : List (View.Piece (Elt F) S1x200 .f32) //
      ∀ (xi8 xi9 : Vec F S8x200 .f32) (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
            ∗ (∃ d, owns (c : Thread nD τ) M10 fullShare d) ∗ (∃ d, owns (c : Thread nD τ) M11 fullShare d)
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
                ∗ (∃ f, M10.view.loc (c : Thread nD τ) ↦[M10.view.set]{fullShare} M10.view.writes (Elt F) f LS0) ∗ (∃ f, M11.view.loc (c : Thread nD τ) ↦[M11.view.set]{fullShare} M11.view.writes (Elt F) f LS1)) -∗ K ⟨⟩))
          ⊢ wp frame (wpE (defs₀ (F := F)) Variants.none c none) E (cc0__stats_kernel i M0 h0 M1 h1 M2 h2 M3 h3 M4 h4 M5 h5 M6 h6 M7 h7 M8 h8 M9 h9 M10 h10 M11 h11) K } := by
  refine ⟨?_, ?_, fun xi8 xi9 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8; obtain rfl := h9.eq_unread hf9
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HS0]; · iexists _; iexact HS0
    iexists _; iexact HS1

set_option maxHeartbeats 8000000 in
/-- CASE B, a middle tile: the rows, found at `xs0`, `xs1`, are updated; the results' buffers are handed back untouched. -/
noncomputable def statsRunB (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Σ' (LS0 : List (View.Piece (Elt F) S1x200 .f32)), { LS1 : List (View.Piece (Elt F) S1x200 .f32) //
      ∀ (xi8 xi9 : Vec F S8x200 .f32) (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
            ∗ owns (c : Thread nD τ) M10 fullShare xs0 ∗ owns (c : Thread nD τ) M11 fullShare xs1
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
                ∗ (∃ f, M10.view.loc (c : Thread nD τ) ↦[M10.view.set]{fullShare} M10.view.writes (Elt F) f LS0) ∗ (∃ f, M11.view.loc (c : Thread nD τ) ↦[M11.view.set]{fullShare} M11.view.writes (Elt F) f LS1)) -∗ K ⟨⟩))
          ⊢ wp frame (wpE (defs₀ (F := F)) Variants.none c none) E (cc0__stats_kernel i M0 h0 M1 h1 M2 h2 M3 h3 M4 h4 M5 h5 M6 h6 M7 h7 M8 h8 M9 h9 M10 h10 M11 h11) K } := by
  refine ⟨?_, ?_, fun xi8 xi9 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8; obtain rfl := h9.eq_unread hf9
    obtain rfl := h10.eq_unread hfs0; obtain rfl := h11.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HS0]; · iexists _; iexact HS0
    iexists _; iexact HS1

set_option maxHeartbeats 8000000 in
/-- CASE C, a sweep's last tile: the rows, found at `xs0`, `xs1`, are updated and then copied over the results' blocks,
    whose buffers are found at anything. -/
noncomputable def statsRunC (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Σ' (L8 : List (View.Piece (Elt F) S8x200 .f32)) (L9 : List (View.Piece (Elt F) S8x200 .f32)) (LS0 : List (View.Piece (Elt F) S1x200 .f32)), { LS1 : List (View.Piece (Elt F) S1x200 .f32) //
      ∀ (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ (∃ d, owns (c : Thread nD τ) M8 fullShare d) ∗ (∃ d, owns (c : Thread nD τ) M9 fullShare d)
            ∗ owns (c : Thread nD τ) M10 fullShare xs0 ∗ owns (c : Thread nD τ) M11 fullShare xs1
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
                ∗ (∃ f, M8.view.loc (c : Thread nD τ) ↦[M8.view.set]{fullShare} M8.view.writes (Elt F) f L8)
                ∗ (∃ f, M9.view.loc (c : Thread nD τ) ↦[M9.view.set]{fullShare} M9.view.writes (Elt F) f L9)
                ∗ (∃ f, M10.view.loc (c : Thread nD τ) ↦[M10.view.set]{fullShare} M10.view.writes (Elt F) f LS0) ∗ (∃ f, M11.view.loc (c : Thread nD τ) ↦[M11.view.set]{fullShare} M11.view.writes (Elt F) f LS1)) -∗ K ⟨⟩))
          ⊢ wp frame (wpE (defs₀ (F := F)) Variants.none c none) E (cc0__stats_kernel i M0 h0 M1 h1 M2 h2 M3 h3 M4 h4 M5 h5 M6 h6 M7 h7 M8 h8 M9 h9 M10 h10 M11 h11) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h10.eq_unread hfs0; obtain rfl := h11.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [HS0]; · iexists _; iexact HS0
    iexists _; iexact HS1

end Cert.Kernel.Hand

end
-- ==== Proof.KStats.lean ====
/-
  The first kernel (the statistics pass), continued: what each control case leaves in the two carried rows and in the
  results' blocks, the state tile by tile, the region's invariant, its proof data and the body obligation — all at ANY
  contents `V` of the TensorCore's buffers on entry.

  After tile `n` the level row and the sum row hold what the case of tile `n` computes from the tile's input blocks and
  from what tile `n - 1` left (nothing, at a sweep's first tile). The invariant before tile `n + 1` holds the two rows at
  exactly those contents; before the first tile it holds them, like every other scoped buffer the pipeline does not
  stage, at anything.
-/
import proofs.«136091_j11613591568915_2_alg».proof.Proof.KStatsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)

/-! ## What each case leaves -/

/-- The two rows after a sweep's first tile. -/
def rowsA (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) :
    Vec F S1x200 .f32 × Vec F S1x200 .f32 :=
  (VS0.read (Elt F) (VS0.writes (Elt F) VS0.junk (statsRunA c i M0 h0 M1 h1 M2 h2 M3 h3 M4 h4 M5 h5 M6 h6 M7 h7 M8 h8 M9 h9 M10 h10 M11 h11 hc0 hc1 x0 x1 x2 x3 x4 x5 x6 x7).1),
   VS1.read (Elt F) (VS1.writes (Elt F) VS1.junk (statsRunA c i M0 h0 M1 h1 M2 h2 M3 h3 M4 h4 M5 h5 M6 h6 M7 h7 M8 h8 M9 h9 M10 h10 M11 h11 hc0 hc1 x0 x1 x2 x3 x4 x5 x6 x7).2.1))
theorem scoverA_0 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (y : S1x200.Idx) :
    ∃ pc ∈ (statsRunA c i M0 h0 M1 h1 M2 h2 M3 h3 M4 h4 M5 h5 M6 h6 M7 h7 M8 h8 M9 h9 M10 h10 M11 h11 hc0 hc1 x0 x1 x2 x3 x4 x5 x6 x7).1, y ∈ pc.1.set :=
  View.cover_of_tiledL (statsRunA c i M0 h0 M1 h1 M2 h2 M3 h3 M4 h4 M5 h5 M6 h6 M7 h7 M8 h8 M9 h9 M10 h10 M11 h11 hc0 hc1 x0 x1 x2 x3 x4 x5 x6 x7).1 S1x200.size (by sl_kernel_rfl) y
theorem scoverA_1 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (y : S1x200.Idx) :
    ∃ pc ∈ (statsRunA c i M0 h0 M1 h1 M2 h2 M3 h3 M4 h4 M5 h5 M6 h6 M7 h7 M8 h8 M9 h9 M10 h10 M11 h11 hc0 hc1 x0 x1 x2 x3 x4 x5 x6 x7).2.1, y ∈ pc.1.set :=
  View.cover_of_tiledL (statsRunA c i M0 h0 M1 h1 M2 h2 M3 h3 M4 h4 M5 h5 M6 h6 M7 h7 M8 h8 M9 h9 M10 h10 M11 h11 hc0 hc1 x0 x1 x2 x3 x4 x5 x6 x7).2.1 S1x200.size (by sl_kernel_rfl) y

/-- The two rows after a middle tile, from what the tile before left. -/
def rowsB (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Vec F S1x200 .f32 × Vec F S1x200 .f32 :=
  (VS0.read (Elt F) (VS0.writes (Elt F) VS0.junk (statsRunB c i M0 h0 M1 h1 M2 h2 M3 h3 M4 h4 M5 h5 M6 h6 M7 h7 M8 h8 M9 h9 M10 h10 M11 h11 hc0 hc1 x0 x1 x2 x3 x4 x5 x6 x7 xs0 xs1).1),
   VS1.read (Elt F) (VS1.writes (Elt F) VS1.junk (statsRunB c i M0 h0 M1 h1 M2 h2 M3 h3 M4 h4 M5 h5 M6 h6 M7 h7 M8 h8 M9 h9 M10 h10 M11 h11 hc0 hc1 x0 x1 x2 x3 x4 x5 x6 x7 xs0 xs1).2.1))
theorem scoverB_0 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunB c i M0 h0 M1 h1 M2 h2 M3 h3 M4 h4 M5 h5 M6 h6 M7 h7 M8 h8 M9 h9 M10 h10 M11 h11 hc0 hc1 x0 x1 x2 x3 x4 x5 x6 x7 xs0 xs1).1, y ∈ pc.1.set :=
  View.cover_of_tiledL (statsRunB c i M0 h0 M1 h1 M2 h2 M3 h3 M4 h4 M5 h5 M6 h6 M7 h7 M8 h8 M9 h9 M10 h10 M11 h11 hc0 hc1 x0 x1 x2 x3 x4 x5 x6 x7 xs0 xs1).1 S1x200.size (by sl_kernel_rfl) y
theorem scoverB_1 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunB c i M0 h0 M1 h1 M2 h2 M3 h3 M4 h4 M5 h5 M6 h6 M7 h7 M8 h8 M9 h9 M10 h10 M11 h11 hc0 hc1 x0 x1 x2 x3 x4 x5 x6 x7 xs0 xs1).2.1, y ∈ pc.1.set :=
  View.cover_of_tiledL (statsRunB c i M0 h0 M1 h1 M2 h2 M3 h3 M4 h4 M5 h5 M6 h6 M7 h7 M8 h8 M9 h9 M10 h10 M11 h11 hc0 hc1 x0 x1 x2 x3 x4 x5 x6 x7 xs0 xs1).2.1 S1x200.size (by sl_kernel_rfl) y

/-- The two rows after a sweep's last tile, -/
def rowsC (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Vec F S1x200 .f32 × Vec F S1x200 .f32 :=
  (VS0.read (Elt F) (VS0.writes (Elt F) VS0.junk (statsRunC c i M0 h0 M1 h1 M2 h2 M3 h3 M4 h4 M5 h5 M6 h6 M7 h7 M8 h8 M9 h9 M10 h10 M11 h11 hc0 hc1 x0 x1 x2 x3 x4 x5 x6 x7 xs0 xs1).2.2.1),
   VS1.read (Elt F) (VS1.writes (Elt F) VS1.junk (statsRunC c i M0 h0 M1 h1 M2 h2 M3 h3 M4 h4 M5 h5 M6 h6 M7 h7 M8 h8 M9 h9 M10 h10 M11 h11 hc0 hc1 x0 x1 x2 x3 x4 x5 x6 x7 xs0 xs1).2.2.2.1))
/-- and the two results' blocks it stores. -/
def outsC (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Vec F S8x200 .f32 × Vec F S8x200 .f32 :=
  (VO8.read (Elt F) (VO8.writes (Elt F) VO8.junk (statsRunC c i M0 h0 M1 h1 M2 h2 M3 h3 M4 h4 M5 h5 M6 h6 M7 h7 M8 h8 M9 h9 M10 h10 M11 h11 hc0 hc1 x0 x1 x2 x3 x4 x5 x6 x7 xs0 xs1).1),
   VO9.read (Elt F) (VO9.writes (Elt F) VO9.junk (statsRunC c i M0 h0 M1 h1 M2 h2 M3 h3 M4 h4 M5 h5 M6 h6 M7 h7 M8 h8 M9 h9 M10 h10 M11 h11 hc0 hc1 x0 x1 x2 x3 x4 x5 x6 x7 xs0 xs1).2.1))
theorem scoverC_0 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).2.2.1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).2.2.1 S1x200.size (by sl_kernel_rfl) y
theorem scoverC_1 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).2.2.2.1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).2.2.2.1 S1x200.size (by sl_kernel_rfl) y
theorem coverC_8 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S8x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).1 S8x200.size (by sl_kernel_rfl) y
theorem coverC_9 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S8x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).2.1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).2.1 S8x200.size (by sl_kernel_rfl) y

/-! ## The state tile by tile -/

/-- A results' block nobody consults (the window idle, not written back): anything. -/
def idleOuts : Vec F S8x200 .f32 × Vec F S8x200 .f32 := (VO8.read (Elt F) VO8.junk, VO9.read (Elt F) VO9.junk)

/-- THE ACCUMULATION: the results' staging contents and the two rows after tile `n`: the case the tile is in, run at
    the tile's memrefs and input blocks, the rows (cases B, C) at what tile `n - 1` left. -/
def stateAt0 (c : Dev nD) : (n : ℕ) → n < cfg0.N → (Vec F S8x200 .f32 × Vec F S8x200 .f32) × (Vec F S1x200 .f32 × Vec F S1x200 .f32)
  | 0, hn => (idleOuts, rowsA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) scM1 (Memref.isWhole_whole _) ((hcond0_0 ⟨0, hn⟩).mpr (Nat.zero_mod _)) (fun h => absurd ((hcond0_1 ⟨0, hn⟩).mp h) (by simp)) (blk0 V c 0 ⟨0, hn⟩) (blk0 V c 1 ⟨0, hn⟩) (blk0 V c 2 ⟨0, hn⟩) (blk0 V c 3 ⟨0, hn⟩) (blk0 V c 4 ⟨0, hn⟩) (blk0 V c 5 ⟨0, hn⟩) (blk0 V c 6 ⟨0, hn⟩) (blk0 V c 7 ⟨0, hn⟩))
  | n + 1, hn =>
    if h0 : (n + 1) % 23 = 0 then
      (idleOuts, rowsA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) ((hcond0_0 ⟨n + 1, hn⟩).mpr h0) (fun h => absurd ((hcond0_1 ⟨n + 1, hn⟩).mp h) (by simp only []; omega)) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩))
    else
      if h1 : (n + 1) % 23 = 22 then
        (outsC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩) (stateAt0 c n (Nat.lt_of_succ_lt hn)).2.1 (stateAt0 c n (Nat.lt_of_succ_lt hn)).2.2,
         rowsC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩) (stateAt0 c n (Nat.lt_of_succ_lt hn)).2.1 (stateAt0 c n (Nat.lt_of_succ_lt hn)).2.2)
      else
        (idleOuts, rowsB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) (fun h => h0 ((hcond0_0 ⟨n + 1, hn⟩).mp h)) (fun h => h1 ((hcond0_1 ⟨n + 1, hn⟩).mp h)) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩) (stateAt0 c n (Nat.lt_of_succ_lt hn)).2.1 (stateAt0 c n (Nat.lt_of_succ_lt hn)).2.2)

/-- The state before tile `t`'s predecessor exists whenever `t` is not the first tile. -/
abbrev prevRows (c : Dev nD) (t : Fin cfg0.N) : Vec F S1x200 .f32 × Vec F S1x200 .f32 :=
  (stateAt0 V c (t.val - 1) (Nat.lt_of_le_of_lt (Nat.sub_le _ _) t.isLt)).2

theorem stateAt0_A (c : Dev nD) (t : Fin cfg0.N) (h0 : t.val % 23 = 0) (h1 : ¬t.val % 23 = 22) :
    (stateAt0 V c t.val t.isLt).2 = rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) ((hcond0_0 t).mpr h0) (fun h => h1 ((hcond0_1 t).mp h)) (blk0 V c 0 t) (blk0 V c 1 t) (blk0 V c 2 t) (blk0 V c 3 t) (blk0 V c 4 t) (blk0 V c 5 t) (blk0 V c 6 t) (blk0 V c 7 t) := by
  obtain ⟨n, hn⟩ := t
  cases n with
  | zero => rfl
  | succ n => exact congrArg Prod.snd ((dif_pos h0).trans rfl)

theorem stateAt0_B_pair (c : Dev nD) (t : Fin cfg0.N) (h0 : ¬t.val % 23 = 0) (h1 : ¬t.val % 23 = 22) :
    stateAt0 V c t.val t.isLt = (idleOuts, rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) (fun h => h1 ((hcond0_1 t).mp h)) (blk0 V c 0 t) (blk0 V c 1 t) (blk0 V c 2 t) (blk0 V c 3 t) (blk0 V c 4 t) (blk0 V c 5 t) (blk0 V c 6 t) (blk0 V c 7 t) (prevRows V c t).1 (prevRows V c t).2) := by
  obtain ⟨n, hn⟩ := t
  cases n with
  | zero => exact absurd (Nat.zero_mod _) h0
  | succ n => exact (dif_neg h0).trans ((dif_neg h1).trans rfl)

theorem stateAt0_B (c : Dev nD) (t : Fin cfg0.N) (h0 : ¬t.val % 23 = 0) (h1 : ¬t.val % 23 = 22) :
    (stateAt0 V c t.val t.isLt).2 = rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) (fun h => h1 ((hcond0_1 t).mp h)) (blk0 V c 0 t) (blk0 V c 1 t) (blk0 V c 2 t) (blk0 V c 3 t) (blk0 V c 4 t) (blk0 V c 5 t) (blk0 V c 6 t) (blk0 V c 7 t) (prevRows V c t).1 (prevRows V c t).2 :=
  congrArg Prod.snd (stateAt0_B_pair V c t h0 h1)

theorem stateAt0_C (c : Dev nD) (t : Fin cfg0.N) (h0 : ¬t.val % 23 = 0) (h1 : t.val % 23 = 22) :
    stateAt0 V c t.val t.isLt = (outsC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) ((hcond0_1 t).mpr h1) (blk0 V c 0 t) (blk0 V c 1 t) (blk0 V c 2 t) (blk0 V c 3 t) (blk0 V c 4 t) (blk0 V c 5 t) (blk0 V c 6 t) (blk0 V c 7 t) (prevRows V c t).1 (prevRows V c t).2,
      rowsC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) ((hcond0_1 t).mpr h1) (blk0 V c 0 t) (blk0 V c 1 t) (blk0 V c 2 t) (blk0 V c 3 t) (blk0 V c 4 t) (blk0 V c 5 t) (blk0 V c 6 t) (blk0 V c 7 t) (prevRows V c t).1 (prevRows V c t).2) := by
  obtain ⟨n, hn⟩ := t
  cases n with
  | zero => exact absurd (Nat.zero_mod _) h0
  | succ n => exact (dif_neg h0).trans ((dif_pos h1).trans rfl)

/-! ## The invariant -/

/-- The scoped buffers the pipeline does not stage, other than the two rows: the second kernel's staging buffers, each
    at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f))

/-- The class's invariant, the two rows named. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 c) ∗ (∃ r, prngReg c r)) := by
  unfold Pipeline.ΦA; rw [scopedRest0_eq]; simp only [scM0, scM1, owns_whole]; try rfl

/-- The invariant before tile `n`: before the first, every scoped buffer at anything; afterwards the two rows at what
    tile `n - 1` left. -/
def PhiS (c : Dev nD) : (n : ℕ) → n ≤ cfg0.N → sProp 𝕄
  | 0, _ => Pipeline.ΦA spec0 c
  | n + 1, hn => iprop(iprop(owns (c : Thread nD τ) scM0 fullShare ((stateAt0 V c n hn).2.1) ∗ owns (c : Thread nD τ) scM1 fullShare ((stateAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((stateAt0 V c n hn).2.1) ∗ owns (c : Thread nD τ) scM1 fullShare ((stateAt0 V c n hn).2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((stateAt0 V c (n - 1) (by omega)).2.1) ∗ owns (c : Thread nD τ) scM1 fullShare ((stateAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => (stateAt0 V c t.val t.isLt).1.1
    | ⟨9, _⟩ => (stateAt0 V c t.val t.isLt).1.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = (stateAt0 V c t.val t.isLt).1.1 := by dsimp only [dat0]
theorem after0_9 (c : Dev nD) (t : Fin cfg0.N) : (dat0 V c).after 9 t = (stateAt0 V c t.val t.isLt).1.2 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d
theorem before0_7 (c : Dev nD) (t : Fin cfg0.N) (d) : (dat0 V c).before 7 t d = blk0 V c 7 t :=
  before0_7_of V (dat0 V c) (A_eq0 V c 7) (after0_7 V c) t d

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 16000000 in
/-- The body at any tile: the closed forms say which case the tile is in; the invariant hands the body the two rows at
    what the tile before left (at anything before the first tile) and takes them back at this tile's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 46 := lt_of_lt_of_eq t.isLt (show cfg0.N = 46 from N_0)
  by_cases h0 : t.val % 23 = 0
  · have h1 : ¬t.val % 23 = 22 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [stateAt0_A V c t h0 h1]
    unfold rowsA; (try dsimp only)
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunA c (grid0.coords t) _ _ _ _ _ _ _ _ _ _ _ _ _ _ _ _ _ _ _ _ _ _ _ _ ((hcond0_0 t).mpr h0) (fun h => h1 ((hcond0_1 t).mp h)) (blk0 V c 0 t) (blk0 V c 1 t) (blk0 V c 2 t) (blk0 V c 3 t) (blk0 V c 4 t) (blk0 V c 5 t) (blk0 V c 6 t) (blk0 V c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunA c (grid0.coords t) _ _ _ _ _ _ _ _ _ _ _ _ _ _ _ _ _ _ _ _ _ _ _ _ ((hcond0_0 t).mpr h0) (fun h => h1 ((hcond0_1 t).mp h)) (blk0 V c 0 t) (blk0 V c 1 t) (blk0 V c 2 t) (blk0 V c 3 t) (blk0 V c 4 t) (blk0 V c 5 t) (blk0 V c 6 t) (blk0 V c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by rw [h])
    by_cases h1 : t.val % 23 = 22
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [stateAt0_C V c t h0 h1]
      unfold rowsC outsC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunC c (grid0.coords t) _ _ _ _ _ _ _ _ _ _ _ _ _ _ _ _ _ _ _ _ _ _ _ _ (fun h => h0 ((hcond0_0 t).mp h)) ((hcond0_1 t).mpr h1) (blk0 V c 0 t) (blk0 V c 1 t) (blk0 V c 2 t) (blk0 V c 3 t) (blk0 V c 4 t) (blk0 V c 5 t) (blk0 V c 6 t) (blk0 V c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverC_8 c _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (coverC_9 c _ _ _ _ _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [stateAt0_B V c t h0 h1]
      unfold rowsB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunB c (grid0.coords t) _ _ _ _ _ _ _ _ _ _ _ _ _ _ _ _ _ _ _ _ _ _ _ _ (fun h => h0 ((hcond0_0 t).mp h)) (fun h => h1 ((hcond0_1 t).mp h)) (blk0 V c 0 t) (blk0 V c 1 t) (blk0 V c 2 t) (blk0 V c 3 t) (blk0 V c 4 t) (blk0 V c 5 t) (blk0 V c 6 t) (blk0 V c 7 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any tile the invariant gives the class's back: the rows' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last tile. -/
theorem hout0 (c : Dev nD) : (dat0 V c).Φ (Fin.last cfg0.N) ⊢ Pipeline.ΦA spec0 c :=
  Phi_out0 V c _ (by rw [Fin.val_last]; have : cfg0.N = 46 := N_0; omega)

end Cert.Kernel.Hand

end
-- ==== Proof.KMix.lean ====
/-
  The second kernel (the mix: word_dist's tile) as a region entered from ANY contents `V` of the TensorCore's buffers.

  The grid is the 46 tiles of 2176 words. At tile `t` the body is handed the tile's 2176 × 300 block of the padded
  word vectors (window 0), the seven per-topic tables whole (windows 1–7: the three 300 × 200 matrices, then the four
  1 × 200 rows), the 1 × 200 row of per-topic log-normalisers (window 8) and the 256 × 200 sample matrix (window 9);
  it stores one 256 × 2176 block (window 10). What that block holds is ONE pure function of the ten blocks and of the
  tile's first word index `2176 · t`: the samples times the transposed tile of `exp (logit - log-normaliser)`, the
  logit of a word past the end of the vocabulary replaced by the fill. Only the first window's block moves with `t`;
  the other nine are fetched once and stay.
-/
import proofs.«136091_j11613591568915_2_alg».proof.Proof.Gen.Kernel.Launch
import proofs.«136091_j11613591568915_2_alg».proof.Proof.Gen.Kernel.Skeleton
import proofs.«136091_j11613591568915_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer holds its block whenever the body is called, fetched at that point or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Window 1's staging buffer holds its block whenever the body is called, fetched at that point or not. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Window 2's staging buffer holds its block whenever the body is called, fetched at that point or not. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Window 3's staging buffer holds its block whenever the body is called, fetched at that point or not. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Window 4's staging buffer holds its block whenever the body is called, fetched at that point or not. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Window 5's staging buffer holds its block whenever the body is called, fetched at that point or not. -/
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Window 6's staging buffer holds its block whenever the body is called, fetched at that point or not. -/
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Window 7's staging buffer holds its block whenever the body is called, fetched at that point or not. -/
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- Window 8's staging buffer holds its block whenever the body is called, fetched at that point or not. -/
theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

/-- Window 9's staging buffer holds its block whenever the body is called, fetched at that point or not. -/
theorem before1_9_of {c : Dev nD} (dat : Dat τ (Elt F) Unit ℕ (UR sig nD τ) ℕ cfg1 c) (hA : dat.A 9 = V c (Pipeline.arrRef spec1 9))
    (hafter : ∀ t, dat.after 9 t = blk1 V c 9 t) (t : Fin cfg1.N) (d) : dat.before 9 t d = blk1 V c 9 t :=
  (dat.before_in_eq_fetched 9 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and the one store take a whole buffer -/

abbrev rWv : Rect S2176x300 := Rect.unit (s := S2176x300) ![0, 0] S2176x300.size inb_S2176x300_S2176x300_0_0
abbrev rDk : Rect S300x200 := Rect.unit (s := S300x200) ![0, 0] S300x200.size inb_S300x200_S300x200_0_0
abbrev rRow : Rect S1x200 := Rect.unit (s := S1x200) ![0, 0] S1x200.size inb_S1x200_S1x200_0_0
abbrev rSx : Rect S256x200 := Rect.unit (s := S256x200) ![0, 0] S256x200.size inb_S256x200_S256x200_0_0
abbrev rOut : Rect S256x2176 := Rect.unit (s := S256x2176) ![0, 0] S256x2176.size inb_S256x2176_S256x2176_0_0

/-- The tile's first word index as the body computes it from the grid coordinate. -/
abbrev tileStart1 (i : grid1.Coords) : BitVec 32 := Scalar.muli (BitVec.ofNat 32 (i 0).val) 2176#32

/-- The stored value: the logits of the tile (half the quadratic form off the per-topic constant, plus the squared
    projection over twice the capacitance), masked past the vocabulary, less the log-normaliser, exponentiated, and
    contracted over the topics with the samples. -/
def mixPay (i : grid1.Coords) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (x8 : Vec F S1x200 .f32) (x9 : Vec F S256x200 .f32) : FVec F S256x2176 .f32 :=
  k1_pay1 (tileStart1 i) (k1_pay4 (View.ld x0 rWv) (View.ld x1 rDk) (View.ld x2 rDk) (View.ld x4 rRow) (View.ld x7 rRow)) (k1_pay5 (View.ld x0 rWv) (View.ld x3 rDk) (View.ld x5 rRow))
    (k1_pay6 (View.ld x6 rRow)) (View.ld x8 rRow) (View.ld x9 rSx)

/-- What the body leaves in window 10's staging buffer: its one store. -/
def mixOut (i : grid1.Coords) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (x8 : Vec F S1x200 .f32) (x9 : Vec F S256x200 .f32) : Vec F S256x2176 .f32 :=
  View.canon [⟨rOut, mixPay i x0 x1 x2 x3 x4 x5 x6 x7 x8 x9⟩]

/-- The one store takes the whole buffer. -/
theorem coverOut (p : Vec F S256x2176 .f32) (y : S256x2176.Idx) :
    ∃ pc ∈ ([⟨rOut, p⟩] : List (View.Piece (Elt F) S256x2176 .f32)), y ∈ pc.1.set :=
  View.cover_of_tiled [⟨rOut, p⟩] S256x2176.size (by rfl) y

/-! ## The body's triple -/

set_option maxHeartbeats 8000000 in
/-- The body on whole staging memrefs, the ten inputs' at read contents and the output's at anything, runs to the
    continuation holding the inputs' as they were and the output's at `mixOut` of them. -/
theorem sound_mix (c : Dev nD) (E : Set ℕ) (i : grid1.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S1x200 .f32) (h8 : M8.IsWhole) (M9 : Memref sig .tc .vmem S256x200 .f32) (h9 : M9.IsWhole) (M10 : Memref sig .tc .vmem S256x2176 .f32) (h10 : M10.IsWhole)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (x8 : Vec F S1x200 .f32) (x9 : Vec F S256x200 .f32) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ d, owns (c : Thread nD τ) M10 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare (mixOut i x0 x1 x2 x3 x4 x5 x6 x7 x8 x9)) -∗ K ⟨⟩))
      ⊢ wp frame (wpE (defs₀ (F := F)) Variants.none c none) E (cc1__mix_kernel i M0 h0 M1 h1 M2 h2 M3 h3 M4 h4 M5 h5 M6 h6 M7 h7 M8 h8 M9 h9 M10 h10) K := by
  simp only [cc1__mix_kernel_eq_skeleton]; unfold cc1__mix_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (coverOut _)

/-! ## The proof data -/

/-- The proof data on core `c`: the arrays as the region finds them; after the body at tile `t` each input's buffer
    at its block and the output's at `mixOut` of the ten blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => mixOut (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) :
    (dat1 V c).after 10 t = mixOut (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d
theorem before1_7 (c : Dev nD) (t : Fin cfg1.N) (d) : (dat1 V c).before 7 t d = blk1 V c 7 t :=
  before1_7_of V (dat1 V c) (A_eq1 V c 7) (after1_7 V c) t d
theorem before1_8 (c : Dev nD) (t : Fin cfg1.N) (d) : (dat1 V c).before 8 t d = blk1 V c 8 t :=
  before1_8_of V (dat1 V c) (A_eq1 V c 8) (after1_8 V c) t d
theorem before1_9 (c : Dev nD) (t : Fin cfg1.N) (d) : (dat1 V c).before 9 t d = blk1 V c 9 t :=
  before1_9_of V (dat1 V c) (A_eq1 V c 9) (after1_9 V c) t d

/-! ## The body obligation, at a generic tile -/

/-- What the body is called with at tile `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any tile: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_mix c Set.univ (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  @main from the launch to the return, as six segments: the 41 host operations that prepare the per-topic tables, the
  pad of the word vectors, the first kernel, the 14 host operations that merge the two sweeps' (level, sum) pairs into
  one log-normaliser per topic, the second kernel, and the slice-and-concatenate that assembles the result. Between two
  segments every unscoped buffer of the TensorCore is held at named contents — a fold from the launch memory: a host
  stretch applies its operations, a kernel leaves its windows' arrays at what the pipeline's write-backs make of its
  proof data and every other buffer alone. The run's post reads EVERY unscoped buffer off the last contents, so the
  frame (no argument is written) and the result's value both follow from it.
-/
import proofs.«136091_j11613591568915_2_alg».proof.Proof.KStats
import proofs.«136091_j11613591568915_2_alg».proof.Proof.KMix
import proofs.«136091_j11613591568915_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the 41 preparing operations. -/
abbrev W1 : Dev nD → Valuation τ sig (Elt F) := fun c => StableHlo.after hostOps0 (W0 m c)
/-- After the pad: the first kernel's entry. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- After the first kernel: its arrays at what its write-backs leave, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
theorem hF0 (c : Dev nD) (w : Fin cfg0.W) : (dat0 (V2 m) c).arrAt w cfg0.N = W3 m c (Pipeline.arrRef spec0 w) :=
  (W3_arr m c w).symm
theorem hrest0 (c : Dev nD) : ∀ b : Ref sig .tc, b ∉ Finset.univ.image (Pipeline.arrRef spec0) → W3 m c b = V2 m c b :=
  fun b hb => W3_of_ne m c b fun w e => hb (Finset.mem_image.mpr ⟨w, Finset.mem_univ _, e⟩)
/-- After the 14 merging operations: the second kernel's entry. -/
abbrev W4 : Dev nD → Valuation τ sig (Elt F) := fun c => StableHlo.after hostOps1 (W3 m c)
abbrev V4 : (c : Dev nD) → (b : Ref sig .tc) → Buf (Elt F) ((c : Thread nD τ).loc b) := fun c b => W4 m c b
/-- After the second kernel. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = W5 m c (Pipeline.arrRef spec1 w) :=
  (W5_arr m c w).symm
theorem hrest1 (c : Dev nD) : ∀ b : Ref sig .tc, b ∉ Finset.univ.image (Pipeline.arrRef spec1) → W5 m c b = V4 m c b :=
  fun b hb => W5_of_ne m c b fun w e => hb (Finset.mem_image.mpr ⟨w, Finset.mem_univ _, e⟩)
/-- After the slice and the concatenate: the return. -/
abbrev W6 : Dev nD → Valuation τ sig (Elt F) := fun c => StableHlo.after hostOps2 (W5 m c)

/-! ## No segment writes an argument -/

/-- A buffer no host stretch writes and no kernel stages reaches the end as launched. -/
theorem W6_untouched (c : Dev nD) (r : Ref sig .tc) (h0 : r ∉ hostOps0_W) (h01 : r ∉ hostOps0_1_W) (h1 : r ∉ hostOps1_W)
    (h2 : r ∉ hostOps2_W) (ha0 : ∀ w, Pipeline.arrRef spec0 w ≠ r) (ha1 : ∀ w, Pipeline.arrRef spec1 w ≠ r) :
    W6 m c (Proc.devRef .tc r) = m ((c : Thread nD τ).loc r) :=
  calc W6 m c (Proc.devRef .tc r)
    _ = W5 m c (Proc.devRef .tc r) := StableHlo.after_of_writes_sub hostOps2 _ hostOps2_writes h2
    _ = W4 m c (Proc.devRef .tc r) := W5_of_ne m c r ha1
    _ = W3 m c (Proc.devRef .tc r) := StableHlo.after_of_writes_sub hostOps1 _ hostOps1_writes h1
    _ = W2 m c (Proc.devRef .tc r) := W3_of_ne m c r ha0
    _ = W1 m c (Proc.devRef .tc r) := StableHlo.after_of_writes_sub hostOps0_1 _ hostOps0_1_writes h01
    _ = W0 m c (Proc.devRef .tc r) := StableHlo.after_of_writes_sub hostOps0 _ hostOps0_writes h0
    _ = m ((c : Thread nD τ).loc r) := rfl

theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)

/-- The samples are the second kernel's tenth input: an input's array ends as entered. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := (W5_arr m c 9).trans (((dat1 (V4 m) c).arrAt_in 9 rfl _).trans (A_eq1 (V4 m) c 9))
    _ = W3 m c (Proc.devRef .tc main_arg0) := StableHlo.after_of_writes_sub hostOps1 _ hostOps1_writes (by decide)
    _ = W2 m c (Proc.devRef .tc main_arg0) := W3_of_ne m c main_arg0 (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The two kernels as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (fun b => W3 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .region (reg1 m),
    .host (hseg hostOps2 hostOps2_sub hostOps2_fresh (W5 m)) ]
theorem main_run (c : Dev nD) : main (F := F) c = Pipeline.Seg.run (segs m) := (main_chain c).trans (by chain_rfl)

set_option backward.isDefEq.respectTransparency.types false in
/-- THE RUN: every weakly fair execution of @main terminates, nothing faulting, and the final memory holds every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every weakly fair execution terminates with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.Kernel.Hand

end
-- ==== Proof.IStatsRuns.lean ====
/-
  The first kernel (the statistics pass) as a region entered from ANY contents `V` of the TensorCore's buffers.

  The grid is 2 × 23: the 46 tiles of 2176 words in order, the first 23 swept by one half and the last 23 by the other.
  A sweep keeps two 1 × 200 rows between its tiles, one number per topic each: a LEVEL and a SUM. At the sweep's first
  tile (case A) both are started afresh — the level at the fill, the sum at zero — and then, as at every tile, the
  level is raised to at least the tile's largest logit and the sum, rescaled to the new level, takes the tile's
  `exp (logit - level)` over its 2176 words; at a middle tile (case B) only that; at the sweep's last tile (case C) the two
  rows are moreover copied over the 8 rows of the sweep's block of each result. The results' blocks are idle, and not
  written back, at every tile but a sweep's last. What the rows hold after a tile is found by running the body once per
  case at symbolic operands; nothing the body computes is written out here.
-/
import proofs.«136091_j11613591568915_2_alg».proof.Proof.Gen.KernelIdeal.Launch
import proofs.«136091_j11613591568915_2_alg».proof.Proof.Gen.KernelIdeal.Skeleton
import proofs.«136091_j11613591568915_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions of the body, from the grid coordinates -/

/-- "This is a sweep's first tile": the second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 23 = 0 :=
  (by decide +kernel : ∀ t : Fin grid0.N, cond0_0 (grid0.coords t) ↔ t.val % 23 = 0)
/-- "This is a sweep's last tile": the second coordinate is 22. -/
abbrev cond0_1 (i : grid0.Coords) : Prop := k0_cond2 i = 1#1
theorem hcond0_1 : ∀ t : Fin cfg0.N, cond0_1 (grid0.coords t) ↔ t.val % 23 = 22 :=
  (by decide +kernel : ∀ t : Fin grid0.N, cond0_1 (grid0.coords t) ↔ t.val % 23 = 22)

/-! ## Where the results' windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the pipeline calls the body with -/

abbrev ms0_0 (t : Fin cfg0.N) : Memref sig .tc .vmem S2176x300 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S300x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S300x200 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S300x200 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x200 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x200 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x200 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x200 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x200 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x200 .f32 := win0_9.stage (cfg0.slots t 9)
abbrev hs0_9 (t : Fin cfg0.N) : (ms0_9 t).IsWhole := hstage0_9 ((cfg0.slots t 9).cast nbuf0_9)
/-- The level row and the sum row: whole scoped buffers of the kernel's own. -/
abbrev scM0 : Memref sig .tc .vmem S1x200 .f32 := Memref.whole cc0_scratch0
abbrev scM1 : Memref sig .tc .vmem S1x200 .f32 := Memref.whole cc0_scratch1
abbrev VS0 : View sig .tc .vmem S1x200 .f32 := scM0.view
abbrev VS1 : View sig .tc .vmem S1x200 .f32 := scM1.view
/-- One staging buffer of each result's window, through which its contents are stated. -/
abbrev VO8 : View sig .tc .vmem S8x200 .f32 := (Memref.whole cc0_stg8_0 : Memref sig .tc .vmem S8x200 .f32).view
abbrev VO9 : View sig .tc .vmem S8x200 .f32 := (Memref.whole cc0_stg9_0 : Memref sig .tc .vmem S8x200 .f32).view

/-! ## The body, once per case -/

set_option maxHeartbeats 8000000 in
/-- CASE A, a sweep's first tile: the rows are started afresh and then updated; the results' buffers are handed back
    untouched. The pieces each row ends with are the run's witness. -/
noncomputable def statsRunA (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) :
    Σ' (LS0 : List (View.Piece (Elt F) S1x200 .f32)), { LS1 : List (View.Piece (Elt F) S1x200 .f32) //
      ∀ (xi8 xi9 : Vec F S8x200 .f32) (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
            ∗ (∃ d, owns (c : Thread nD τ) M10 fullShare d) ∗ (∃ d, owns (c : Thread nD τ) M11 fullShare d)
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
                ∗ (∃ f, M10.view.loc (c : Thread nD τ) ↦[M10.view.set]{fullShare} M10.view.writes (Elt F) f LS0) ∗ (∃ f, M11.view.loc (c : Thread nD τ) ↦[M11.view.set]{fullShare} M11.view.writes (Elt F) f LS1)) -∗ K ⟨⟩))
          ⊢ wp frame (wpE (defs₀ (F := F)) Variants.none c none) E (cc0__stats_kernel i M0 h0 M1 h1 M2 h2 M3 h3 M4 h4 M5 h5 M6 h6 M7 h7 M8 h8 M9 h9 M10 h10 M11 h11) K } := by
  refine ⟨?_, ?_, fun xi8 xi9 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8; obtain rfl := h9.eq_unread hf9
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HS0]; · iexists _; iexact HS0
    iexists _; iexact HS1

set_option maxHeartbeats 8000000 in
/-- CASE B, a middle tile: the rows, found at `xs0`, `xs1`, are updated; the results' buffers are handed back untouched. -/
noncomputable def statsRunB (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Σ' (LS0 : List (View.Piece (Elt F) S1x200 .f32)), { LS1 : List (View.Piece (Elt F) S1x200 .f32) //
      ∀ (xi8 xi9 : Vec F S8x200 .f32) (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
            ∗ owns (c : Thread nD τ) M10 fullShare xs0 ∗ owns (c : Thread nD τ) M11 fullShare xs1
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare xi8 ∗ owns (c : Thread nD τ) M9 fullShare xi9
                ∗ (∃ f, M10.view.loc (c : Thread nD τ) ↦[M10.view.set]{fullShare} M10.view.writes (Elt F) f LS0) ∗ (∃ f, M11.view.loc (c : Thread nD τ) ↦[M11.view.set]{fullShare} M11.view.writes (Elt F) f LS1)) -∗ K ⟨⟩))
          ⊢ wp frame (wpE (defs₀ (F := F)) Variants.none c none) E (cc0__stats_kernel i M0 h0 M1 h1 M2 h2 M3 h3 M4 h4 M5 h5 M6 h6 M7 h7 M8 h8 M9 h9 M10 h10 M11 h11) K } := by
  refine ⟨?_, ?_, fun xi8 xi9 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8; obtain rfl := h9.eq_unread hf9
    obtain rfl := h10.eq_unread hfs0; obtain rfl := h11.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HS0]; · iexists _; iexact HS0
    iexists _; iexact HS1

set_option maxHeartbeats 8000000 in
/-- CASE C, a sweep's last tile: the rows, found at `xs0`, `xs1`, are updated and then copied over the results' blocks,
    whose buffers are found at anything. -/
noncomputable def statsRunC (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Σ' (L8 : List (View.Piece (Elt F) S8x200 .f32)) (L9 : List (View.Piece (Elt F) S8x200 .f32)) (LS0 : List (View.Piece (Elt F) S1x200 .f32)), { LS1 : List (View.Piece (Elt F) S1x200 .f32) //
      ∀ (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ (∃ d, owns (c : Thread nD τ) M8 fullShare d) ∗ (∃ d, owns (c : Thread nD τ) M9 fullShare d)
            ∗ owns (c : Thread nD τ) M10 fullShare xs0 ∗ owns (c : Thread nD τ) M11 fullShare xs1
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
                ∗ (∃ f, M8.view.loc (c : Thread nD τ) ↦[M8.view.set]{fullShare} M8.view.writes (Elt F) f L8)
                ∗ (∃ f, M9.view.loc (c : Thread nD τ) ↦[M9.view.set]{fullShare} M9.view.writes (Elt F) f L9)
                ∗ (∃ f, M10.view.loc (c : Thread nD τ) ↦[M10.view.set]{fullShare} M10.view.writes (Elt F) f LS0) ∗ (∃ f, M11.view.loc (c : Thread nD τ) ↦[M11.view.set]{fullShare} M11.view.writes (Elt F) f LS1)) -∗ K ⟨⟩))
          ⊢ wp frame (wpE (defs₀ (F := F)) Variants.none c none) E (cc0__stats_kernel i M0 h0 M1 h1 M2 h2 M3 h3 M4 h4 M5 h5 M6 h6 M7 h7 M8 h8 M9 h9 M10 h10 M11 h11) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h10.eq_unread hfs0; obtain rfl := h11.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [HS0]; · iexists _; iexact HS0
    iexists _; iexact HS1

end Cert.KernelIdeal.Hand

end
-- ==== Proof.IStats.lean ====
/-
  The first kernel (the statistics pass), continued: what each control case leaves in the two carried rows and in the
  results' blocks, the state tile by tile, the region's invariant, its proof data and the body obligation — all at ANY
  contents `V` of the TensorCore's buffers on entry.

  After tile `n` the level row and the sum row hold what the case of tile `n` computes from the tile's input blocks and
  from what tile `n - 1` left (nothing, at a sweep's first tile). The invariant before tile `n + 1` holds the two rows at
  exactly those contents; before the first tile it holds them, like every other scoped buffer the pipeline does not
  stage, at anything.
-/
import proofs.«136091_j11613591568915_2_alg».proof.Proof.IStatsRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = blk0 V c 7 t) (t : Fin cfg0.N) (d) : dat.before 7 t d = blk0 V c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)

/-! ## What each case leaves -/

/-- The two rows after a sweep's first tile. -/
def rowsA (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) :
    Vec F S1x200 .f32 × Vec F S1x200 .f32 :=
  (VS0.read (Elt F) (VS0.writes (Elt F) VS0.junk (statsRunA c i M0 h0 M1 h1 M2 h2 M3 h3 M4 h4 M5 h5 M6 h6 M7 h7 M8 h8 M9 h9 M10 h10 M11 h11 hc0 hc1 x0 x1 x2 x3 x4 x5 x6 x7).1),
   VS1.read (Elt F) (VS1.writes (Elt F) VS1.junk (statsRunA c i M0 h0 M1 h1 M2 h2 M3 h3 M4 h4 M5 h5 M6 h6 M7 h7 M8 h8 M9 h9 M10 h10 M11 h11 hc0 hc1 x0 x1 x2 x3 x4 x5 x6 x7).2.1))
theorem scoverA_0 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (y : S1x200.Idx) :
    ∃ pc ∈ (statsRunA c i M0 h0 M1 h1 M2 h2 M3 h3 M4 h4 M5 h5 M6 h6 M7 h7 M8 h8 M9 h9 M10 h10 M11 h11 hc0 hc1 x0 x1 x2 x3 x4 x5 x6 x7).1, y ∈ pc.1.set :=
  View.cover_of_tiledL (statsRunA c i M0 h0 M1 h1 M2 h2 M3 h3 M4 h4 M5 h5 M6 h6 M7 h7 M8 h8 M9 h9 M10 h10 M11 h11 hc0 hc1 x0 x1 x2 x3 x4 x5 x6 x7).1 S1x200.size (by sl_kernel_rfl) y
theorem scoverA_1 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (y : S1x200.Idx) :
    ∃ pc ∈ (statsRunA c i M0 h0 M1 h1 M2 h2 M3 h3 M4 h4 M5 h5 M6 h6 M7 h7 M8 h8 M9 h9 M10 h10 M11 h11 hc0 hc1 x0 x1 x2 x3 x4 x5 x6 x7).2.1, y ∈ pc.1.set :=
  View.cover_of_tiledL (statsRunA c i M0 h0 M1 h1 M2 h2 M3 h3 M4 h4 M5 h5 M6 h6 M7 h7 M8 h8 M9 h9 M10 h10 M11 h11 hc0 hc1 x0 x1 x2 x3 x4 x5 x6 x7).2.1 S1x200.size (by sl_kernel_rfl) y

/-- The two rows after a middle tile, from what the tile before left. -/
def rowsB (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Vec F S1x200 .f32 × Vec F S1x200 .f32 :=
  (VS0.read (Elt F) (VS0.writes (Elt F) VS0.junk (statsRunB c i M0 h0 M1 h1 M2 h2 M3 h3 M4 h4 M5 h5 M6 h6 M7 h7 M8 h8 M9 h9 M10 h10 M11 h11 hc0 hc1 x0 x1 x2 x3 x4 x5 x6 x7 xs0 xs1).1),
   VS1.read (Elt F) (VS1.writes (Elt F) VS1.junk (statsRunB c i M0 h0 M1 h1 M2 h2 M3 h3 M4 h4 M5 h5 M6 h6 M7 h7 M8 h8 M9 h9 M10 h10 M11 h11 hc0 hc1 x0 x1 x2 x3 x4 x5 x6 x7 xs0 xs1).2.1))
theorem scoverB_0 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunB c i M0 h0 M1 h1 M2 h2 M3 h3 M4 h4 M5 h5 M6 h6 M7 h7 M8 h8 M9 h9 M10 h10 M11 h11 hc0 hc1 x0 x1 x2 x3 x4 x5 x6 x7 xs0 xs1).1, y ∈ pc.1.set :=
  View.cover_of_tiledL (statsRunB c i M0 h0 M1 h1 M2 h2 M3 h3 M4 h4 M5 h5 M6 h6 M7 h7 M8 h8 M9 h9 M10 h10 M11 h11 hc0 hc1 x0 x1 x2 x3 x4 x5 x6 x7 xs0 xs1).1 S1x200.size (by sl_kernel_rfl) y
theorem scoverB_1 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunB c i M0 h0 M1 h1 M2 h2 M3 h3 M4 h4 M5 h5 M6 h6 M7 h7 M8 h8 M9 h9 M10 h10 M11 h11 hc0 hc1 x0 x1 x2 x3 x4 x5 x6 x7 xs0 xs1).2.1, y ∈ pc.1.set :=
  View.cover_of_tiledL (statsRunB c i M0 h0 M1 h1 M2 h2 M3 h3 M4 h4 M5 h5 M6 h6 M7 h7 M8 h8 M9 h9 M10 h10 M11 h11 hc0 hc1 x0 x1 x2 x3 x4 x5 x6 x7 xs0 xs1).2.1 S1x200.size (by sl_kernel_rfl) y

/-- The two rows after a sweep's last tile, -/
def rowsC (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Vec F S1x200 .f32 × Vec F S1x200 .f32 :=
  (VS0.read (Elt F) (VS0.writes (Elt F) VS0.junk (statsRunC c i M0 h0 M1 h1 M2 h2 M3 h3 M4 h4 M5 h5 M6 h6 M7 h7 M8 h8 M9 h9 M10 h10 M11 h11 hc0 hc1 x0 x1 x2 x3 x4 x5 x6 x7 xs0 xs1).2.2.1),
   VS1.read (Elt F) (VS1.writes (Elt F) VS1.junk (statsRunC c i M0 h0 M1 h1 M2 h2 M3 h3 M4 h4 M5 h5 M6 h6 M7 h7 M8 h8 M9 h9 M10 h10 M11 h11 hc0 hc1 x0 x1 x2 x3 x4 x5 x6 x7 xs0 xs1).2.2.2.1))
/-- and the two results' blocks it stores. -/
def outsC (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    Vec F S8x200 .f32 × Vec F S8x200 .f32 :=
  (VO8.read (Elt F) (VO8.writes (Elt F) VO8.junk (statsRunC c i M0 h0 M1 h1 M2 h2 M3 h3 M4 h4 M5 h5 M6 h6 M7 h7 M8 h8 M9 h9 M10 h10 M11 h11 hc0 hc1 x0 x1 x2 x3 x4 x5 x6 x7 xs0 xs1).1),
   VO9.read (Elt F) (VO9.writes (Elt F) VO9.junk (statsRunC c i M0 h0 M1 h1 M2 h2 M3 h3 M4 h4 M5 h5 M6 h6 M7 h7 M8 h8 M9 h9 M10 h10 M11 h11 hc0 hc1 x0 x1 x2 x3 x4 x5 x6 x7 xs0 xs1).2.1))
theorem scoverC_0 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).2.2.1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).2.2.1 S1x200.size (by sl_kernel_rfl) y
theorem scoverC_1 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S1x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).2.2.2.1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).2.2.2.1 S1x200.size (by sl_kernel_rfl) y
theorem coverC_8 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S8x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).1 S8x200.size (by sl_kernel_rfl) y
theorem coverC_9 (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) (y : S8x200.Idx) :
    ∃ pc ∈ (statsRunC c i M0 h0 M1 h1 M2 h2 M3 h3 M4 h4 M5 h5 M6 h6 M7 h7 M8 h8 M9 h9 M10 h10 M11 h11 hc0 hc1 x0 x1 x2 x3 x4 x5 x6 x7 xs0 xs1).2.1, y ∈ pc.1.set :=
  View.cover_of_tiledL (statsRunC c i M0 h0 M1 h1 M2 h2 M3 h3 M4 h4 M5 h5 M6 h6 M7 h7 M8 h8 M9 h9 M10 h10 M11 h11 hc0 hc1 x0 x1 x2 x3 x4 x5 x6 x7 xs0 xs1).2.1 S8x200.size (by sl_kernel_rfl) y

/-! ## The state tile by tile -/

/-- A results' block nobody consults (the window idle, not written back): anything. -/
def idleOuts : Vec F S8x200 .f32 × Vec F S8x200 .f32 := (VO8.read (Elt F) VO8.junk, VO9.read (Elt F) VO9.junk)

/-- THE ACCUMULATION: the results' staging contents and the two rows after tile `n`: the case the tile is in, run at
    the tile's memrefs and input blocks, the rows (cases B, C) at what tile `n - 1` left. -/
def stateAt0 (c : Dev nD) : (n : ℕ) → n < cfg0.N → (Vec F S8x200 .f32 × Vec F S8x200 .f32) × (Vec F S1x200 .f32 × Vec F S1x200 .f32)
  | 0, hn => (idleOuts, rowsA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) scM1 (Memref.isWhole_whole _) ((hcond0_0 ⟨0, hn⟩).mpr (Nat.zero_mod _)) (fun h => absurd ((hcond0_1 ⟨0, hn⟩).mp h) (by simp)) (blk0 V c 0 ⟨0, hn⟩) (blk0 V c 1 ⟨0, hn⟩) (blk0 V c 2 ⟨0, hn⟩) (blk0 V c 3 ⟨0, hn⟩) (blk0 V c 4 ⟨0, hn⟩) (blk0 V c 5 ⟨0, hn⟩) (blk0 V c 6 ⟨0, hn⟩) (blk0 V c 7 ⟨0, hn⟩))
  | n + 1, hn =>
    if h0 : (n + 1) % 23 = 0 then
      (idleOuts, rowsA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) ((hcond0_0 ⟨n + 1, hn⟩).mpr h0) (fun h => absurd ((hcond0_1 ⟨n + 1, hn⟩).mp h) (by simp only []; omega)) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩))
    else
      if h1 : (n + 1) % 23 = 22 then
        (outsC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩) (stateAt0 c n (Nat.lt_of_succ_lt hn)).2.1 (stateAt0 c n (Nat.lt_of_succ_lt hn)).2.2,
         rowsC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) (fun h => h0 ((hcond0_0 ⟨n + 1, hn⟩).mp h)) ((hcond0_1 ⟨n + 1, hn⟩).mpr h1) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩) (stateAt0 c n (Nat.lt_of_succ_lt hn)).2.1 (stateAt0 c n (Nat.lt_of_succ_lt hn)).2.2)
      else
        (idleOuts, rowsB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) scM1 (Memref.isWhole_whole _) (fun h => h0 ((hcond0_0 ⟨n + 1, hn⟩).mp h)) (fun h => h1 ((hcond0_1 ⟨n + 1, hn⟩).mp h)) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (blk0 V c 5 ⟨n + 1, hn⟩) (blk0 V c 6 ⟨n + 1, hn⟩) (blk0 V c 7 ⟨n + 1, hn⟩) (stateAt0 c n (Nat.lt_of_succ_lt hn)).2.1 (stateAt0 c n (Nat.lt_of_succ_lt hn)).2.2)

/-- The state before tile `t`'s predecessor exists whenever `t` is not the first tile. -/
abbrev prevRows (c : Dev nD) (t : Fin cfg0.N) : Vec F S1x200 .f32 × Vec F S1x200 .f32 :=
  (stateAt0 V c (t.val - 1) (Nat.lt_of_le_of_lt (Nat.sub_le _ _) t.isLt)).2

theorem stateAt0_A (c : Dev nD) (t : Fin cfg0.N) (h0 : t.val % 23 = 0) (h1 : ¬t.val % 23 = 22) :
    (stateAt0 V c t.val t.isLt).2 = rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) ((hcond0_0 t).mpr h0) (fun h => h1 ((hcond0_1 t).mp h)) (blk0 V c 0 t) (blk0 V c 1 t) (blk0 V c 2 t) (blk0 V c 3 t) (blk0 V c 4 t) (blk0 V c 5 t) (blk0 V c 6 t) (blk0 V c 7 t) := by
  obtain ⟨n, hn⟩ := t
  cases n with
  | zero => rfl
  | succ n => exact congrArg Prod.snd ((dif_pos h0).trans rfl)

theorem stateAt0_B_pair (c : Dev nD) (t : Fin cfg0.N) (h0 : ¬t.val % 23 = 0) (h1 : ¬t.val % 23 = 22) :
    stateAt0 V c t.val t.isLt = (idleOuts, rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) (fun h => h1 ((hcond0_1 t).mp h)) (blk0 V c 0 t) (blk0 V c 1 t) (blk0 V c 2 t) (blk0 V c 3 t) (blk0 V c 4 t) (blk0 V c 5 t) (blk0 V c 6 t) (blk0 V c 7 t) (prevRows V c t).1 (prevRows V c t).2) := by
  obtain ⟨n, hn⟩ := t
  cases n with
  | zero => exact absurd (Nat.zero_mod _) h0
  | succ n => exact (dif_neg h0).trans ((dif_neg h1).trans rfl)

theorem stateAt0_B (c : Dev nD) (t : Fin cfg0.N) (h0 : ¬t.val % 23 = 0) (h1 : ¬t.val % 23 = 22) :
    (stateAt0 V c t.val t.isLt).2 = rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) (fun h => h1 ((hcond0_1 t).mp h)) (blk0 V c 0 t) (blk0 V c 1 t) (blk0 V c 2 t) (blk0 V c 3 t) (blk0 V c 4 t) (blk0 V c 5 t) (blk0 V c 6 t) (blk0 V c 7 t) (prevRows V c t).1 (prevRows V c t).2 :=
  congrArg Prod.snd (stateAt0_B_pair V c t h0 h1)

theorem stateAt0_C (c : Dev nD) (t : Fin cfg0.N) (h0 : ¬t.val % 23 = 0) (h1 : t.val % 23 = 22) :
    stateAt0 V c t.val t.isLt = (outsC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) ((hcond0_1 t).mpr h1) (blk0 V c 0 t) (blk0 V c 1 t) (blk0 V c 2 t) (blk0 V c 3 t) (blk0 V c 4 t) (blk0 V c 5 t) (blk0 V c 6 t) (blk0 V c 7 t) (prevRows V c t).1 (prevRows V c t).2,
      rowsC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) (fun h => h0 ((hcond0_0 t).mp h)) ((hcond0_1 t).mpr h1) (blk0 V c 0 t) (blk0 V c 1 t) (blk0 V c 2 t) (blk0 V c 3 t) (blk0 V c 4 t) (blk0 V c 5 t) (blk0 V c 6 t) (blk0 V c 7 t) (prevRows V c t).1 (prevRows V c t).2) := by
  obtain ⟨n, hn⟩ := t
  cases n with
  | zero => exact absurd (Nat.zero_mod _) h0
  | succ n => exact (dif_neg h0).trans ((dif_pos h1).trans rfl)

/-! ## The invariant -/

/-- The scoped buffers the pipeline does not stage, other than the two rows: the second kernel's staging buffers, each
    at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f))

/-- The class's invariant, the two rows named. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 c) ∗ (∃ r, prngReg c r)) := by
  unfold Pipeline.ΦA; rw [scopedRest0_eq]; simp only [scM0, scM1, owns_whole]; try rfl

/-- The invariant before tile `n`: before the first, every scoped buffer at anything; afterwards the two rows at what
    tile `n - 1` left. -/
def PhiS (c : Dev nD) : (n : ℕ) → n ≤ cfg0.N → sProp 𝕄
  | 0, _ => Pipeline.ΦA spec0 c
  | n + 1, hn => iprop(iprop(owns (c : Thread nD τ) scM0 fullShare ((stateAt0 V c n hn).2.1) ∗ owns (c : Thread nD τ) scM1 fullShare ((stateAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((stateAt0 V c n hn).2.1) ∗ owns (c : Thread nD τ) scM1 fullShare ((stateAt0 V c n hn).2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((stateAt0 V c (n - 1) (by omega)).2.1) ∗ owns (c : Thread nD τ) scM1 fullShare ((stateAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => (stateAt0 V c t.val t.isLt).1.1
    | ⟨9, _⟩ => (stateAt0 V c t.val t.isLt).1.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = (stateAt0 V c t.val t.isLt).1.1 := by dsimp only [dat0]
theorem after0_9 (c : Dev nD) (t : Fin cfg0.N) : (dat0 V c).after 9 t = (stateAt0 V c t.val t.isLt).1.2 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d
theorem before0_7 (c : Dev nD) (t : Fin cfg0.N) (d) : (dat0 V c).before 7 t d = blk0 V c 7 t :=
  before0_7_of V (dat0 V c) (A_eq0 V c 7) (after0_7 V c) t d

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 16000000 in
/-- The body at any tile: the closed forms say which case the tile is in; the invariant hands the body the two rows at
    what the tile before left (at anything before the first tile) and takes them back at this tile's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 46 := lt_of_lt_of_eq t.isLt (show cfg0.N = 46 from N_0)
  by_cases h0 : t.val % 23 = 0
  · have h1 : ¬t.val % 23 = 22 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [stateAt0_A V c t h0 h1]
    unfold rowsA; (try dsimp only)
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunA c (grid0.coords t) _ _ _ _ _ _ _ _ _ _ _ _ _ _ _ _ _ _ _ _ _ _ _ _ ((hcond0_0 t).mpr h0) (fun h => h1 ((hcond0_1 t).mp h)) (blk0 V c 0 t) (blk0 V c 1 t) (blk0 V c 2 t) (blk0 V c 3 t) (blk0 V c 4 t) (blk0 V c 5 t) (blk0 V c 6 t) (blk0 V c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunA c (grid0.coords t) _ _ _ _ _ _ _ _ _ _ _ _ _ _ _ _ _ _ _ _ _ _ _ _ ((hcond0_0 t).mpr h0) (fun h => h1 ((hcond0_1 t).mp h)) (blk0 V c 0 t) (blk0 V c 1 t) (blk0 V c 2 t) (blk0 V c 3 t) (blk0 V c 4 t) (blk0 V c 5 t) (blk0 V c 6 t) (blk0 V c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by rw [h])
    by_cases h1 : t.val % 23 = 22
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [stateAt0_C V c t h0 h1]
      unfold rowsC outsC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunC c (grid0.coords t) _ _ _ _ _ _ _ _ _ _ _ _ _ _ _ _ _ _ _ _ _ _ _ _ (fun h => h0 ((hcond0_0 t).mp h)) ((hcond0_1 t).mpr h1) (blk0 V c 0 t) (blk0 V c 1 t) (blk0 V c 2 t) (blk0 V c 3 t) (blk0 V c 4 t) (blk0 V c 5 t) (blk0 V c 6 t) (blk0 V c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverC_8 c _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (coverC_9 c _ _ _ _ _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [stateAt0_B V c t h0 h1]
      unfold rowsB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((statsRunB c (grid0.coords t) _ _ _ _ _ _ _ _ _ _ _ _ _ _ _ _ _ _ _ _ _ _ _ _ (fun h => h0 ((hcond0_0 t).mp h)) (fun h => h1 ((hcond0_1 t).mp h)) (blk0 V c 0 t) (blk0 V c 1 t) (blk0 V c 2 t) (blk0 V c 3 t) (blk0 V c 4 t) (blk0 V c 5 t) (blk0 V c 6 t) (blk0 V c 7 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any tile the invariant gives the class's back: the rows' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last tile. -/
theorem hout0 (c : Dev nD) : (dat0 V c).Φ (Fin.last cfg0.N) ⊢ Pipeline.ΦA spec0 c :=
  Phi_out0 V c _ (by rw [Fin.val_last]; have : cfg0.N = 46 := N_0; omega)

end Cert.KernelIdeal.Hand

end
-- ==== Proof.IMix.lean ====
/-
  The second kernel (the mix: word_dist's tile) as a region entered from ANY contents `V` of the TensorCore's buffers.

  The grid is the 46 tiles of 2176 words. At tile `t` the body is handed the tile's 2176 × 300 block of the padded
  word vectors (window 0), the seven per-topic tables whole (windows 1–7: the three 300 × 200 matrices, then the four
  1 × 200 rows), the 1 × 200 row of per-topic log-normalisers (window 8) and the 256 × 200 sample matrix (window 9);
  it stores one 256 × 2176 block (window 10). What that block holds is ONE pure function of the ten blocks and of the
  tile's first word index `2176 · t`: the samples times the transposed tile of `exp (logit - log-normaliser)`, the
  logit of a word past the end of the vocabulary replaced by the fill. Only the first window's block moves with `t`;
  the other nine are fetched once and stay.
-/
import proofs.«136091_j11613591568915_2_alg».proof.Proof.Gen.KernelIdeal.Launch
import proofs.«136091_j11613591568915_2_alg».proof.Proof.Gen.KernelIdeal.Skeleton
import proofs.«136091_j11613591568915_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer holds its block whenever the body is called, fetched at that point or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Window 1's staging buffer holds its block whenever the body is called, fetched at that point or not. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Window 2's staging buffer holds its block whenever the body is called, fetched at that point or not. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Window 3's staging buffer holds its block whenever the body is called, fetched at that point or not. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Window 4's staging buffer holds its block whenever the body is called, fetched at that point or not. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Window 5's staging buffer holds its block whenever the body is called, fetched at that point or not. -/
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Window 6's staging buffer holds its block whenever the body is called, fetched at that point or not. -/
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Window 7's staging buffer holds its block whenever the body is called, fetched at that point or not. -/
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- Window 8's staging buffer holds its block whenever the body is called, fetched at that point or not. -/
theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

/-- Window 9's staging buffer holds its block whenever the body is called, fetched at that point or not. -/
theorem before1_9_of {c : Dev nD} (dat : Dat τ (Elt F) Unit ℕ (UR sig nD τ) ℕ cfg1 c) (hA : dat.A 9 = V c (Pipeline.arrRef spec1 9))
    (hafter : ∀ t, dat.after 9 t = blk1 V c 9 t) (t : Fin cfg1.N) (d) : dat.before 9 t d = blk1 V c 9 t :=
  (dat.before_in_eq_fetched 9 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and the one store take a whole buffer -/

abbrev rWv : Rect S2176x300 := Rect.unit (s := S2176x300) ![0, 0] S2176x300.size inb_S2176x300_S2176x300_0_0
abbrev rDk : Rect S300x200 := Rect.unit (s := S300x200) ![0, 0] S300x200.size inb_S300x200_S300x200_0_0
abbrev rRow : Rect S1x200 := Rect.unit (s := S1x200) ![0, 0] S1x200.size inb_S1x200_S1x200_0_0
abbrev rSx : Rect S256x200 := Rect.unit (s := S256x200) ![0, 0] S256x200.size inb_S256x200_S256x200_0_0
abbrev rOut : Rect S256x2176 := Rect.unit (s := S256x2176) ![0, 0] S256x2176.size inb_S256x2176_S256x2176_0_0

/-- The tile's first word index as the body computes it from the grid coordinate. -/
abbrev tileStart1 (i : grid1.Coords) : BitVec 32 := Scalar.muli (BitVec.ofNat 32 (i 0).val) 2176#32

/-- The stored value: the logits of the tile (half the quadratic form off the per-topic constant, plus the squared
    projection over twice the capacitance), masked past the vocabulary, less the log-normaliser, exponentiated, and
    contracted over the topics with the samples. -/
def mixPay (i : grid1.Coords) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (x8 : Vec F S1x200 .f32) (x9 : Vec F S256x200 .f32) : FVec F S256x2176 .f32 :=
  k1_pay1 (tileStart1 i) (k1_pay4 (View.ld x0 rWv) (View.ld x1 rDk) (View.ld x2 rDk) (View.ld x4 rRow) (View.ld x7 rRow)) (k1_pay5 (View.ld x0 rWv) (View.ld x3 rDk) (View.ld x5 rRow))
    (k1_pay6 (View.ld x6 rRow)) (View.ld x8 rRow) (View.ld x9 rSx)

/-- What the body leaves in window 10's staging buffer: its one store. -/
def mixOut (i : grid1.Coords) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (x8 : Vec F S1x200 .f32) (x9 : Vec F S256x200 .f32) : Vec F S256x2176 .f32 :=
  View.canon [⟨rOut, mixPay i x0 x1 x2 x3 x4 x5 x6 x7 x8 x9⟩]

/-- The one store takes the whole buffer. -/
theorem coverOut (p : Vec F S256x2176 .f32) (y : S256x2176.Idx) :
    ∃ pc ∈ ([⟨rOut, p⟩] : List (View.Piece (Elt F) S256x2176 .f32)), y ∈ pc.1.set :=
  View.cover_of_tiled [⟨rOut, p⟩] S256x2176.size (by rfl) y

/-! ## The body's triple -/

set_option maxHeartbeats 8000000 in
/-- The body on whole staging memrefs, the ten inputs' at read contents and the output's at anything, runs to the
    continuation holding the inputs' as they were and the output's at `mixOut` of them. -/
theorem sound_mix (c : Dev nD) (E : Set ℕ) (i : grid1.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S1x200 .f32) (h8 : M8.IsWhole) (M9 : Memref sig .tc .vmem S256x200 .f32) (h9 : M9.IsWhole) (M10 : Memref sig .tc .vmem S256x2176 .f32) (h10 : M10.IsWhole)
    (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (x8 : Vec F S1x200 .f32) (x9 : Vec F S256x200 .f32) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ d, owns (c : Thread nD τ) M10 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare (mixOut i x0 x1 x2 x3 x4 x5 x6 x7 x8 x9)) -∗ K ⟨⟩))
      ⊢ wp frame (wpE (defs₀ (F := F)) Variants.none c none) E (cc1__mix_kernel i M0 h0 M1 h1 M2 h2 M3 h3 M4 h4 M5 h5 M6 h6 M7 h7 M8 h8 M9 h9 M10 h10) K := by
  simp only [cc1__mix_kernel_eq_skeleton]; unfold cc1__mix_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (coverOut _)

/-! ## The proof data -/

/-- The proof data on core `c`: the arrays as the region finds them; after the body at tile `t` each input's buffer
    at its block and the output's at `mixOut` of the ten blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => mixOut (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) :
    (dat1 V c).after 10 t = mixOut (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d
theorem before1_7 (c : Dev nD) (t : Fin cfg1.N) (d) : (dat1 V c).before 7 t d = blk1 V c 7 t :=
  before1_7_of V (dat1 V c) (A_eq1 V c 7) (after1_7 V c) t d
theorem before1_8 (c : Dev nD) (t : Fin cfg1.N) (d) : (dat1 V c).before 8 t d = blk1 V c 8 t :=
  before1_8_of V (dat1 V c) (A_eq1 V c 8) (after1_8 V c) t d
theorem before1_9 (c : Dev nD) (t : Fin cfg1.N) (d) : (dat1 V c).before 9 t d = blk1 V c 9 t :=
  before1_9_of V (dat1 V c) (A_eq1 V c 9) (after1_9 V c) t d

/-! ## The body obligation, at a generic tile -/

/-- What the body is called with at tile `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any tile: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_mix c Set.univ (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IRun.lean ====
/-
  @main from the launch to the return, as six segments: the 41 host operations that prepare the per-topic tables, the
  pad of the word vectors, the first kernel, the 14 host operations that merge the two sweeps' (level, sum) pairs into
  one log-normaliser per topic, the second kernel, and the slice-and-concatenate that assembles the result. Between two
  segments every unscoped buffer of the TensorCore is held at named contents — a fold from the launch memory: a host
  stretch applies its operations, a kernel leaves its windows' arrays at what the pipeline's write-backs make of its
  proof data and every other buffer alone. The run's post reads EVERY unscoped buffer off the last contents, so the
  frame (no argument is written) and the result's value both follow from it.
-/
import proofs.«136091_j11613591568915_2_alg».proof.Proof.IStats
import proofs.«136091_j11613591568915_2_alg».proof.Proof.IMix
import proofs.«136091_j11613591568915_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the 41 preparing operations. -/
abbrev W1 : Dev nD → Valuation τ sig (Elt F) := fun c => StableHlo.after hostOps0 (W0 m c)
/-- After the pad: the first kernel's entry. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- After the first kernel: its arrays at what its write-backs leave, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
theorem hF0 (c : Dev nD) (w : Fin cfg0.W) : (dat0 (V2 m) c).arrAt w cfg0.N = W3 m c (Pipeline.arrRef spec0 w) :=
  (W3_arr m c w).symm
theorem hrest0 (c : Dev nD) : ∀ b : Ref sig .tc, b ∉ Finset.univ.image (Pipeline.arrRef spec0) → W3 m c b = V2 m c b :=
  fun b hb => W3_of_ne m c b fun w e => hb (Finset.mem_image.mpr ⟨w, Finset.mem_univ _, e⟩)
/-- After the 14 merging operations: the second kernel's entry. -/
abbrev W4 : Dev nD → Valuation τ sig (Elt F) := fun c => StableHlo.after hostOps1 (W3 m c)
abbrev V4 : (c : Dev nD) → (b : Ref sig .tc) → Buf (Elt F) ((c : Thread nD τ).loc b) := fun c b => W4 m c b
/-- After the second kernel. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = W5 m c (Pipeline.arrRef spec1 w) :=
  (W5_arr m c w).symm
theorem hrest1 (c : Dev nD) : ∀ b : Ref sig .tc, b ∉ Finset.univ.image (Pipeline.arrRef spec1) → W5 m c b = V4 m c b :=
  fun b hb => W5_of_ne m c b fun w e => hb (Finset.mem_image.mpr ⟨w, Finset.mem_univ _, e⟩)
/-- After the slice and the concatenate: the return. -/
abbrev W6 : Dev nD → Valuation τ sig (Elt F) := fun c => StableHlo.after hostOps2 (W5 m c)

/-! ## No segment writes an argument -/

/-- A buffer no host stretch writes and no kernel stages reaches the end as launched. -/
theorem W6_untouched (c : Dev nD) (r : Ref sig .tc) (h0 : r ∉ hostOps0_W) (h01 : r ∉ hostOps0_1_W) (h1 : r ∉ hostOps1_W)
    (h2 : r ∉ hostOps2_W) (ha0 : ∀ w, Pipeline.arrRef spec0 w ≠ r) (ha1 : ∀ w, Pipeline.arrRef spec1 w ≠ r) :
    W6 m c (Proc.devRef .tc r) = m ((c : Thread nD τ).loc r) :=
  calc W6 m c (Proc.devRef .tc r)
    _ = W5 m c (Proc.devRef .tc r) := StableHlo.after_of_writes_sub hostOps2 _ hostOps2_writes h2
    _ = W4 m c (Proc.devRef .tc r) := W5_of_ne m c r ha1
    _ = W3 m c (Proc.devRef .tc r) := StableHlo.after_of_writes_sub hostOps1 _ hostOps1_writes h1
    _ = W2 m c (Proc.devRef .tc r) := W3_of_ne m c r ha0
    _ = W1 m c (Proc.devRef .tc r) := StableHlo.after_of_writes_sub hostOps0_1 _ hostOps0_1_writes h01
    _ = W0 m c (Proc.devRef .tc r) := StableHlo.after_of_writes_sub hostOps0 _ hostOps0_writes h0
    _ = m ((c : Thread nD τ).loc r) := rfl

theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)

/-- The samples are the second kernel's tenth input: an input's array ends as entered. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := (W5_arr m c 9).trans (((dat1 (V4 m) c).arrAt_in 9 rfl _).trans (A_eq1 (V4 m) c 9))
    _ = W3 m c (Proc.devRef .tc main_arg0) := StableHlo.after_of_writes_sub hostOps1 _ hostOps1_writes (by decide)
    _ = W2 m c (Proc.devRef .tc main_arg0) := W3_of_ne m c main_arg0 (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The two kernels as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (fun b => W3 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .region (reg1 m),
    .host (hseg hostOps2 hostOps2_sub hostOps2_fresh (W5 m)) ]
theorem main_run (c : Dev nD) : main (F := F) c = Pipeline.Seg.run (segs m) := (main_chain c).trans (by chain_rfl)

set_option backward.isDefEq.respectTransparency.types false in
/-- THE RUN: every weakly fair execution of @main terminates, nothing faulting, and the final memory holds every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every weakly fair execution terminates with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.KernelIdeal.Hand

end
-- ==== Proof.RefFrame.lean ====
/-
  The reference's frame. The reference is a straight line of 74 host operations with no kernel launch: its run ends
  with every buffer at the fold of the operations over the launch contents, and no operation writes an argument, so
  each argument array ends as launched. The frame claim is that run with the result's conjunct dropped.
-/
import proofs.«136091_j11613591568915_2_alg».proof.Defs
import proofs.«136091_j11613591568915_2_alg».proof.Proof.Gen.ReferenceIdeal
import proofs.«136091_j11613591568915_2_alg».proof.Proof.Gen.Pre_finite_inputs
import proofs.«136091_j11613591568915_2_alg».proof.Proof.RefRunP

noncomputable section

namespace Cert.Proof.Parts

open Idealize.ShloMosaic Idealize.SL.Sem

/-- Every weakly fair execution of the reference terminates with its five argument arrays unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Proof.Parts

end
-- ==== Proof.Preserves.lean ====
/-
  The idealization's ledger. The kernel carries one float literal, -1.0000000150474662e30, at three sites: the value
  the running maximum starts from, and the fill written over the rows past the end of the vocabulary in each of the
  two kernels. In all three it stands for "no entry": it only ever meets a maximum, or is reduced by a finite level
  and exponentiated. The idealized kernel reads it under the name "neg_big" as -∞, the bottom of the extended reals,
  so that such a row weighs exactly `exp (-∞) = 0` in the sum over the vocabulary. Each ledger entry says that the
  certificate's table gives the name that value.
-/
import proofs.«136091_j11613591568915_2_alg».proof.Defs

noncomputable section

namespace Cert.Proof.Parts

open Idealize.ShloMosaic

/-- One ledger entry: the table reads "neg_big" as -∞. -/
theorem neg_big_entry : IdealRules.named_const.Statement Cert.KernelIdeal.κ "neg_big" .f32 0xF149F2CA#32 ⊥ :=
  IdealRules.named_const.statement Cert.KernelIdeal.κ "neg_big" .f32 0xF149F2CA#32 (⊥ : EReal) rfl

/-- The three sites of the literal, in the ledger's order. -/
theorem preserves : Cert.preserves_Kernel_KernelIdeal := ⟨neg_big_entry, neg_big_entry, neg_big_entry⟩

end Cert.Proof.Parts

end
-- ==== Proof.ITables.lean ====
/-
  The kernel's host-prepared tables are the reference's own intermediate stages. The 41 host lines before the first
  kernel compute, from the means, the rank-one factor and the diagonal, exactly the arrays the reference computes on its
  way: the inverse diagonal, the mean and the factor scaled by it, and their transposes; the two per-topic sums; the
  capacitance and the log-determinant. The kernel then folds the last two into half over the capacitance and into the
  per-topic constant. The word vectors are padded below with 96 rows, so on the vocabulary the padded array is the
  argument.
-/
import proofs.«136091_j11613591568915_2_alg».proof.Proof.IRun
import proofs.«136091_j11613591568915_2_alg».proof.Proof.RefReadP
import Idealize.ShloMosaic.Lib.ValueIdx
import Idealize.ShloMosaic.Lib.ValueLayout
import Idealize.ShloMosaic.Lib.KernelVsHost
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx
variable (m : (ℓ : Loc nD τ sig) → Buf (Elt Ideal) ℓ)

/-- The pad does not touch the tables. -/
theorem W2_of_W1 (c : Dev nD) (r : Ref sig .tc) (h : r ∉ hostOps0_1_W) : W2 m c r = W1 m c r :=
  StableHlo.after_of_writes_sub hostOps0_1 _ hostOps0_1_writes h

set_option maxHeartbeats 4000000 in
theorem tbl24 (c : Dev nD) : W1 m c main_v24 = (Cert.ReferenceIdeal.ReadP.val_main_v13 (F := Ideal) (m ((c : Thread nD τ).loc main_arg4)) : (⟨S300x200, .f32⟩ : BufTy).Contents (Elt Ideal)) := by
  show StableHlo.after hostOps0 (W0 m c) (Proc.devRef .tc main_v24) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results
set_option maxHeartbeats 4000000 in
theorem tbl25 (c : Dev nD) : W1 m c main_v25 = (Cert.ReferenceIdeal.ReadP.val_main_v16 (F := Ideal) (m ((c : Thread nD τ).loc main_arg2)) (m ((c : Thread nD τ).loc main_arg4)) : (⟨S300x200, .f32⟩ : BufTy).Contents (Elt Ideal)) := by
  show StableHlo.after hostOps0 (W0 m c) (Proc.devRef .tc main_v25) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results
set_option maxHeartbeats 4000000 in
theorem tbl26 (c : Dev nD) : W1 m c main_v26 = (Cert.ReferenceIdeal.ReadP.val_main_v27 (F := Ideal) (m ((c : Thread nD τ).loc main_arg3)) (m ((c : Thread nD τ).loc main_arg4)) : (⟨S300x200, .f32⟩ : BufTy).Contents (Elt Ideal)) := by
  show StableHlo.after hostOps0 (W0 m c) (Proc.devRef .tc main_v26) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results

set_option maxHeartbeats 4000000 in
/-- The two per-topic sums, the capacitance and the log-determinant, before the kernel's reshapes. -/
theorem vec15 (c : Dev nD) : W1 m c main_v15 = (Cert.ReferenceIdeal.ReadP.val_main_v23 (F := Ideal) (m ((c : Thread nD τ).loc main_arg2)) (m ((c : Thread nD τ).loc main_arg4)) : (⟨S200, .f32⟩ : BufTy).Contents (Elt Ideal)) := by
  show StableHlo.after hostOps0 (W0 m c) (Proc.devRef .tc main_v15) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results
set_option maxHeartbeats 4000000 in
theorem vec17 (c : Dev nD) : W1 m c main_v17 = (Cert.ReferenceIdeal.ReadP.val_main_v30 (F := Ideal) (m ((c : Thread nD τ).loc main_arg2)) (m ((c : Thread nD τ).loc main_arg3)) (m ((c : Thread nD τ).loc main_arg4)) : (⟨S200, .f32⟩ : BufTy).Contents (Elt Ideal)) := by
  show StableHlo.after hostOps0 (W0 m c) (Proc.devRef .tc main_v17) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results
set_option maxHeartbeats 4000000 in
theorem vec6 (c : Dev nD) : W1 m c main_v6 = (Cert.ReferenceIdeal.ReadP.val_main_v6 (F := Ideal) (m ((c : Thread nD τ).loc main_arg3)) (m ((c : Thread nD τ).loc main_arg4)) : (⟨S200, .f32⟩ : BufTy).Contents (Elt Ideal)) := by
  show StableHlo.after hostOps0 (W0 m c) (Proc.devRef .tc main_v6) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results
set_option maxHeartbeats 4000000 in
theorem vec10 (c : Dev nD) : W1 m c main_v10 = (Cert.ReferenceIdeal.ReadP.val_main_v10 (F := Ideal) (m ((c : Thread nD τ).loc main_arg3)) (m ((c : Thread nD τ).loc main_arg4)) : (⟨S200, .f32⟩ : BufTy).Contents (Elt Ideal)) := by
  show StableHlo.after hostOps0 (W0 m c) (Proc.devRef .tc main_v10) = _
  simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  after_results

end Cert.KernelIdeal.Hand
end
-- ==== Proof.ITables2.lean ====
/-
  The kernel's four per-topic rows at a topic, and the padded word vectors on the vocabulary. The rows are 200-vectors
  reshaped to 1 × 200: entry `(0, k)` is the vector's entry `k`. The two the kernel folds constants into are half over
  the capacitance, and the host constant less half the log-determinant.
-/
import proofs.«136091_j11613591568915_2_alg».proof.Proof.ITables
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx
variable (m : (ℓ : Loc nD τ sig) → Buf (Elt Ideal) ℓ)

theorem bcast200_apply (w : BitVec 32) (i : S200.Idx) :
    broadcastInDim S200 ![] bcast_S_S200 (constant (F := Ideal) S_ .f32 w) i = Ideal.ofBits .f32 w :=
  (broadcastInDim_apply _ bcast_S_S200 _ i (fun a => a.elim0) (fun a => a.elim0)).trans rfl

set_option maxHeartbeats 4000000 in
/-- The first table sum's row. -/
theorem row28 (c : Dev nD) (k : Fin 200) :
    W1 m c main_v28 (ix2 (0 : Fin 1) k) = Cert.ReferenceIdeal.ReadP.val_main_v23 (F := Ideal) (m ((c : Thread nD τ).loc main_arg2)) (m ((c : Thread nD τ).loc main_arg4)) (ix1 k) := by
  have hT : StableHlo.after hostOps0 (W0 m c) (Proc.devRef .tc main_v28)
      = (fun i => shapeCast S1x200 (Cert.ReferenceIdeal.ReadP.val_main_v23 (F := Ideal) (m ((c : Thread nD τ).loc main_arg2)) (m ((c : Thread nD τ).loc main_arg4)) : (⟨S200, .f32⟩ : BufTy).Contents (Elt Ideal)) shapeCasts_S200_S1x200 i : (⟨S1x200, .f32⟩ : BufTy).Contents (Elt Ideal)) := by
    simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
    after_results
    all_goals rfl
  exact (congrFun hT _).trans (shapeCast_a_1a_apply _ shapeCasts_S200_S1x200 0 k)

set_option maxHeartbeats 4000000 in
/-- The second table sum's row. -/
theorem row29 (c : Dev nD) (k : Fin 200) :
    W1 m c main_v29 (ix2 (0 : Fin 1) k) = Cert.ReferenceIdeal.ReadP.val_main_v30 (F := Ideal) (m ((c : Thread nD τ).loc main_arg2)) (m ((c : Thread nD τ).loc main_arg3)) (m ((c : Thread nD τ).loc main_arg4)) (ix1 k) := by
  have hT : StableHlo.after hostOps0 (W0 m c) (Proc.devRef .tc main_v29)
      = (fun i => shapeCast S1x200 (Cert.ReferenceIdeal.ReadP.val_main_v30 (F := Ideal) (m ((c : Thread nD τ).loc main_arg2)) (m ((c : Thread nD τ).loc main_arg3)) (m ((c : Thread nD τ).loc main_arg4)) : (⟨S200, .f32⟩ : BufTy).Contents (Elt Ideal)) shapeCasts_S200_S1x200 i : (⟨S1x200, .f32⟩ : BufTy).Contents (Elt Ideal)) := by
    simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
    after_results
    all_goals rfl
  exact (congrFun hT _).trans (shapeCast_a_1a_apply _ shapeCasts_S200_S1x200 0 k)

set_option maxHeartbeats 4000000 in
/-- Half over the capacitance. -/
theorem row27 (c : Dev nD) (k : Fin 200) :
    W1 m c main_v27 (ix2 (0 : Fin 1) k)
      = Ideal.div (Ideal.ofBits .f32 0x3F000000#32) (Cert.ReferenceIdeal.ReadP.val_main_v6 (F := Ideal) (m ((c : Thread nD τ).loc main_arg3)) (m ((c : Thread nD τ).loc main_arg4)) (ix1 k)) := by
  have hT : StableHlo.after hostOps0 (W0 m c) (Proc.devRef .tc main_v27)
      = (fun i => shapeCast S1x200 (Host.divf (broadcastInDim S200 ![] bcast_S_S200 (constant (F := Ideal) S_ .f32 0x3F000000#32))
          (Cert.ReferenceIdeal.ReadP.val_main_v6 (F := Ideal) (m ((c : Thread nD τ).loc main_arg3)) (m ((c : Thread nD τ).loc main_arg4)) : (⟨S200, .f32⟩ : BufTy).Contents (Elt Ideal))) shapeCasts_S200_S1x200 i : (⟨S1x200, .f32⟩ : BufTy).Contents (Elt Ideal)) := by
    simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
    after_results
    all_goals rfl
  refine (congrFun hT _).trans ((shapeCast_a_1a_apply _ shapeCasts_S200_S1x200 0 k).trans ?_)
  show Ideal.div (broadcastInDim S200 ![] bcast_S_S200 (constant (F := Ideal) S_ .f32 0x3F000000#32) (ix1 k)) _ = _
  rw [bcast200_apply]

set_option maxHeartbeats 4000000 in
/-- The per-topic constant: the host literal less half the log-determinant. -/
theorem row30 (c : Dev nD) (k : Fin 200) :
    W1 m c main_v30 (ix2 (0 : Fin 1) k)
      = Ideal.ofBits .f32 0xC389D73D#32 - Ideal.ofBits .f32 0x3F000000#32 * Cert.ReferenceIdeal.ReadP.val_main_v10 (F := Ideal) (m ((c : Thread nD τ).loc main_arg3)) (m ((c : Thread nD τ).loc main_arg4)) (ix1 k) := by
  have hT : StableHlo.after hostOps0 (W0 m c) (Proc.devRef .tc main_v30)
      = (fun i => shapeCast S1x200 (subf (broadcastInDim S200 ![] bcast_S_S200 (constant (F := Ideal) S_ .f32 0xC389D73D#32))
          (mulf (broadcastInDim S200 ![] bcast_S_S200 (constant (F := Ideal) S_ .f32 0x3F000000#32)) (Cert.ReferenceIdeal.ReadP.val_main_v10 (F := Ideal) (m ((c : Thread nD τ).loc main_arg3)) (m ((c : Thread nD τ).loc main_arg4)) : (⟨S200, .f32⟩ : BufTy).Contents (Elt Ideal))))
          shapeCasts_S200_S1x200 i : (⟨S1x200, .f32⟩ : BufTy).Contents (Elt Ideal)) := by
    simp only [Cert.ReferenceIdeal.ReadP.val_main_cst, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_v7, Cert.ReferenceIdeal.ReadP.val_main_cst_2, Cert.ReferenceIdeal.ReadP.val_main_v8, Cert.ReferenceIdeal.ReadP.val_main_v9, Cert.ReferenceIdeal.ReadP.val_main_v10, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_cst_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_cst_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_cst_5, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_cst_6, Cert.ReferenceIdeal.ReadP.val_main_cst_7, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_8, Cert.ReferenceIdeal.ReadP.val_main_v45, Cert.ReferenceIdeal.ReadP.val_main_v46, Cert.ReferenceIdeal.ReadP.val_main_v47, Cert.ReferenceIdeal.ReadP.val_main_cst_9, Cert.ReferenceIdeal.ReadP.val_main_v48, Cert.ReferenceIdeal.ReadP.val_main_cst_10, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_11, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
    after_results
    all_goals rfl
  refine (congrFun hT _).trans ((shapeCast_a_1a_apply _ shapeCasts_S200_S1x200 0 k).trans ?_)
  rw [subf_apply, mulf_apply, bcast200_apply, bcast200_apply]

set_option maxHeartbeats 4000000 in
/-- On the vocabulary the padded word vectors are the argument. -/
theorem padded_apply (c : Dev nD) (v : Fin 100000) (j : Fin 300) :
    W2 m c main_v31 (ix2 (⟨v.val, by have := v.isLt; omega⟩ : Fin 100096) j) = m ((c : Thread nD τ).loc main_arg1) (ix2 v j) := by
  have h1 : W1 m c main_arg1 = m ((c : Thread nD τ).loc main_arg1) :=
    StableHlo.after_of_writes_sub hostOps0 _ hostOps0_writes (by decide)
  have hT : StableHlo.after hostOps0_1 (W1 m c) (Proc.devRef .tc main_v31)
      = (pad S100096x300 ![0, 0] ![96, 0] ![0, 0] (W1 m c main_arg1) (sitofp (F := Ideal) .f32 (W1 m c main_c)) pads_S100000x300_S100096x300_0960_000 h_S_
          : (⟨S100096x300, .f32⟩ : BufTy).Contents (Elt Ideal)) := by
    after_results
    all_goals rfl
  refine (congrFun hT _).trans ?_
  rw [h1]
  exact pad_apply_of_inside _ _ _ _ _ _ _ _ (ix2 v j) (fun ax => by
    match ax with
    | ⟨0, _⟩ => show v.val = 0 + v.val * (0 + 1); omega
    | ⟨1, _⟩ => show j.val = 0 + j.val * (0 + 1); omega)

end Cert.KernelIdeal.Hand
end
-- ==== Proof.IStatsVal.lean ====
/-
  What each control case of the first kernel leaves, in the Skeleton's own terms: after a tile the level row is the
  payload "maximum of the row found and the tile's column maxima" and the sum row the payload "the sum found, rescaled
  to the new level, plus the tile's column sums of exp (logit - new level)", both of the tile's eight input blocks and
  its first word index; a sweep's first tile finds the fresh rows (the fill, and zero); a sweep's last tile moreover
  copies the two rows over the eight rows of each result's block. The run's found pieces are opened once, here.
-/
import proofs.«136091_j11613591568915_2_alg».proof.Proof.IStats
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → Nat) = fun _ => 0 := funext fun a => by fin_cases a <;> rfl

/-- The tile's first word index as the body computes it from the two grid coordinates. -/
abbrev tileStart0 (i : grid0.Coords) : BitVec 32 :=
  Scalar.muli (Scalar.addi (Scalar.muli (BitVec.ofNat 32 (i 0).val) 23#32) (BitVec.ofNat 32 (i 1).val)) 2176#32

/-- The level row after a tile, from the row found. -/
def newLevel (i : grid0.Coords) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (lv : Vec F S1x200 .f32) : FVec F S1x200 .f32 :=
  k0_pay16 (tileStart0 i) (k0_pay6 x5) (k0_pay7 x6) (k0_pay8 x7) (k0_pay10 x0 x3) (k0_pay11 x0 x1 x2) (k0_pay12 x4) lv
/-- The sum row after a tile, from the two rows found. -/
def newSum (i : grid0.Coords) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (lv sm : Vec F S1x200 .f32) : FVec F S1x200 .f32 :=
  k0_pay15 (tileStart0 i) (k0_pay6 x5) (k0_pay7 x6) (k0_pay8 x7) (k0_pay10 x0 x3) (k0_pay11 x0 x1 x2) (k0_pay12 x4) lv lv sm

set_option maxHeartbeats 1000000 in
theorem rowsA_eq (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) :
    rowsA c i M0 h0 M1 h1 M2 h2 M3 h3 M4 h4 M5 h5 M6 h6 M7 h7 M8 h8 M9 h9 M10 h10 M11 h11 hc0 hc1 x0 x1 x2 x3 x4 x5 x6 x7 = (newLevel i x0 x1 x2 x3 x4 x5 x6 x7 (k0_pay3 (F := F)), newSum i x0 x1 x2 x3 x4 x5 x6 x7 (k0_pay3 (F := F)) (k0_pay4 (F := F))) := by
  unfold rowsA
  refine Prod.ext ?_ ?_
  ·
    dsimp only
    rw [View.read_writes_eq_canon _ _ _ (scoverA_0 c i M0 h0 M1 h1 M2 h2 M3 h3 M4 h4 M5 h5 M6 h6 M7 h7 M8 h8 M9 h9 M10 h10 M11 h11 hc0 hc1 x0 x1 x2 x3 x4 x5 x6 x7)]
    unfold statsRunA; dsimp only
    sl_unfold_words
    rw [View.canon_cons_unit_zero (S := S1x200) hz2, View.readCov_unit_zero (S := S1x200) _ hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    rfl
  ·
    dsimp only
    rw [View.read_writes_eq_canon _ _ _ (scoverA_1 c i M0 h0 M1 h1 M2 h2 M3 h3 M4 h4 M5 h5 M6 h6 M7 h7 M8 h8 M9 h9 M10 h10 M11 h11 hc0 hc1 x0 x1 x2 x3 x4 x5 x6 x7)]
    unfold statsRunA; dsimp only
    sl_unfold_words
    rw [View.canon_cons_unit_zero (S := S1x200) hz2, View.readCov_unit_zero (S := S1x200) _ hz2, View.readCov_unit_zero (S := S1x200) _ hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    rfl

theorem rowsB_eq (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : ¬cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    rowsB c i M0 h0 M1 h1 M2 h2 M3 h3 M4 h4 M5 h5 M6 h6 M7 h7 M8 h8 M9 h9 M10 h10 M11 h11 hc0 hc1 x0 x1 x2 x3 x4 x5 x6 x7 xs0 xs1 = (newLevel i x0 x1 x2 x3 x4 x5 x6 x7 xs0, newSum i x0 x1 x2 x3 x4 x5 x6 x7 xs0 xs1) := by
  unfold rowsB
  refine Prod.ext ?_ ?_
  ·
    dsimp only
    rw [View.read_writes_eq_canon _ _ _ (scoverB_0 c i M0 h0 M1 h1 M2 h2 M3 h3 M4 h4 M5 h5 M6 h6 M7 h7 M8 h8 M9 h9 M10 h10 M11 h11 hc0 hc1 x0 x1 x2 x3 x4 x5 x6 x7 xs0 xs1)]
    unfold statsRunB; dsimp only
    sl_unfold_words
    rw [View.canon_unit_zero hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    rfl
  ·
    dsimp only
    rw [View.read_writes_eq_canon _ _ _ (scoverB_1 c i M0 h0 M1 h1 M2 h2 M3 h3 M4 h4 M5 h5 M6 h6 M7 h7 M8 h8 M9 h9 M10 h10 M11 h11 hc0 hc1 x0 x1 x2 x3 x4 x5 x6 x7 xs0 xs1)]
    unfold statsRunB; dsimp only
    sl_unfold_words
    rw [View.canon_unit_zero hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    rfl

theorem rowsC_eq (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    rowsC c i M0 h0 M1 h1 M2 h2 M3 h3 M4 h4 M5 h5 M6 h6 M7 h7 M8 h8 M9 h9 M10 h10 M11 h11 hc0 hc1 x0 x1 x2 x3 x4 x5 x6 x7 xs0 xs1 = (newLevel i x0 x1 x2 x3 x4 x5 x6 x7 xs0, newSum i x0 x1 x2 x3 x4 x5 x6 x7 xs0 xs1) := by
  unfold rowsC
  refine Prod.ext ?_ ?_
  ·
    dsimp only
    rw [View.read_writes_eq_canon _ _ _ (scoverC_0 c i M0 h0 M1 h1 M2 h2 M3 h3 M4 h4 M5 h5 M6 h6 M7 h7 M8 h8 M9 h9 M10 h10 M11 h11 hc0 hc1 x0 x1 x2 x3 x4 x5 x6 x7 xs0 xs1)]
    unfold statsRunC; dsimp only
    sl_unfold_words
    rw [View.canon_unit_zero hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    rfl
  ·
    dsimp only
    rw [View.read_writes_eq_canon _ _ _ (scoverC_1 c i M0 h0 M1 h1 M2 h2 M3 h3 M4 h4 M5 h5 M6 h6 M7 h7 M8 h8 M9 h9 M10 h10 M11 h11 hc0 hc1 x0 x1 x2 x3 x4 x5 x6 x7 xs0 xs1)]
    unfold statsRunC; dsimp only
    sl_unfold_words
    rw [View.canon_unit_zero hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    rfl

theorem outsC_eq (c : Dev nD) (i : grid0.Coords) (M0 : Memref sig .tc .vmem S2176x300 .f32) (h0 : M0.IsWhole) (M1 : Memref sig .tc .vmem S300x200 .f32) (h1 : M1.IsWhole) (M2 : Memref sig .tc .vmem S300x200 .f32) (h2 : M2.IsWhole) (M3 : Memref sig .tc .vmem S300x200 .f32) (h3 : M3.IsWhole) (M4 : Memref sig .tc .vmem S1x200 .f32) (h4 : M4.IsWhole) (M5 : Memref sig .tc .vmem S1x200 .f32) (h5 : M5.IsWhole) (M6 : Memref sig .tc .vmem S1x200 .f32) (h6 : M6.IsWhole) (M7 : Memref sig .tc .vmem S1x200 .f32) (h7 : M7.IsWhole) (M8 : Memref sig .tc .vmem S8x200 .f32) (h8 : M8.IsWhole) (M9 : Memref sig .tc .vmem S8x200 .f32) (h9 : M9.IsWhole) (M10 : Memref sig .tc .vmem S1x200 .f32) (h10 : M10.IsWhole) (M11 : Memref sig .tc .vmem S1x200 .f32) (h11 : M11.IsWhole) (hc0 : ¬cond0_0 i) (hc1 : cond0_1 i) (x0 : Vec F S2176x300 .f32) (x1 : Vec F S300x200 .f32) (x2 : Vec F S300x200 .f32) (x3 : Vec F S300x200 .f32) (x4 : Vec F S1x200 .f32) (x5 : Vec F S1x200 .f32) (x6 : Vec F S1x200 .f32) (x7 : Vec F S1x200 .f32) (xs0 xs1 : Vec F S1x200 .f32) :
    outsC c i M0 h0 M1 h1 M2 h2 M3 h3 M4 h4 M5 h5 M6 h6 M7 h7 M8 h8 M9 h9 M10 h10 M11 h11 hc0 hc1 x0 x1 x2 x3 x4 x5 x6 x7 xs0 xs1 = (k0_pay1 (newLevel i x0 x1 x2 x3 x4 x5 x6 x7 xs0), k0_pay2 (newSum i x0 x1 x2 x3 x4 x5 x6 x7 xs0 xs1)) := by
  unfold outsC
  refine Prod.ext ?_ ?_
  ·
    dsimp only
    rw [View.read_writes_eq_canon _ _ _ (coverC_8 c i M0 h0 M1 h1 M2 h2 M3 h3 M4 h4 M5 h5 M6 h6 M7 h7 M8 h8 M9 h9 M10 h10 M11 h11 hc0 hc1 x0 x1 x2 x3 x4 x5 x6 x7 xs0 xs1)]
    unfold statsRunC; dsimp only
    sl_unfold_words
    rw [View.canon_unit_zero hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    exact congrArg k0_pay1 (View.readCov_unit_zero (S := S1x200) M10.view hz2 inb_S1x200_S1x200_0_0 _)
  ·
    dsimp only
    rw [View.read_writes_eq_canon _ _ _ (coverC_9 c i M0 h0 M1 h1 M2 h2 M3 h3 M4 h4 M5 h5 M6 h6 M7 h7 M8 h8 M9 h9 M10 h10 M11 h11 hc0 hc1 x0 x1 x2 x3 x4 x5 x6 x7 xs0 xs1)]
    unfold statsRunC; dsimp only
    sl_unfold_words
    rw [View.canon_unit_zero hz2]
    simp only [View.readAt_eq_ld, Memref.IsWhole.read_unread, View.ld_unit_zero (S := S1x200) hz2, View.ld_unit_zero (S := S300x200) hz2, View.ld_unit_zero (S := S2176x300) hz2, View.ld_unit_zero (S := S8x200) hz2]
    exact congrArg k0_pay2 (View.readCov_unit_zero (S := S1x200) M11.view hz2 inb_S1x200_S1x200_0_0 _)

end Cert.KernelIdeal.Hand
end
-- ==== Proof.IStatsArr.lean ====
/-
  The first kernel's two result arrays after the region. Each is 16 × 200: rows 0–7 are the first sweep's block, written
  back at its last tile (tile 22), rows 8–15 the second sweep's, written back at tile 45; at every other tile the window
  is idle. A block holds the sweep's final row (the level row in one array, the sum row in the other) copied over its 8
  rows. So entry `(a, k)` of the level array is the level after tile 22 at `k` if `a < 8` and after tile 45 otherwise.
-/
import proofs.«136091_j11613591568915_2_alg».proof.Proof.IStatsVal
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable {F : FTy → Type} [FloatOps F] [Named F]
variable (V : (c : Dev nD) → (b : Ref sig .tc) → Buf (Elt F) ((c : Thread nD τ).loc b))

/-- The last tile of the sweep whose block holds row `i 0`. -/
def sweepEnd (i : S16x200.Idx) : Fin cfg0.N :=
  if (i 0).val < 8 then ⟨22, by have h : cfg0.N = 46 := N_0; omega⟩ else ⟨45, by have h : cfg0.N = 46 := N_0; omega⟩

def localOf0 (i : S16x200.Idx) : S8x200.Idx :=
  ix2 ⟨(i 0).val % 8, Nat.mod_lt _ (by norm_num)⟩ ⟨(i 1).val, (i 1).isLt⟩

/-- The state after tile `t`. -/
def stateT (c : Dev nD) (t : Fin cfg0.N) : (Vec F S8x200 .f32 × Vec F S8x200 .f32) × (Vec F S1x200 .f32 × Vec F S1x200 .f32) :=
  stateAt0 V c t.val t.isLt

/-- The level array and the sum array. -/
def levelArr (c : Dev nD) (i : S16x200.Idx) : Elt F .f32 :=
  k0_pay1 ((stateT V c (sweepEnd i)).2.1) (localOf0 i)
def sumArr (c : Dev nD) (i : S16x200.Idx) : Elt F .f32 :=
  k0_pay2 ((stateT V c (sweepEnd i)).2.2) (localOf0 i)

theorem idx_out0 : ∀ t : Fin cfg0.N, win0_8.index t (0 : Fin 2) = t.val / 23 ∧ win0_8.index t (1 : Fin 2) = 0
    ∧ win0_9.index t (0 : Fin 2) = t.val / 23 ∧ win0_9.index t (1 : Fin 2) = 0 :=
  (by decide +kernel : ∀ t : Fin grid0.N, win0_8.index t (0 : Fin 2) = t.val / 23 ∧ win0_8.index t (1 : Fin 2) = 0
    ∧ win0_9.index t (0 : Fin 2) = t.val / 23 ∧ win0_9.index t (1 : Fin 2) = 0)

/-- At a sweep's last tile the results' blocks are the two rows just computed, copied. -/
theorem outs_of_rows (c : Dev nD) (t : Fin cfg0.N) (h0 : ¬t.val % 23 = 0) (h1 : t.val % 23 = 22) :
    (stateAt0 V c t.val t.isLt).1 = (k0_pay1 (stateAt0 V c t.val t.isLt).2.1, k0_pay2 (stateAt0 V c t.val t.isLt).2.2) := by
  rw [stateAt0_C V c t h0 h1]; dsimp only; rw [outsC_eq, rowsC_eq]

theorem sweepEnd_emb (t : Fin cfg0.N) (h1 : t.val % 23 = 22) (i : S16x200.Idx) (hi : (i 0).val / 8 = t.val / 23) : sweepEnd i = t := by
  have hN : t.val < 46 := lt_of_lt_of_eq t.isLt (show cfg0.N = 46 from N_0)
  have hi0 : (i 0).val < 16 := (i 0).isLt
  unfold sweepEnd
  split
  · apply Fin.ext; show 22 = t.val; omega
  · apply Fin.ext; show 45 = t.val; omega

theorem flushed0_8_eq (c : Dev nD) (t : Fin cfg0.N) (hfl : (cfg0.win 8).flush t = true) :
    (dat0 V c).flushed 8 t = ((cfg0.win 8).blk t).view.read (Elt F) (levelArr V c) := by
  have h1 : t.val % 23 = 22 := (flush0_8 t).mp hfl
  have h0 : ¬t.val % 23 = 0 := by omega
  show (cfg0.win 8).cut (grid0.coords t) ((dat0 V c).after 8 t) = _
  rw [after0_8, outs_of_rows V c t h0 h1]
  obtain ⟨e0, e1, -, -⟩ := idx_out0 t
  funext j
  show k0_pay1 (stateT V c t).2.1 j = levelArr V c (((cfg0.win 8).blk t).view.emb j)
  have hj0 : (j 0).val < 8 := (j 0).isLt
  have hE0 : ((((cfg0.win 8).blk t).view.emb j) 0).val = win0_8.index t (0 : Fin 2) * 8 + 1 * (j 0).val := rfl
  have hE1 : ((((cfg0.win 8).blk t).view.emb j) 1).val = win0_8.index t (1 : Fin 2) * 200 + 1 * (j 1).val := rfl
  have hsw : sweepEnd (((cfg0.win 8).blk t).view.emb j) = t := sweepEnd_emb t h1 _ (by rw [hE0, e0]; omega)
  have hloc : localOf0 (((cfg0.win 8).blk t).view.emb j) = j := by
    funext a; apply Fin.ext
    match a with
    | ⟨0, _⟩ => show ((((cfg0.win 8).blk t).view.emb j) 0).val % 8 = (j 0).val; rw [hE0, e0]; omega
    | ⟨1, _⟩ => show ((((cfg0.win 8).blk t).view.emb j) 1).val = (j 1).val; rw [hE1, e1]; omega
  unfold levelArr
  rw [hsw, hloc]

theorem flushed0_9_eq (c : Dev nD) (t : Fin cfg0.N) (hfl : (cfg0.win 9).flush t = true) :
    (dat0 V c).flushed 9 t = ((cfg0.win 9).blk t).view.read (Elt F) (sumArr V c) := by
  have h1 : t.val % 23 = 22 := (flush0_9 t).mp hfl
  have h0 : ¬t.val % 23 = 0 := by omega
  show (cfg0.win 9).cut (grid0.coords t) ((dat0 V c).after 9 t) = _
  rw [after0_9, outs_of_rows V c t h0 h1]
  obtain ⟨-, -, e0, e1⟩ := idx_out0 t
  funext j
  show k0_pay2 (stateT V c t).2.2 j = sumArr V c (((cfg0.win 9).blk t).view.emb j)
  have hj0 : (j 0).val < 8 := (j 0).isLt
  have hE0 : ((((cfg0.win 9).blk t).view.emb j) 0).val = win0_9.index t (0 : Fin 2) * 8 + 1 * (j 0).val := rfl
  have hE1 : ((((cfg0.win 9).blk t).view.emb j) 1).val = win0_9.index t (1 : Fin 2) * 200 + 1 * (j 1).val := rfl
  have hsw : sweepEnd (((cfg0.win 9).blk t).view.emb j) = t := sweepEnd_emb t h1 _ (by rw [hE0, e0]; omega)
  have hloc : localOf0 (((cfg0.win 9).blk t).view.emb j) = j := by
    funext a; apply Fin.ext
    match a with
    | ⟨0, _⟩ => show ((((cfg0.win 9).blk t).view.emb j) 0).val % 8 = (j 0).val; rw [hE0, e0]; omega
    | ⟨1, _⟩ => show ((((cfg0.win 9).blk t).view.emb j) 1).val = (j 1).val; rw [hE1, e1]; omega
  unfold sumArr
  rw [hsw, hloc]

theorem mem_blk0_8 (t : Fin cfg0.N) (i : S16x200.Idx) :
    i ∈ ((cfg0.win 8).blk t).view.set ↔ ∀ a : Fin 2, win0_8.index t a * S8x200.size a ≤ (i a).val ∧ (i a).val < win0_8.index t a * S8x200.size a + S8x200.size a := by
  show i ∈ ((View.whole main_v32_0).slice (win0_8.rect t)).set ↔ _
  rw [View.set_slice_whole, Rect.mem_set_unit]
  exact Iff.rfl
theorem mem_blk0_9 (t : Fin cfg0.N) (i : S16x200.Idx) :
    i ∈ ((cfg0.win 9).blk t).view.set ↔ ∀ a : Fin 2, win0_9.index t a * S8x200.size a ≤ (i a).val ∧ (i a).val < win0_9.index t a * S8x200.size a + S8x200.size a := by
  show i ∈ ((View.whole main_v32_1).slice (win0_9.rect t)).set ↔ _
  rw [View.set_slice_whole, Rect.mem_set_unit]
  exact Iff.rfl

theorem sweepEnd_mod (i : S16x200.Idx) : (sweepEnd i).val % 23 = 22 ∧ (sweepEnd i).val / 23 = (i 0).val / 8 := by
  have hi0 : (i 0).val < 16 := (i 0).isLt
  unfold sweepEnd
  split
  · refine ⟨by decide, ?_⟩; show 22 / 23 = (i 0).val / 8; omega
  · refine ⟨by decide, ?_⟩; show 45 / 23 = (i 0).val / 8; omega

theorem cover0_8 (i : S16x200.Idx) : ∃ t : Fin cfg0.N, (cfg0.win 8).flush t = true ∧ i ∈ ((cfg0.win 8).blk t).view.set := by
  obtain ⟨hm, hd⟩ := sweepEnd_mod i
  refine ⟨sweepEnd i, (flush0_8 _).mpr hm, ?_⟩
  rw [mem_blk0_8]
  obtain ⟨e0, e1, -, -⟩ := idx_out0 (sweepEnd i)
  have hi0 : (i 0).val < 16 := (i 0).isLt
  have hi1 : (i 1).val < 200 := (i 1).isLt
  intro a
  match a with
  | ⟨0, _⟩ => show win0_8.index (sweepEnd i) (0 : Fin 2) * 8 ≤ (i 0).val ∧ (i 0).val < win0_8.index (sweepEnd i) (0 : Fin 2) * 8 + 8; rw [e0, hd]; omega
  | ⟨1, _⟩ => show win0_8.index (sweepEnd i) (1 : Fin 2) * 200 ≤ (i 1).val ∧ (i 1).val < win0_8.index (sweepEnd i) (1 : Fin 2) * 200 + 200; rw [e1]; omega
theorem cover0_9 (i : S16x200.Idx) : ∃ t : Fin cfg0.N, (cfg0.win 9).flush t = true ∧ i ∈ ((cfg0.win 9).blk t).view.set := by
  obtain ⟨hm, hd⟩ := sweepEnd_mod i
  refine ⟨sweepEnd i, (flush0_9 _).mpr hm, ?_⟩
  rw [mem_blk0_9]
  obtain ⟨-, -, e0, e1⟩ := idx_out0 (sweepEnd i)
  have hi0 : (i 0).val < 16 := (i 0).isLt
  have hi1 : (i 1).val < 200 := (i 1).isLt
  intro a
  match a with
  | ⟨0, _⟩ => show win0_9.index (sweepEnd i) (0 : Fin 2) * 8 ≤ (i 0).val ∧ (i 0).val < win0_9.index (sweepEnd i) (0 : Fin 2) * 8 + 8; rw [e0, hd]; omega
  | ⟨1, _⟩ => show win0_9.index (sweepEnd i) (1 : Fin 2) * 200 ≤ (i 1).val ∧ (i 1).val < win0_9.index (sweepEnd i) (1 : Fin 2) * 200 + 200; rw [e1]; omega

/-- THE TWO ARRAYS after the region. -/
theorem final0_8 (c : Dev nD) : (dat0 V c).arrAt 8 cfg0.N = levelArr V c :=
  (dat0 V c).arrAt_eq_of_cover 8 (levelArr V c) (fun t h => flushed0_8_eq V c t h) cover0_8
theorem final0_9 (c : Dev nD) : (dat0 V c).arrAt 9 cfg0.N = sumArr V c :=
  (dat0 V c).arrAt_eq_of_cover 9 (sumArr V c) (fun t h => flushed0_9_eq V c t h) cover0_9

end Cert.KernelIdeal.Hand
end
-- ==== Proof.IMixArr.lean ====
/-
  The second kernel's result array after the region, as one function of the index. Column `v` of the 256 × 100096 array
  lies in tile `v / 2176` at local column `v % 2176`; tile `t` writes back exactly the columns `2176 t … 2176 t + 2175`,
  all 256 rows; the 46 tiles fill the array. So entry `(b, v)` ends at the stored value of tile `v / 2176` at
  `(b, v % 2176)`.
-/
import proofs.«136091_j11613591568915_2_alg».proof.Proof.IMix
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable {F : FTy → Type} [FloatOps F] [Named F]
variable (V : (c : Dev nD) → (b : Ref sig .tc) → Buf (Elt F) ((c : Thread nD τ).loc b))

theorem hz2' : (![0, 0] : Fin 2 → Nat) = fun _ => 0 := funext fun a => by fin_cases a <;> rfl

/-- The tile a column lies in. -/
def tileOf1 (i : S256x100096.Idx) : Fin cfg1.N :=
  ⟨(i 1).val / 2176, by have h : (i 1).val < 100096 := (i 1).isLt; have hN : cfg1.N = 46 := N_1; omega⟩

/-- The index inside the tile's block. -/
def localOf1 (i : S256x100096.Idx) : S256x2176.Idx :=
  ix2 ⟨(i 0).val, (i 0).isLt⟩ ⟨(i 1).val % 2176, Nat.mod_lt _ (by norm_num)⟩

/-- THE ARRAY: entry `i` is tile `tileOf1 i`'s stored value at `localOf1 i`. -/
def mixArr (c : Dev nD) (i : S256x100096.Idx) : Elt F .f32 :=
  mixPay (grid1.coords (tileOf1 i)) (blk1 V c 0 (tileOf1 i)) (blk1 V c 1 (tileOf1 i)) (blk1 V c 2 (tileOf1 i)) (blk1 V c 3 (tileOf1 i)) (blk1 V c 4 (tileOf1 i)) (blk1 V c 5 (tileOf1 i)) (blk1 V c 6 (tileOf1 i)) (blk1 V c 7 (tileOf1 i)) (blk1 V c 8 (tileOf1 i)) (blk1 V c 9 (tileOf1 i)) (localOf1 i)

/-- The result's block index at tile `t` is `(0, t)`, decided over the grid. -/
theorem idx_out1 : ∀ t : Fin cfg1.N, win1_10.index t (0 : Fin 2) = 0 ∧ win1_10.index t (1 : Fin 2) = t.val :=
  (by decide +kernel : ∀ t : Fin grid1.N, win1_10.index t (0 : Fin 2) = 0 ∧ win1_10.index t (1 : Fin 2) = t.val)

/-- WHAT TILE `t` WRITES BACK is block `t` of `mixArr`. -/
theorem flushed1_eq (c : Dev nD) (t : Fin cfg1.N) :
    (dat1 V c).flushed 10 t = ((cfg1.win 10).blk t).view.read (Elt F) (mixArr V c) := by
  show (cfg1.win 10).cut (grid1.coords t) ((dat1 V c).after 10 t) = _
  rw [after1_10]
  unfold mixOut
  rw [View.canon_unit_zero hz2']
  obtain ⟨e0, e1⟩ := idx_out1 t
  funext j
  show mixPay (grid1.coords t) (blk1 V c 0 t) (blk1 V c 1 t) (blk1 V c 2 t) (blk1 V c 3 t) (blk1 V c 4 t) (blk1 V c 5 t) (blk1 V c 6 t) (blk1 V c 7 t) (blk1 V c 8 t) (blk1 V c 9 t) j = mixArr V c (((cfg1.win 10).blk t).view.emb j)
  have hj0 : (j 0).val < 256 := (j 0).isLt
  have hj1 : (j 1).val < 2176 := (j 1).isLt
  have hE0 : ((((cfg1.win 10).blk t).view.emb j) 0).val = win1_10.index t (0 : Fin 2) * 256 + 1 * (j 0).val := rfl
  have hE1 : ((((cfg1.win 10).blk t).view.emb j) 1).val = win1_10.index t (1 : Fin 2) * 2176 + 1 * (j 1).val := rfl
  have htile : tileOf1 (((cfg1.win 10).blk t).view.emb j) = t := by
    apply Fin.ext; show ((((cfg1.win 10).blk t).view.emb j) 1).val / 2176 = t.val; rw [hE1, e1]; omega
  have hloc : localOf1 (((cfg1.win 10).blk t).view.emb j) = j := by
    funext a; apply Fin.ext
    match a with
    | ⟨0, _⟩ => show ((((cfg1.win 10).blk t).view.emb j) 0).val = (j 0).val; rw [hE0, e0]; omega
    | ⟨1, _⟩ => show ((((cfg1.win 10).blk t).view.emb j) 1).val % 2176 = (j 1).val; rw [hE1, e1]; omega
  unfold mixArr
  rw [htile, hloc]

/-- An index of the array is in tile `t`'s block iff each coordinate is in the block's range on its axis. -/
theorem mem_blk1 (t : Fin cfg1.N) (i : S256x100096.Idx) :
    i ∈ ((cfg1.win 10).blk t).view.set ↔ ∀ a : Fin 2, win1_10.index t a * S256x2176.size a ≤ (i a).val ∧ (i a).val < win1_10.index t a * S256x2176.size a + S256x2176.size a := by
  show i ∈ ((View.whole main_v47).slice (win1_10.rect t)).set ↔ _
  rw [View.set_slice_whole, Rect.mem_set_unit]
  exact Iff.rfl

/-- Every entry is in the block of its column's tile, which is written back. -/
theorem cover1 (i : S256x100096.Idx) : ∃ t : Fin cfg1.N, (cfg1.win 10).flush t = true ∧ i ∈ ((cfg1.win 10).blk t).view.set := by
  refine ⟨tileOf1 i, flush1_10 _, ?_⟩
  rw [mem_blk1]
  obtain ⟨e0, e1⟩ := idx_out1 (tileOf1 i)
  have hi0 : (i 0).val < 256 := (i 0).isLt
  have hi1 : (i 1).val < 100096 := (i 1).isLt
  have ht : (tileOf1 i).val = (i 1).val / 2176 := rfl
  intro a
  match a with
  | ⟨0, _⟩ => show win1_10.index (tileOf1 i) (0 : Fin 2) * 256 ≤ (i 0).val ∧ (i 0).val < win1_10.index (tileOf1 i) (0 : Fin 2) * 256 + 256; rw [e0]; omega
  | ⟨1, _⟩ => show win1_10.index (tileOf1 i) (1 : Fin 2) * 2176 ≤ (i 1).val ∧ (i 1).val < win1_10.index (tileOf1 i) (1 : Fin 2) * 2176 + 2176; rw [e1, ht]; omega

/-- THE ARRAY after the region. -/
theorem final1 (c : Dev nD) : (dat1 V c).arrAt 10 cfg1.N = mixArr V c :=
  (dat1 V c).arrAt_eq_of_cover 10 (mixArr V c) (fun t _ => flushed1_eq V c t) (cover1)

end Cert.KernelIdeal.Hand
end
-- ==== Proof.IGlue.lean ====
/-
  Between the pieces. The windows' blocks read at an index in terms of the host arrays they cut (only the word vectors'
  window moves with the tile: row `r` of tile `t` is row `2176 t + r` of the padded array; every other window is its whole
  array at every tile); the first kernel's inputs reach the second kernel unchanged; the 14 host lines between the
  kernels read, at a topic, the two sweeps' (level, sum) pairs off rows 0 and 8 of the first kernel's results and merge
  them into the log-normaliser; and the program's result buffer is the samples beside the first 100000 columns of the
  second kernel's array.
-/
import proofs.«136091_j11613591568915_2_alg».proof.Proof.IRun
import proofs.«136091_j11613591568915_2_alg».proof.Proof.IStatsArr
import proofs.«136091_j11613591568915_2_alg».proof.Proof.IMixArr
import Idealize.ShloMosaic.Lib.ValueIdx
import Idealize.ShloMosaic.Lib.ValueLayout
import Idealize.ShloMosaic.Lib.StableHlo.Run
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo
variable {F : FTy → Type} [FloatOps F] [Named F]

/-! ## The index maps, decided over the grids -/

theorem idx0_tile : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1_tile : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx0_whole : ∀ t : Fin cfg0.N, win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = 0 ∧ win0_7.index t (1 : Fin 2) = 0)
theorem idx1_whole : ∀ t : Fin cfg1.N, win1_1.index t (0 : Fin 2) = 0 ∧ win1_1.index t (1 : Fin 2) = 0 ∧ win1_2.index t (0 : Fin 2) = 0 ∧ win1_2.index t (1 : Fin 2) = 0 ∧ win1_3.index t (0 : Fin 2) = 0 ∧ win1_3.index t (1 : Fin 2) = 0 ∧ win1_4.index t (0 : Fin 2) = 0 ∧ win1_4.index t (1 : Fin 2) = 0 ∧ win1_5.index t (0 : Fin 2) = 0 ∧ win1_5.index t (1 : Fin 2) = 0 ∧ win1_6.index t (0 : Fin 2) = 0 ∧ win1_6.index t (1 : Fin 2) = 0 ∧ win1_7.index t (0 : Fin 2) = 0 ∧ win1_7.index t (1 : Fin 2) = 0 ∧ win1_8.index t (0 : Fin 2) = 0 ∧ win1_8.index t (1 : Fin 2) = 0 ∧ win1_9.index t (0 : Fin 2) = 0 ∧ win1_9.index t (1 : Fin 2) = 0 :=
  (by decide +kernel : ∀ t : Fin grid1.N, win1_1.index t (0 : Fin 2) = 0 ∧ win1_1.index t (1 : Fin 2) = 0 ∧ win1_2.index t (0 : Fin 2) = 0 ∧ win1_2.index t (1 : Fin 2) = 0 ∧ win1_3.index t (0 : Fin 2) = 0 ∧ win1_3.index t (1 : Fin 2) = 0 ∧ win1_4.index t (0 : Fin 2) = 0 ∧ win1_4.index t (1 : Fin 2) = 0 ∧ win1_5.index t (0 : Fin 2) = 0 ∧ win1_5.index t (1 : Fin 2) = 0 ∧ win1_6.index t (0 : Fin 2) = 0 ∧ win1_6.index t (1 : Fin 2) = 0 ∧ win1_7.index t (0 : Fin 2) = 0 ∧ win1_7.index t (1 : Fin 2) = 0 ∧ win1_8.index t (0 : Fin 2) = 0 ∧ win1_8.index t (1 : Fin 2) = 0 ∧ win1_9.index t (0 : Fin 2) = 0 ∧ win1_9.index t (1 : Fin 2) = 0)

/-! ## The blocks at an index -/

section Blocks
variable (V : (c : Dev nD) → (b : Ref sig .tc) → Buf (Elt F) ((c : Thread nD τ).loc b))

theorem blk0_0_apply (c : Dev nD) (t : Fin cfg0.N) (r : Fin 2176) (j : Fin 300) :
    blk0 V c 0 t (ix2 r j) = V c main_v31 (ix2 ⟨2176 * t.val + r.val, by have h : t.val < 46 := lt_of_lt_of_eq t.isLt (show cfg0.N = 46 from N_0); omega⟩ j) := by
  obtain ⟨e0, e1⟩ := idx0_tile t
  show V c main_v31 (((cfg0.win 0).blk t).view.emb (ix2 r j)) = _
  refine congrArg (V c main_v31) (funext fun a => Fin.ext ?_)
  match a with
  | ⟨0, _⟩ => show win0_0.index t (0 : Fin 2) * 2176 + 1 * r.val = 2176 * t.val + r.val; rw [e0]; omega
  | ⟨1, _⟩ => show win0_0.index t (1 : Fin 2) * 300 + 1 * j.val = j.val; rw [e1]; omega

theorem blk0_1_apply (c : Dev nD) (t : Fin cfg0.N) (a : Fin 300) (b : Fin 200) :
    blk0 V c 1 t (ix2 a b) = V c main_v24 (ix2 a b) := by
  have e := idx0_whole t
  show V c main_v24 (((cfg0.win 1).blk t).view.emb (ix2 a b)) = _
  refine congrArg (V c main_v24) (funext fun ax => Fin.ext ?_)
  match ax with
  | ⟨0, _⟩ => show win0_1.index t (0 : Fin 2) * 300 + 1 * a.val = a.val; rw [e.1]; omega
  | ⟨1, _⟩ => show win0_1.index t (1 : Fin 2) * 200 + 1 * b.val = b.val; rw [e.2.1]; omega

theorem blk0_2_apply (c : Dev nD) (t : Fin cfg0.N) (a : Fin 300) (b : Fin 200) :
    blk0 V c 2 t (ix2 a b) = V c main_v25 (ix2 a b) := by
  have e := idx0_whole t
  show V c main_v25 (((cfg0.win 2).blk t).view.emb (ix2 a b)) = _
  refine congrArg (V c main_v25) (funext fun ax => Fin.ext ?_)
  match ax with
  | ⟨0, _⟩ => show win0_2.index t (0 : Fin 2) * 300 + 1 * a.val = a.val; rw [e.2.2.1]; omega
  | ⟨1, _⟩ => show win0_2.index t (1 : Fin 2) * 200 + 1 * b.val = b.val; rw [e.2.2.2.1]; omega

theorem blk0_3_apply (c : Dev nD) (t : Fin cfg0.N) (a : Fin 300) (b : Fin 200) :
    blk0 V c 3 t (ix2 a b) = V c main_v26 (ix2 a b) := by
  have e := idx0_whole t
  show V c main_v26 (((cfg0.win 3).blk t).view.emb (ix2 a b)) = _
  refine congrArg (V c main_v26) (funext fun ax => Fin.ext ?_)
  match ax with
  | ⟨0, _⟩ => show win0_3.index t (0 : Fin 2) * 300 + 1 * a.val = a.val; rw [e.2.2.2.2.1]; omega
  | ⟨1, _⟩ => show win0_3.index t (1 : Fin 2) * 200 + 1 * b.val = b.val; rw [e.2.2.2.2.2.1]; omega

theorem blk0_4_apply (c : Dev nD) (t : Fin cfg0.N) (a : Fin 1) (b : Fin 200) :
    blk0 V c 4 t (ix2 a b) = V c main_v28 (ix2 a b) := by
  have e := idx0_whole t
  show V c main_v28 (((cfg0.win 4).blk t).view.emb (ix2 a b)) = _
  refine congrArg (V c main_v28) (funext fun ax => Fin.ext ?_)
  match ax with
  | ⟨0, _⟩ => show win0_4.index t (0 : Fin 2) * 1 + 1 * a.val = a.val; rw [e.2.2.2.2.2.2.1]; omega
  | ⟨1, _⟩ => show win0_4.index t (1 : Fin 2) * 200 + 1 * b.val = b.val; rw [e.2.2.2.2.2.2.2.1]; omega

theorem blk0_5_apply (c : Dev nD) (t : Fin cfg0.N) (a : Fin 1) (b : Fin 200) :
    blk0 V c 5 t (ix2 a b) = V c main_v29 (ix2 a b) := by
  have e := idx0_whole t
  show V c main_v29 (((cfg0.win 5).blk t).view.emb (ix2 a b)) = _
  refine congrArg (V c main_v29) (funext fun ax => Fin.ext ?_)
  match ax with
  | ⟨0, _⟩ => show win0_5.index t (0 : Fin 2) * 1 + 1 * a.val = a.val; rw [e.2.2.2.2.2.2.2.2.1]; omega
  | ⟨1, _⟩ => show win0_5.index t (1 : Fin 2) * 200 + 1 * b.val = b.val; rw [e.2.2.2.2.2.2.2.2.2.1]; omega

theorem blk0_6_apply (c : Dev nD) (t : Fin cfg0.N) (a : Fin 1) (b : Fin 200) :
    blk0 V c 6 t (ix2 a b) = V c main_v27 (ix2 a b) := by
  have e := idx0_whole t
  show V c main_v27 (((cfg0.win 6).blk t).view.emb (ix2 a b)) = _
  refine congrArg (V c main_v27) (funext fun ax => Fin.ext ?_)
  match ax with
  | ⟨0, _⟩ => show win0_6.index t (0 : Fin 2) * 1 + 1 * a.val = a.val; rw [e.2.2.2.2.2.2.2.2.2.2.1]; omega
  | ⟨1, _⟩ => show win0_6.index t (1 : Fin 2) * 200 + 1 * b.val = b.val; rw [e.2.2.2.2.2.2.2.2.2.2.2.1]; omega

theorem blk0_7_apply (c : Dev nD) (t : Fin cfg0.N) (a : Fin 1) (b : Fin 200) :
    blk0 V c 7 t (ix2 a b) = V c main_v30 (ix2 a b) := by
  have e := idx0_whole t
  show V c main_v30 (((cfg0.win 7).blk t).view.emb (ix2 a b)) = _
  refine congrArg (V c main_v30) (funext fun ax => Fin.ext ?_)
  match ax with
  | ⟨0, _⟩ => show win0_7.index t (0 : Fin 2) * 1 + 1 * a.val = a.val; rw [e.2.2.2.2.2.2.2.2.2.2.2.2.1]; omega
  | ⟨1, _⟩ => show win0_7.index t (1 : Fin 2) * 200 + 1 * b.val = b.val; rw [e.2.2.2.2.2.2.2.2.2.2.2.2.2]; omega

theorem blk1_0_apply (c : Dev nD) (t : Fin cfg1.N) (r : Fin 2176) (j : Fin 300) :
    blk1 V c 0 t (ix2 r j) = V c main_v31 (ix2 ⟨2176 * t.val + r.val, by have h : t.val < 46 := lt_of_lt_of_eq t.isLt (show cfg1.N = 46 from N_1); omega⟩ j) := by
  obtain ⟨e0, e1⟩ := idx1_tile t
  show V c main_v31 (((cfg1.win 0).blk t).view.emb (ix2 r j)) = _
  refine congrArg (V c main_v31) (funext fun a => Fin.ext ?_)
  match a with
  | ⟨0, _⟩ => show win1_0.index t (0 : Fin 2) * 2176 + 1 * r.val = 2176 * t.val + r.val; rw [e0]; omega
  | ⟨1, _⟩ => show win1_0.index t (1 : Fin 2) * 300 + 1 * j.val = j.val; rw [e1]; omega

theorem blk1_1_apply (c : Dev nD) (t : Fin cfg1.N) (a : Fin 300) (b : Fin 200) :
    blk1 V c 1 t (ix2 a b) = V c main_v24 (ix2 a b) := by
  have e := idx1_whole t
  show V c main_v24 (((cfg1.win 1).blk t).view.emb (ix2 a b)) = _
  refine congrArg (V c main_v24) (funext fun ax => Fin.ext ?_)
  match ax with
  | ⟨0, _⟩ => show win1_1.index t (0 : Fin 2) * 300 + 1 * a.val = a.val; rw [e.1]; omega
  | ⟨1, _⟩ => show win1_1.index t (1 : Fin 2) * 200 + 1 * b.val = b.val; rw [e.2.1]; omega

theorem blk1_2_apply (c : Dev nD) (t : Fin cfg1.N) (a : Fin 300) (b : Fin 200) :
    blk1 V c 2 t (ix2 a b) = V c main_v25 (ix2 a b) := by
  have e := idx1_whole t
  show V c main_v25 (((cfg1.win 2).blk t).view.emb (ix2 a b)) = _
  refine congrArg (V c main_v25) (funext fun ax => Fin.ext ?_)
  match ax with
  | ⟨0, _⟩ => show win1_2.index t (0 : Fin 2) * 300 + 1 * a.val = a.val; rw [e.2.2.1]; omega
  | ⟨1, _⟩ => show win1_2.index t (1 : Fin 2) * 200 + 1 * b.val = b.val; rw [e.2.2.2.1]; omega

theorem blk1_3_apply (c : Dev nD) (t : Fin cfg1.N) (a : Fin 300) (b : Fin 200) :
    blk1 V c 3 t (ix2 a b) = V c main_v26 (ix2 a b) := by
  have e := idx1_whole t
  show V c main_v26 (((cfg1.win 3).blk t).view.emb (ix2 a b)) = _
  refine congrArg (V c main_v26) (funext fun ax => Fin.ext ?_)
  match ax with
  | ⟨0, _⟩ => show win1_3.index t (0 : Fin 2) * 300 + 1 * a.val = a.val; rw [e.2.2.2.2.1]; omega
  | ⟨1, _⟩ => show win1_3.index t (1 : Fin 2) * 200 + 1 * b.val = b.val; rw [e.2.2.2.2.2.1]; omega

theorem blk1_4_apply (c : Dev nD) (t : Fin cfg1.N) (a : Fin 1) (b : Fin 200) :
    blk1 V c 4 t (ix2 a b) = V c main_v28 (ix2 a b) := by
  have e := idx1_whole t
  show V c main_v28 (((cfg1.win 4).blk t).view.emb (ix2 a b)) = _
  refine congrArg (V c main_v28) (funext fun ax => Fin.ext ?_)
  match ax with
  | ⟨0, _⟩ => show win1_4.index t (0 : Fin 2) * 1 + 1 * a.val = a.val; rw [e.2.2.2.2.2.2.1]; omega
  | ⟨1, _⟩ => show win1_4.index t (1 : Fin 2) * 200 + 1 * b.val = b.val; rw [e.2.2.2.2.2.2.2.1]; omega

theorem blk1_5_apply (c : Dev nD) (t : Fin cfg1.N) (a : Fin 1) (b : Fin 200) :
    blk1 V c 5 t (ix2 a b) = V c main_v29 (ix2 a b) := by
  have e := idx1_whole t
  show V c main_v29 (((cfg1.win 5).blk t).view.emb (ix2 a b)) = _
  refine congrArg (V c main_v29) (funext fun ax => Fin.ext ?_)
  match ax with
  | ⟨0, _⟩ => show win1_5.index t (0 : Fin 2) * 1 + 1 * a.val = a.val; rw [e.2.2.2.2.2.2.2.2.1]; omega
  | ⟨1, _⟩ => show win1_5.index t (1 : Fin 2) * 200 + 1 * b.val = b.val; rw [e.2.2.2.2.2.2.2.2.2.1]; omega

theorem blk1_6_apply (c : Dev nD) (t : Fin cfg1.N) (a : Fin 1) (b : Fin 200) :
    blk1 V c 6 t (ix2 a b) = V c main_v27 (ix2 a b) := by
  have e := idx1_whole t
  show V c main_v27 (((cfg1.win 6).blk t).view.emb (ix2 a b)) = _
  refine congrArg (V c main_v27) (funext fun ax => Fin.ext ?_)
  match ax with
  | ⟨0, _⟩ => show win1_6.index t (0 : Fin 2) * 1 + 1 * a.val = a.val; rw [e.2.2.2.2.2.2.2.2.2.2.1]; omega
  | ⟨1, _⟩ => show win1_6.index t (1 : Fin 2) * 200 + 1 * b.val = b.val; rw [e.2.2.2.2.2.2.2.2.2.2.2.1]; omega

theorem blk1_7_apply (c : Dev nD) (t : Fin cfg1.N) (a : Fin 1) (b : Fin 200) :
    blk1 V c 7 t (ix2 a b) = V c main_v30 (ix2 a b) := by
  have e := idx1_whole t
  show V c main_v30 (((cfg1.win 7).blk t).view.emb (ix2 a b)) = _
  refine congrArg (V c main_v30) (funext fun ax => Fin.ext ?_)
  match ax with
  | ⟨0, _⟩ => show win1_7.index t (0 : Fin 2) * 1 + 1 * a.val = a.val; rw [e.2.2.2.2.2.2.2.2.2.2.2.2.1]; omega
  | ⟨1, _⟩ => show win1_7.index t (1 : Fin 2) * 200 + 1 * b.val = b.val; rw [e.2.2.2.2.2.2.2.2.2.2.2.2.2.1]; omega

theorem blk1_8_apply (c : Dev nD) (t : Fin cfg1.N) (a : Fin 1) (b : Fin 200) :
    blk1 V c 8 t (ix2 a b) = V c main_v46 (ix2 a b) := by
  have e := idx1_whole t
  show V c main_v46 (((cfg1.win 8).blk t).view.emb (ix2 a b)) = _
  refine congrArg (V c main_v46) (funext fun ax => Fin.ext ?_)
  match ax with
  | ⟨0, _⟩ => show win1_8.index t (0 : Fin 2) * 1 + 1 * a.val = a.val; rw [e.2.2.2.2.2.2.2.2.2.2.2.2.2.2.1]; omega
  | ⟨1, _⟩ => show win1_8.index t (1 : Fin 2) * 200 + 1 * b.val = b.val; rw [e.2.2.2.2.2.2.2.2.2.2.2.2.2.2.2.1]; omega

theorem blk1_9_apply (c : Dev nD) (t : Fin cfg1.N) (a : Fin 256) (b : Fin 200) :
    blk1 V c 9 t (ix2 a b) = V c main_arg0 (ix2 a b) := by
  have e := idx1_whole t
  show V c main_arg0 (((cfg1.win 9).blk t).view.emb (ix2 a b)) = _
  refine congrArg (V c main_arg0) (funext fun ax => Fin.ext ?_)
  match ax with
  | ⟨0, _⟩ => show win1_9.index t (0 : Fin 2) * 256 + 1 * a.val = a.val; rw [e.2.2.2.2.2.2.2.2.2.2.2.2.2.2.2.2.1]; omega
  | ⟨1, _⟩ => show win1_9.index t (1 : Fin 2) * 200 + 1 * b.val = b.val; rw [e.2.2.2.2.2.2.2.2.2.2.2.2.2.2.2.2.2]; omega

end Blocks

variable (m : (ℓ : Loc nD τ sig) → Buf (Elt F) ℓ)

/-! ## The first kernel's inputs reach the second kernel unchanged -/

theorem W4_input (c : Dev nD) (w : Fin cfg0.W) (hw : (cfg0.win w).isOut = false) (h1 : Pipeline.arrRef spec0 w ∉ hostOps1_W) :
    W4 m c (Pipeline.arrRef spec0 w) = W2 m c (Pipeline.arrRef spec0 w) :=
  (StableHlo.after_of_writes_sub hostOps1 _ hostOps1_writes h1).trans
    ((W3_arr m c w).trans (((dat0 (V2 m) c).arrAt_in w hw _).trans (A_eq0 (V2 m) c w)))

theorem V4_main_v31 (c : Dev nD) : V4 m c main_v31 = V2 m c main_v31 := W4_input m c 0 rfl (by decide)
theorem V4_main_v24 (c : Dev nD) : V4 m c main_v24 = V2 m c main_v24 := W4_input m c 1 rfl (by decide)
theorem V4_main_v25 (c : Dev nD) : V4 m c main_v25 = V2 m c main_v25 := W4_input m c 2 rfl (by decide)
theorem V4_main_v26 (c : Dev nD) : V4 m c main_v26 = V2 m c main_v26 := W4_input m c 3 rfl (by decide)
theorem V4_main_v28 (c : Dev nD) : V4 m c main_v28 = V2 m c main_v28 := W4_input m c 4 rfl (by decide)
theorem V4_main_v29 (c : Dev nD) : V4 m c main_v29 = V2 m c main_v29 := W4_input m c 5 rfl (by decide)
theorem V4_main_v27 (c : Dev nD) : V4 m c main_v27 = V2 m c main_v27 := W4_input m c 6 rfl (by decide)
theorem V4_main_v30 (c : Dev nD) : V4 m c main_v30 = V2 m c main_v30 := W4_input m c 7 rfl (by decide)

/-! ## The program's result buffer -/

/-- The result is the samples beside the first 100000 columns of the second kernel's array. -/
theorem result_eq (c : Dev nD) :
    W6 m c (Proc.devRef .tc main_v49)
      = concatenate S256x100200 1 [⟨S256x200, m ((c : Thread nD τ).loc main_arg0)⟩,
          ⟨S256x100000, extractStridedSlice S256x100000 ![0, 0] (mixArr (V4 m) c) slices_S256x100096_S256x100000_0_0⟩]
          concatenates_S256x200_S256x100000_S256x100200_d1 := by
  have h47 : W5 m c (Proc.devRef .tc main_v47) = mixArr (V4 m) c := (W5_arr m c 10).trans (final1 (V4 m) c)
  have h0 : W5 m c (Proc.devRef .tc main_arg0) = m ((c : Thread nD τ).loc main_arg0) :=
    ((W5_arr m c 9).trans (((dat1 (V4 m) c).arrAt_in 9 rfl _).trans (A_eq1 (V4 m) c 9))).trans
      ((StableHlo.after_of_writes_sub hostOps1 _ hostOps1_writes (by decide)).trans
        ((W3_of_ne m c main_arg0 (by decide)).trans
          ((StableHlo.after_of_writes_sub hostOps0_1 _ hostOps0_1_writes (by decide)).trans
            (StableHlo.after_of_writes_sub hostOps0 _ hostOps0_writes (by decide)))))
  show StableHlo.after hostOps2 (W5 m c) (Proc.devRef .tc main_v49) = _
  after_results
  rw [h47, h0]

end Cert.KernelIdeal.Hand
end
-- ==== Proof.IGlue2.lean ====
/-
  The log-normaliser. The host lines between the two kernels cut row 0 and row 8 out of the level array and the sum
  array — the first and the second sweep's final (level, sum) at each topic —, take the larger level, rescale both sums
  to it, add them, and return the larger level plus the logarithm of that total.
-/
import proofs.«136091_j11613591568915_2_alg».proof.Proof.IGlue
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ)

/-- The sweeps' last tiles. -/
abbrev t22 : Fin cfg0.N := ⟨22, by have h : cfg0.N = 46 := N_0; omega⟩
abbrev t45 : Fin cfg0.N := ⟨45, by have h : cfg0.N = 46 := N_0; omega⟩

/-- The level and the sum after tile `t`, at topic `k`. -/
def lvl (c : Dev nD) (t : Fin cfg0.N) (k : Fin 200) : EReal := (stateT (V2 m) c t).2.1 (ix2 (0 : Fin 1) k)
def sm (c : Dev nD) (t : Fin cfg0.N) (k : Fin 200) : EReal := (stateT (V2 m) c t).2.2 (ix2 (0 : Fin 1) k)

theorem k0pay1_apply (v : Vec Ideal S1x200 .f32) (a : Fin 8) (k : Fin 200) : k0_pay1 v (ix2 a k) = v (ix2 (0 : Fin 1) k) := by
  unfold k0_pay1
  exact (broadcastTo_1b_ab_apply _ broadcasts_S1x200_S8x200 a k).trans (congrFun (shapeCast_self v _) _)
theorem k0pay2_apply (v : Vec Ideal S1x200 .f32) (a : Fin 8) (k : Fin 200) : k0_pay2 v (ix2 a k) = v (ix2 (0 : Fin 1) k) := by
  unfold k0_pay2
  exact (broadcastTo_1b_ab_apply _ broadcasts_S1x200_S8x200 a k).trans (congrFun (shapeCast_self v _) _)

theorem sweepEnd_row0 (k : Fin 200) : sweepEnd (ix2 (⟨0, by norm_num⟩ : Fin 16) k) = t22 := by
  unfold sweepEnd; rw [if_pos (by show (0 : ℕ) < 8; norm_num)]
theorem sweepEnd_row8 (k : Fin 200) : sweepEnd (ix2 (⟨8, by norm_num⟩ : Fin 16) k) = t45 := by
  unfold sweepEnd; rw [if_neg (by show ¬(8 : ℕ) < 8; norm_num)]

theorem levelArr_row0 (c : Dev nD) (k : Fin 200) : W3 m c main_v32_0 (ix2 (⟨0, by norm_num⟩ : Fin 16) k) = lvl m c t22 k := by
  rw [show W3 m c main_v32_0 = levelArr (V2 m) c from (W3_arr m c 8).trans (final0_8 (V2 m) c)]
  unfold levelArr; rw [sweepEnd_row0]; exact k0pay1_apply _ _ _
theorem levelArr_row8 (c : Dev nD) (k : Fin 200) : W3 m c main_v32_0 (ix2 (⟨8, by norm_num⟩ : Fin 16) k) = lvl m c t45 k := by
  rw [show W3 m c main_v32_0 = levelArr (V2 m) c from (W3_arr m c 8).trans (final0_8 (V2 m) c)]
  unfold levelArr; rw [sweepEnd_row8]; exact k0pay1_apply _ _ _
theorem sumArr_row0 (c : Dev nD) (k : Fin 200) : W3 m c main_v32_1 (ix2 (⟨0, by norm_num⟩ : Fin 16) k) = sm m c t22 k := by
  rw [show W3 m c main_v32_1 = sumArr (V2 m) c from (W3_arr m c 9).trans (final0_9 (V2 m) c)]
  unfold sumArr; rw [sweepEnd_row0]; exact k0pay2_apply _ _ _
theorem sumArr_row8 (c : Dev nD) (k : Fin 200) : W3 m c main_v32_1 (ix2 (⟨8, by norm_num⟩ : Fin 16) k) = sm m c t45 k := by
  rw [show W3 m c main_v32_1 = sumArr (V2 m) c from (W3_arr m c 9).trans (final0_9 (V2 m) c)]
  unfold sumArr; rw [sweepEnd_row8]; exact k0pay2_apply _ _ _

theorem hostExp_apply (x : FVec Ideal S1x200 .f32) (i : S1x200.Idx) : Host.exp x i = Ideal.exp (x i) := rfl
theorem hostLog_apply (x : FVec Ideal S1x200 .f32) (i : S1x200.Idx) : Host.log x i = Ideal.log (x i) := rfl

set_option maxHeartbeats 4000000 in
/-- THE LOG-NORMALISER at topic `k`. -/
theorem lse_apply (c : Dev nD) (k : Fin 200) :
    W4 m c main_v46 (ix2 (0 : Fin 1) k)
      = max (lvl m c t22 k) (lvl m c t45 k)
        + Ideal.log (Ideal.exp (lvl m c t22 k - max (lvl m c t22 k) (lvl m c t45 k)) * sm m c t22 k
            + Ideal.exp (lvl m c t45 k - max (lvl m c t22 k) (lvl m c t45 k)) * sm m c t45 k) := by
  have hT : StableHlo.after hostOps1 (W3 m c) (Proc.devRef .tc main_v46)
      = (addf (maximumf (extractStridedSlice S1x200 ![0, 0] (W3 m c main_v32_0) slices_S16x200_S1x200_0_0) (extractStridedSlice S1x200 ![8, 0] (W3 m c main_v32_0) slices_S16x200_S1x200_8_0)) (Host.log (addf (mulf (Host.exp (subf (extractStridedSlice S1x200 ![0, 0] (W3 m c main_v32_0) slices_S16x200_S1x200_0_0) (maximumf (extractStridedSlice S1x200 ![0, 0] (W3 m c main_v32_0) slices_S16x200_S1x200_0_0) (extractStridedSlice S1x200 ![8, 0] (W3 m c main_v32_0) slices_S16x200_S1x200_8_0)))) (extractStridedSlice S1x200 ![0, 0] (W3 m c main_v32_1) slices_S16x200_S1x200_0_0)) (mulf (Host.exp (subf (extractStridedSlice S1x200 ![8, 0] (W3 m c main_v32_0) slices_S16x200_S1x200_8_0) (maximumf (extractStridedSlice S1x200 ![0, 0] (W3 m c main_v32_0) slices_S16x200_S1x200_0_0) (extractStridedSlice S1x200 ![8, 0] (W3 m c main_v32_0) slices_S16x200_S1x200_8_0)))) (extractStridedSlice S1x200 ![8, 0] (W3 m c main_v32_1) slices_S16x200_S1x200_8_0))))
          : FVec Ideal S1x200 .f32) := by
    after_results
  show StableHlo.after hostOps1 (W3 m c) (Proc.devRef .tc main_v46) (ix2 (0 : Fin 1) k) = _
  rw [hT, addf_apply, hostLog_apply, addf_apply, mulf_apply, mulf_apply, hostExp_apply, hostExp_apply, subf_apply, subf_apply, maximumf_apply]
  have e33 := slice2_axis0_eq 0 (W3 m c main_v32_0) slices_S16x200_S1x200_0_0 (0 : Fin 1) k
  have e34 := slice2_axis0_eq 8 (W3 m c main_v32_0) slices_S16x200_S1x200_8_0 (0 : Fin 1) k
  have e35 := slice2_axis0_eq 0 (W3 m c main_v32_1) slices_S16x200_S1x200_0_0 (0 : Fin 1) k
  have e36 := slice2_axis0_eq 8 (W3 m c main_v32_1) slices_S16x200_S1x200_8_0 (0 : Fin 1) k
  rw [e33, e34, e35, e36]
  rw [show W3 m c main_v32_0 (ix2 (⟨0 + (0 : Fin 1).val, _⟩ : Fin 16) k) = lvl m c t22 k from levelArr_row0 m c k,
    show W3 m c main_v32_0 (ix2 (⟨8 + (0 : Fin 1).val, _⟩ : Fin 16) k) = lvl m c t45 k from levelArr_row8 m c k,
    show W3 m c main_v32_1 (ix2 (⟨0 + (0 : Fin 1).val, _⟩ : Fin 16) k) = sm m c t22 k from sumArr_row0 m c k,
    show W3 m c main_v32_1 (ix2 (⟨8 + (0 : Fin 1).val, _⟩ : Fin 16) k) = sm m c t45 k from sumArr_row8 m c k]

end Cert.KernelIdeal.Hand
end
-- ==== Proof.LibDot.lean ====
/-
  A plain matrix product `[M, K] × [K, N]` on the host, read at an index over the extended reals: entry `(n, j)` is
  `∑ k, H[n,k] · W[k,j]` — no rounding and no order of summation left in it.
-/
import Idealize.ShloMosaic.Lib.ValueIdx
import Idealize.ShloMosaic.PureOps.Ideal.Laws

noncomputable section

namespace Cert.Dot

open Idealize.ShloMosaic Idealize.ShloMosaic.ValueIdx

variable {M K N : Nat}

theorem lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem lhs1 (i : (⟨2, ![M, N]⟩ : Shape).Idx) (q : (DotDims.plain M K N).contr.Idx) : ((DotDims.plain M K N).lhsIdx i q 1).val = (q ⟨0, Nat.one_pos⟩).val :=
  (DotDims.plain M K N).lhsIdx_val_of_single rfl i q
theorem rhs0 (i : (⟨2, ![M, N]⟩ : Shape).Idx) (q : (DotDims.plain M K N).contr.Idx) : ((DotDims.plain M K N).rhsIdx i q 0).val = (q ⟨0, Nat.one_pos⟩).val :=
  (DotDims.plain M K N).rhsIdx_val_of_single rfl i q
theorem rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- THE PRODUCT AT `(n, j)`: row `n` of the left operand against column `j` of the right one. -/
theorem plainDot_apply {φ₁ φ₂ : FTy} (H : FVec Ideal ⟨2, ![M, K]⟩ φ₁) (W : FVec Ideal ⟨2, ![K, N]⟩ φ₂) (n : Fin M) (j : Fin N) :
    Host.dotGeneral (F := Ideal) (DotDims.plain M K N) none H W (ix2 n j) = ∑ k : Fin K, H (ix2 n k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact lhs0 _ _
    | ⟨1, _⟩ => exact (lhs1 _ _).trans hk)
  have er : (DotDims.plain M K N).rhsIdx (ix2 n j) ((contrEquiv1 (DotDims.plain M K N) K rfl rfl).symm k) = ix2 k j := funext fun a => Fin.ext (by
    match a with
    | ⟨0, _⟩ => exact (rhs0 _ _).trans hk
    | ⟨1, _⟩ => exact rhs1 _ _)
  rw [el, er]

end Cert.Dot

end
-- ==== Proof.LibMxuDot.lean ====
/-
  A matrix-unit product into the zero accumulator, read at an index over the extended reals. Two arrangements: the
  plain one, `[M, K] × [K, N]`, whose entry `(n, j)` is `∑ k, A[n,k] · B[k,j]`; and the one that contracts the ROW axis
  of both operands, `[K, M] × [K, N]`, whose entry `(e, f)` is `∑ o, A[o,e] · B[o,f]`.
-/
import Idealize.ShloMosaic.Lib.ValueIdx
import Idealize.ShloMosaic.PureOps.Ideal.Laws
import proofs.«136091_j11613591568915_2_alg».proof.Proof.LibDot

noncomputable section

namespace Cert.KBodyDot

open Idealize.ShloMosaic Idealize.ShloMosaic.ValueIdx

variable {M K N : Nat}

/-- THE PLAIN PRODUCT AT `(n, j)`, for any record of dimension numbers that is the plain one. -/
theorem plainMatmul_apply {φ₁ φ₂ : FTy} (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂) (n : Fin M) (j : Fin N) :
    matmul D prec A B (constant (F := Ideal) ⟨2, ![M, N]⟩ .f32 0x00000000#32) (ix2 n j) = ∑ k : Fin K, A (ix2 n k) * B (ix2 k j) := by
  subst hD
  refine (Ideal.matmul_constant_zero_apply (DotDims.plain M K N) prec A B (ix2 n j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact Cert.Dot.lhs0 _ _
    | ⟨1, _⟩ => exact (Cert.Dot.lhs1 _ _).trans hk)
  have er : (DotDims.plain M K N).rhsIdx (ix2 n j) ((contrEquiv1 (DotDims.plain M K N) K rfl rfl).symm k) = ix2 k j := funext fun a => Fin.ext (by
    match a with
    | ⟨0, _⟩ => exact (Cert.Dot.rhs0 _ _).trans hk
    | ⟨1, _⟩ => exact Cert.Dot.rhs1 _ _)
  rw [el, er]

/-- The dimension numbers that contract axis 0 of both operands: `[K, M]` by `[K, N]` gives `[M, N]`. -/
def rowsDot (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section
variable (wf : DotDims.WF ⟨2, ![K, M]⟩ ⟨2, ![K, N]⟩ ⟨2, ![M, N]⟩ [0] [0] [1] [1] [] [])

theorem rlhs0 (i : (⟨2, ![M, N]⟩ : Shape).Idx) (q : (rowsDot M K N wf).contr.Idx) : ((rowsDot M K N wf).lhsIdx i q 0).val = (q ⟨0, Nat.one_pos⟩).val :=
  (rowsDot M K N wf).lhsIdx_val_of_single rfl i q
theorem rlhs1 (i : (⟨2, ![M, N]⟩ : Shape).Idx) (q : (rowsDot M K N wf).contr.Idx) : ((rowsDot M K N wf).lhsIdx i q 1).val = (i 0).val := by
  unfold DotDims.lhsIdx
  rw [dif_neg (show ¬(1 : Fin 2) ∈ (rowsDot M K N wf).lhsBatch from List.not_mem_nil), dif_pos (show (1 : Fin 2) ∈ (rowsDot M K N wf).lhsNonContracting from List.mem_singleton.mpr rfl)]
  rfl
theorem rrhs0 (i : (⟨2, ![M, N]⟩ : Shape).Idx) (q : (rowsDot M K N wf).contr.Idx) : ((rowsDot M K N wf).rhsIdx i q 0).val = (q ⟨0, Nat.one_pos⟩).val :=
  (rowsDot M K N wf).rhsIdx_val_of_single rfl i q
theorem rrhs1 (i : (⟨2, ![M, N]⟩ : Shape).Idx) (q : (rowsDot M K N wf).contr.Idx) : ((rowsDot M K N wf).rhsIdx i q 1).val = (i 1).val := by
  unfold DotDims.rhsIdx
  rw [dif_neg (show ¬(1 : Fin 2) ∈ (rowsDot M K N wf).rhsBatch from List.not_mem_nil), dif_pos (show (1 : Fin 2) ∈ (rowsDot M K N wf).rhsNonContracting from List.mem_singleton.mpr rfl)]
  rfl

/-- THE ROW-CONTRACTED PRODUCT AT `(e, f)`: column `e` of the left operand against column `f` of the right one. -/
theorem rowsMatmul_apply {φ₁ φ₂ : FTy} (D : DotDims ⟨2, ![K, M]⟩ ⟨2, ![K, N]⟩ ⟨2, ![M, N]⟩) (hD : D = rowsDot M K N wf)
    (prec : Option ContractPrecision) (A : FVec Ideal ⟨2, ![K, M]⟩ φ₁) (B : FVec Ideal ⟨2, ![K, N]⟩ φ₂) (e : Fin M) (f : Fin N) :
    matmul D prec A B (constant (F := Ideal) ⟨2, ![M, N]⟩ .f32 0x00000000#32) (ix2 e f) = ∑ o : Fin K, A (ix2 o e) * B (ix2 o f) := by
  subst hD
  refine (Ideal.matmul_constant_zero_apply (rowsDot M K N wf) prec A B (ix2 e f)).trans ?_
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 e f) ((contrEquiv1 (rowsDot M K N wf) K rfl rfl).symm k) = ix2 k e := funext fun a => Fin.ext (by
    match a with
    | ⟨0, _⟩ => exact (rlhs0 wf _ _).trans hk
    | ⟨1, _⟩ => exact rlhs1 wf _ _)
  have er : (rowsDot M K N wf).rhsIdx (ix2 e f) ((contrEquiv1 (rowsDot M K N wf) K rfl rfl).symm k) = ix2 k f := funext fun a => Fin.ext (by
    match a with
    | ⟨0, _⟩ => exact (rrhs0 wf _ _).trans hk
    | ⟨1, _⟩ => exact rrhs1 wf _ _)
  rw [el, er]

end

end Cert.KBodyDot

end
-- ==== Proof.LibKernelLayout.lean ====
/-
  Layout operations and reductions read at an index, in the forms the two bodies use: a vector made a column, a column
  spread over lanes, a bias row spread over rows, a sum or a maximum along one axis of a matrix, and the
  "not equal to zero" mask as a number.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KBodyLayout

open Idealize.ShloMosaic Idealize.ShloMosaic.ValueIdx

variable {α : Type}

/-- A vector of length `a` cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `b` made a `[1, b]` row and spread over `a` rows reads, at `(p, c)`, the vector at `c`. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The index over `(j)` with row `o` inserted on axis 0 is `(o, j)`. -/
theorem lift0_eq {a b : ℕ} (h : (⟨2, ![a, b]⟩ : Shape).Reduces [0] ⟨1, ![b]⟩) (j : Fin b) (o : Fin a) :
    h.lift (ix1 j) o = ix2 o j :=
  funext fun ax => Fin.ext (by
    match ax with
    | ⟨0, _⟩ => rfl
    | ⟨1, _⟩ => rfl)

/-- The index over `(o)` with column `f` inserted on axis 1 is `(o, f)`. -/
theorem lift1_eq {a b : ℕ} (h : (⟨2, ![a, b]⟩ : Shape).Reduces [1] ⟨1, ![a]⟩) (o : Fin a) (f : Fin b) :
    h.lift (ix1 o) f = ix2 o f :=
  funext fun ax => Fin.ext (by
    match ax with
    | ⟨0, _⟩ => rfl
    | ⟨1, _⟩ => rfl)

/-- A sum down the rows of an `[a, b]` matrix reads, at column `j`, the sum over the rows of that column. -/
theorem sumRows_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ o : Fin a, src (ix2 o j) :=
  (Ideal.multiReduction_add_single src _ h hφ hacc (ix1 j)).trans
    (Finset.sum_congr rfl fun o _ => congrArg src (lift0_eq h j o))

/-- A maximum down the rows of an `[a, b]` matrix reads, at column `j`, the largest entry of that column, starting
    from the value the accumulator's word denotes. -/
theorem maxRows_apply {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (j : Fin b) :
    multiReduction .maximumf [0] ⟨1, ![b]⟩ src 0xFF800000#32 h hφ hacc (ix1 j)
      = (Finset.univ : Finset (Fin a)).fold max (Ideal.ofBits .f32 0xFF800000#32) (fun o => src (ix2 o j)) :=
  (Ideal.multiReduction_maximumf_single src _ h hφ hacc (ix1 j)).trans
    (congrArg (Finset.fold max (Ideal.ofBits .f32 0xFF800000#32) · Finset.univ) (funext fun o => congrArg src (lift0_eq h j o)))

/-- A maximum along the lanes of an `[a, b]` matrix reads, at row `o`, the largest entry of that row, starting from
    the value the accumulator's word denotes. -/
theorem maxLanes_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (o : Fin a) :
    multiReduction .maximumf [1] ⟨1, ![a]⟩ src 0xFF800000#32 h hφ hacc (ix1 o)
      = (Finset.univ : Finset (Fin b)).fold max (Ideal.ofBits .f32 0xFF800000#32) (fun f => src (ix2 o f)) :=
  (Ideal.multiReduction_maximumf_single src _ h hφ hacc (ix1 o)).trans
    (congrArg (Finset.fold max (Ideal.ofBits .f32 0xFF800000#32) · Finset.univ) (funext fun f => congrArg src (lift1_eq h o f)))

/-- The comparison "is not equal to zero", widened to a 32-bit integer and converted to a number, is one when the
    value is not zero and zero when it is. -/
theorem ne_zero_mask (x : EReal) :
    (FloatOps.sitofp (F := Ideal) .f32 ((FloatOps.cmpf (F := Ideal) (φ := .f32) .one x (Ideal.ofBits .f32 0x00000000#32)).setWidth 32) : EReal)
      = if x ≠ 0 then 1 else 0 := by
  rw [Ideal.cmpf_def, Ideal.ofBits_zero_f32]
  unfold Ideal.cmp
  by_cases hx : x = 0
  · subst hx
    simp
    show (((0#32 : BitVec 32).toInt : ℝ) : EReal) = 0
    simp
  · simp [hx]
    show (((1#32 : BitVec 32).toInt : ℝ) : EReal) = 1
    simp

end Cert.KBodyLayout

end
-- ==== Proof.IStatsIdx.lean ====
/-
  The first kernel's arithmetic at an index, over the extended reals.

  For a tile of 2176 words (rows `r`) and a topic `k`: the three matrix products are the inner products of the word's 300
  coordinates with column `k` of a table; the per-topic rows are spread down the tile's rows; the masked logit of row
  `r` is the logit if the word's index (the tile's first index plus `r`) is below 100000 and the fill otherwise; the
  new level is the larger of the level found and the column's largest masked logit (from -∞); the new sum is the sum
  found times exp (level found - new level) plus the column's sum of exp (masked logit - new level).
-/
import proofs.«136091_j11613591568915_2_alg».proof.Proof.IStatsVal
import proofs.«136091_j11613591568915_2_alg».proof.Proof.LibMxuDot
import proofs.«136091_j11613591568915_2_alg».proof.Proof.LibKernelLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The fill reads as -∞. -/
theorem negBig_eq : (Named.named (F := Ideal) κ "neg_big" (φ := .f32) 0xF149F2CA#32 : EReal) = ⊥ :=
  IdealRules.named_const.ideal_named_scalar _ _ _ _ rfl

/-- A per-topic row through the body's identity cast. -/
theorem pay6_apply (x : Vec Ideal S1x200 .f32) (i : S1x200.Idx) : k0_pay6 x i = x i := by
  unfold k0_pay6; exact congrFun (shapeCast_self x _) i
theorem pay7_apply (x : Vec Ideal S1x200 .f32) (i : S1x200.Idx) : k0_pay7 x i = x i := by
  unfold k0_pay7; exact congrFun (shapeCast_self x _) i
theorem pay8_apply (x : Vec Ideal S1x200 .f32) (i : S1x200.Idx) : k0_pay8 x i = x i := by
  unfold k0_pay8; exact congrFun (shapeCast_self x _) i

/-- The tile through the body's identity cast, and rounded for the matrix unit (the identity over the extended reals). -/
theorem pay5_apply (x : Vec Ideal S2176x300 .f32) (i : S2176x300.Idx) : k0_pay5 x i = x i := by
  unfold k0_pay5; exact congrFun (shapeCast_self x _) i
theorem pay9_apply (x : Vec Ideal S2176x300 .f32) (i : S2176x300.Idx) : k0_pay9 x i = x i := by
  unfold k0_pay9; exact pay5_apply x i

/-- The projection product: row `r` of the tile against column `k` of the third table. -/
theorem pay10_apply (x0 : Vec Ideal S2176x300 .f32) (x3 : Vec Ideal S300x200 .f32) (r : Fin 2176) (k : Fin 200) :
    k0_pay10 x0 x3 (ix2 r k) = ∑ j : Fin 300, x0 (ix2 r j) * x3 (ix2 j k) := by
  unfold k0_pay10
  refine (Cert.KBodyDot.plainMatmul_apply dot_S2176x300_S300x200_S2176x200_1_0_0_1_n_n rfl none _ _ r k).trans ?_
  refine Finset.sum_congr rfl fun j _ => ?_
  rw [truncf_apply, pay9_apply]
  exact congrArg (x0 (ix2 r j) * ·) (congrFun (shapeCast_self x3 _) (ix2 j k))

/-- The quadratic form's two products, combined as the body combines them. -/
theorem pay11_apply (x0 : Vec Ideal S2176x300 .f32) (x1 x2 : Vec Ideal S300x200 .f32) (r : Fin 2176) (k : Fin 200) :
    k0_pay11 x0 x1 x2 (ix2 r k)
      = (∑ j : Fin 300, (x0 (ix2 r j) * x0 (ix2 r j)) * x1 (ix2 j k))
        - Scalar.ofBits (F := Ideal) .f32 0x40000000#32 * (∑ j : Fin 300, x0 (ix2 r j) * x2 (ix2 j k)) := by
  unfold k0_pay11
  rw [subf_apply, mulf_apply, broadcast_apply]
  refine congr (congrArg HSub.hSub ?_) (congrArg (Scalar.ofBits (F := Ideal) .f32 0x40000000#32 * ·) ?_)
  · refine (Cert.KBodyDot.plainMatmul_apply dot_S2176x300_S300x200_S2176x200_1_0_0_1_n_n rfl (some .fp32) _ _ r k).trans ?_
    refine Finset.sum_congr rfl fun j _ => ?_
    rw [mulf_apply, pay5_apply]
    exact congrArg ((x0 (ix2 r j) * x0 (ix2 r j)) * ·) (congrFun (shapeCast_self x1 _) (ix2 j k))
  · refine (Cert.KBodyDot.plainMatmul_apply dot_S2176x300_S300x200_S2176x200_1_0_0_1_n_n rfl none _ _ r k).trans ?_
    refine Finset.sum_congr rfl fun j _ => ?_
    rw [truncf_apply, pay9_apply]
    exact congrArg (x0 (ix2 r j) * ·) (congrFun (shapeCast_self x2 _) (ix2 j k))

/-- A per-topic row spread down the tile's rows. -/
theorem rowSpread_apply (v : Vec Ideal S1x200 .f32) (r : Fin 2176) (k : Fin 200) :
    broadcastTo S2176x200 v broadcasts_S1x200_S2176x200 (ix2 r k) = v (ix2 (0 : Fin 1) k) :=
  broadcastTo_1b_ab_apply v broadcasts_S1x200_S2176x200 r k

theorem pay12_apply (x4 : Vec Ideal S1x200 .f32) (r : Fin 2176) (k : Fin 200) :
    k0_pay12 x4 (ix2 r k) = x4 (ix2 (0 : Fin 1) k) := by
  unfold k0_pay12
  exact (rowSpread_apply _ r k).trans (congrFun (shapeCast_self x4 _) _)

/-- "The word at row `r` of the tile starting at `s` is in the vocabulary", as the body decides it. -/
abbrev inVocabBit (s : BitVec 32) (r : Fin 2176) : BitVec 1 :=
  Scalar.cmpi .slt (Scalar.addi s (BitVec.ofNat 32 r.val)) 100000#32

/-- The unmasked logit from the tile's products and the topic's rows, as the body combines them. -/
abbrev rawLogit (v19 v21 v23 : FVec Ideal S1x200 .f32) (v28 v31 v32 : FVec Ideal S2176x200 .f32) (r : Fin 2176) (k : Fin 200) : EReal :=
  (v23 (ix2 (0 : Fin 1) k) - Scalar.ofBits (F := Ideal) .f32 0x3F000000#32 * (v31 (ix2 r k) + v32 (ix2 r k)))
    + ((v28 (ix2 r k) - v19 (ix2 (0 : Fin 1) k)) * (v28 (ix2 r k) - v19 (ix2 (0 : Fin 1) k))) * v21 (ix2 (0 : Fin 1) k)

/-- THE MASKED LOGIT at `(r, k)`. -/
theorem pay13_apply (s : BitVec 32) (v19 v21 v23 : FVec Ideal S1x200 .f32) (v28 v31 v32 : FVec Ideal S2176x200 .f32)
    (r : Fin 2176) (k : Fin 200) :
    k0_pay13 s v19 v21 v23 v28 v31 v32 (ix2 r k)
      = Scalar.select (inVocabBit s r) (rawLogit v19 v21 v23 v28 v31 v32 r k) (⊥ : EReal) := by
  unfold k0_pay13
  rw [select_apply, broadcast_apply, negBig_eq]
  refine congr (congrArg (fun b => Scalar.select b) ?_) ?_ |> fun h => congrFun h _
  · show Scalar.cmpi .slt (Scalar.addi s (iota .tc S2176x200 32 [0] iota_S2176x200_d0_w32 (ix2 r k))) 100000#32 = _
    rw [iota_single_apply]
  · rw [addf_apply, subf_apply, mulf_apply, mulf_apply, mulf_apply, subf_apply, addf_apply, broadcast_apply,
      rowSpread_apply, rowSpread_apply, rowSpread_apply]

/-- THE NEW LEVEL at topic `k`: the larger of the level found and the column's largest masked logit (from the
    reduction's start value, -∞). -/
theorem pay14_apply (s : BitVec 32) (v19 v21 v23 : FVec Ideal S1x200 .f32) (v28 v31 v32 : FVec Ideal S2176x200 .f32)
    (lv : Vec Ideal S1x200 .f32) (k : Fin 200) :
    k0_pay14 s v19 v21 v23 v28 v31 v32 lv (ix2 (0 : Fin 1) k)
      = max (lv (ix2 (0 : Fin 1) k)) ((Finset.univ : Finset (Fin 2176)).fold max (Ideal.ofBits .f32 0xFF800000#32)
          (fun r => k0_pay13 s v19 v21 v23 v28 v31 v32 (ix2 r k))) := by
  unfold k0_pay14
  rw [maximumf_apply]
  refine congrArg (max (lv (ix2 (0 : Fin 1) k))) ?_
  exact (shapeCast_a_1a_apply _ shapeCasts_S200_S1x200 0 k).trans
    (Cert.KBodyLayout.maxRows_apply _ reduces_S2176x200_S200 (.inl rfl) rfl k)

theorem pay16_apply (s : BitVec 32) (v19 v21 v23 : FVec Ideal S1x200 .f32) (v28 v31 v32 : FVec Ideal S2176x200 .f32)
    (lv : Vec Ideal S1x200 .f32) (i : S1x200.Idx) :
    k0_pay16 s v19 v21 v23 v28 v31 v32 lv i = k0_pay14 s v19 v21 v23 v28 v31 v32 lv i := by
  unfold k0_pay16; exact congrFun (shapeCast_self _ _) i

/-- THE NEW SUM at topic `k`: the sum found, rescaled from the level found to the new level, plus the column's sum of
    exp (masked logit - new level). -/
theorem pay15_apply (s : BitVec 32) (v19 v21 v23 : FVec Ideal S1x200 .f32) (v28 v31 v32 : FVec Ideal S2176x200 .f32)
    (lv lv' sm : Vec Ideal S1x200 .f32) (k : Fin 200) :
    k0_pay15 s v19 v21 v23 v28 v31 v32 lv lv' sm (ix2 (0 : Fin 1) k)
      = Ideal.exp (lv' (ix2 (0 : Fin 1) k) - k0_pay14 s v19 v21 v23 v28 v31 v32 lv (ix2 (0 : Fin 1) k)) * sm (ix2 (0 : Fin 1) k)
        + ∑ r : Fin 2176, Ideal.exp (k0_pay13 s v19 v21 v23 v28 v31 v32 (ix2 r k) - k0_pay14 s v19 v21 v23 v28 v31 v32 lv (ix2 (0 : Fin 1) k)) := by
  unfold k0_pay15
  refine (congrFun (shapeCast_self _ _) _).trans ?_
  rw [addf_apply, mulf_apply]
  refine congr (congrArg HAdd.hAdd rfl) ?_
  refine (shapeCast_a_1a_apply _ shapeCasts_S200_S1x200 0 k).trans
    ((Cert.KBodyLayout.sumRows_apply _ reduces_S2176x200_S200 (.inl rfl) rfl k).trans (Finset.sum_congr rfl fun r _ => ?_))
  show Ideal.exp (k0_pay13 s v19 v21 v23 v28 v31 v32 (ix2 r k)
      - broadcastTo S2176x200 (k0_pay14 s v19 v21 v23 v28 v31 v32 lv) broadcasts_S1x200_S2176x200 (ix2 r k)) = _
  rw [rowSpread_apply]

end Cert.KernelIdeal.Hand
end
-- ==== Proof.LibLanesDot.lean ====
/-
  A kernel matrix product into the zero accumulator that contracts the LAST axis of both operands, read at an index over
  the extended reals: `[M, K]` by `[N, K]` gives `[M, N]`, entry `(m, n)` the inner product of row `m` of the left
  operand with row `n` of the right one (the form a "query times keys-transposed" product takes when the transpose is
  folded into the dimension numbers). Any sizes; the precision hint is irrelevant at this instance.
-/
import Idealize.ShloMosaic.Lib.ValueIdx
import Idealize.ShloMosaic.PureOps.Ideal.Laws

noncomputable section

namespace Cert.LanesDot

open Idealize.ShloMosaic Idealize.ShloMosaic.ValueIdx

variable {M K N : Nat}

/-- The dimension numbers that contract axis 1 of both operands. -/
def lanesDot (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section
variable (wf : DotDims.WF ⟨2, ![M, K]⟩ ⟨2, ![N, K]⟩ ⟨2, ![M, N]⟩ [1] [1] [0] [0] [] [])

theorem llhs0 (i : (⟨2, ![M, N]⟩ : Shape).Idx) (q : (lanesDot M K N wf).contr.Idx) : ((lanesDot M K N wf).lhsIdx i q 0).val = (i 0).val := by
  unfold DotDims.lhsIdx
  rw [dif_neg (show ¬(0 : Fin 2) ∈ (lanesDot M K N wf).lhsBatch from List.not_mem_nil), dif_pos (show (0 : Fin 2) ∈ (lanesDot M K N wf).lhsNonContracting from List.mem_singleton.mpr rfl)]
  rfl
theorem llhs1 (i : (⟨2, ![M, N]⟩ : Shape).Idx) (q : (lanesDot M K N wf).contr.Idx) : ((lanesDot M K N wf).lhsIdx i q 1).val = (q ⟨0, Nat.one_pos⟩).val :=
  (lanesDot M K N wf).lhsIdx_val_of_single rfl i q
theorem lrhs0 (i : (⟨2, ![M, N]⟩ : Shape).Idx) (q : (lanesDot M K N wf).contr.Idx) : ((lanesDot M K N wf).rhsIdx i q 0).val = (i 1).val := by
  unfold DotDims.rhsIdx
  rw [dif_neg (show ¬(0 : Fin 2) ∈ (lanesDot M K N wf).rhsBatch from List.not_mem_nil), dif_pos (show (0 : Fin 2) ∈ (lanesDot M K N wf).rhsNonContracting from List.mem_singleton.mpr rfl)]
  rfl
theorem lrhs1 (i : (⟨2, ![M, N]⟩ : Shape).Idx) (q : (lanesDot M K N wf).contr.Idx) : ((lanesDot M K N wf).rhsIdx i q 1).val = (q ⟨0, Nat.one_pos⟩).val :=
  (lanesDot M K N wf).rhsIdx_val_of_single rfl i q

/-- THE LANE-CONTRACTED PRODUCT AT `(m, n)`: row `m` of the left operand against row `n` of the right one. -/
theorem lanesMatmul_apply {φ₁ φ₂ : FTy} (D : DotDims ⟨2, ![M, K]⟩ ⟨2, ![N, K]⟩ ⟨2, ![M, N]⟩) (hD : D = lanesDot M K N wf)
    (prec : Option ContractPrecision) (A : FVec Ideal ⟨2, ![M, K]⟩ φ₁) (B : FVec Ideal ⟨2, ![N, K]⟩ φ₂) (m : Fin M) (n : Fin N) :
    matmul D prec A B (constant (F := Ideal) ⟨2, ![M, N]⟩ .f32 0x00000000#32) (ix2 m n) = ∑ k : Fin K, A (ix2 m k) * B (ix2 n k) := by
  subst hD
  refine (Ideal.matmul_constant_zero_apply (lanesDot M K N wf) prec A B (ix2 m n)).trans ?_
  rw [← Equiv.sum_comp (contrEquiv1 (lanesDot M K N wf) K rfl rfl).symm]
  refine Finset.sum_congr rfl fun k _ => ?_
  have hk := contrEquiv1_symm_val (lanesDot M K N wf) K rfl rfl k
  have el : (lanesDot M K N wf).lhsIdx (ix2 m n) ((contrEquiv1 (lanesDot M K N wf) K rfl rfl).symm k) = ix2 m k := funext fun a => Fin.ext (by
    match a with
    | ⟨0, _⟩ => exact llhs0 wf _ _
    | ⟨1, _⟩ => exact (llhs1 wf _ _).trans hk)
  have er : (lanesDot M K N wf).rhsIdx (ix2 m n) ((contrEquiv1 (lanesDot M K N wf) K rfl rfl).symm k) = ix2 n k := funext fun a => Fin.ext (by
    match a with
    | ⟨0, _⟩ => exact lrhs0 wf _ _
    | ⟨1, _⟩ => exact (lrhs1 wf _ _).trans hk)
  rw [el, er]

end

end Cert.LanesDot

end
-- ==== Proof.IMixIdx.lean ====
/-
  The second kernel's arithmetic at an index, and the logit formula the two kernels share.

  Both kernels compute, for row `r` of a tile and topic `k`, the same logit from the three inner products of the word
  with column `k` of the three tables and the topic's four row entries; they only cut it into payloads differently.
  The second kernel then masks it as the first does, subtracts the topic's log-normaliser, exponentiates, and contracts
  over the topics with the samples: entry `(b, r)` of the stored block is the sum over `k` of sample `(b, k)` times
  exp (masked logit `(r, k)` - log-normaliser `k`).
-/
import proofs.«136091_j11613591568915_2_alg».proof.Proof.IStatsIdx
import proofs.«136091_j11613591568915_2_alg».proof.Proof.IMixArr
import proofs.«136091_j11613591568915_2_alg».proof.Proof.LibLanesDot
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The logit of row `r` of a tile for topic `k`, from the tile and the seven tables. -/
def logitAt (x0 : Vec Ideal S2176x300 .f32) (x1 x2 x3 : Vec Ideal S300x200 .f32) (x4 x5 x6 x7 : Vec Ideal S1x200 .f32)
    (r : Fin 2176) (k : Fin 200) : EReal :=
  (x7 (ix2 (0 : Fin 1) k) - Scalar.ofBits (F := Ideal) .f32 0x3F000000#32
      * (((∑ j : Fin 300, (x0 (ix2 r j) * x0 (ix2 r j)) * x1 (ix2 j k))
          - Scalar.ofBits (F := Ideal) .f32 0x40000000#32 * (∑ j : Fin 300, x0 (ix2 r j) * x2 (ix2 j k))) + x4 (ix2 (0 : Fin 1) k)))
    + (((∑ j : Fin 300, x0 (ix2 r j) * x3 (ix2 j k)) - x5 (ix2 (0 : Fin 1) k))
        * ((∑ j : Fin 300, x0 (ix2 r j) * x3 (ix2 j k)) - x5 (ix2 (0 : Fin 1) k))) * x6 (ix2 (0 : Fin 1) k)

/-- The first kernel's unmasked logit is it. -/
theorem rawLogit_eq (x0 : Vec Ideal S2176x300 .f32) (x1 x2 x3 : Vec Ideal S300x200 .f32) (x4 x5 x6 x7 : Vec Ideal S1x200 .f32)
    (r : Fin 2176) (k : Fin 200) :
    rawLogit (k0_pay6 x5) (k0_pay7 x6) (k0_pay8 x7) (k0_pay10 x0 x3) (k0_pay11 x0 x1 x2) (k0_pay12 x4) r k
      = logitAt x0 x1 x2 x3 x4 x5 x6 x7 r k := by
  unfold rawLogit logitAt
  rw [pay6_apply, pay7_apply, pay8_apply, pay10_apply, pay11_apply, pay12_apply]

/-- The second kernel's payloads. -/
theorem k1pay2_apply (x : Vec Ideal S2176x300 .f32) (i : S2176x300.Idx) : k1_pay2 x i = x i := by
  unfold k1_pay2; exact congrFun (shapeCast_self x _) i
theorem k1pay3_apply (x : Vec Ideal S2176x300 .f32) (i : S2176x300.Idx) : k1_pay3 x i = x i := by
  unfold k1_pay3; exact k1pay2_apply x i
theorem k1pay6_apply (x6 : Vec Ideal S1x200 .f32) (r : Fin 2176) (k : Fin 200) : k1_pay6 x6 (ix2 r k) = x6 (ix2 (0 : Fin 1) k) := by
  unfold k1_pay6
  exact (rowSpread_apply _ r k).trans (congrFun (shapeCast_self x6 _) _)
theorem k1pay5_apply (x0 : Vec Ideal S2176x300 .f32) (x3 : Vec Ideal S300x200 .f32) (x5 : Vec Ideal S1x200 .f32) (r : Fin 2176) (k : Fin 200) :
    k1_pay5 x0 x3 x5 (ix2 r k)
      = ((∑ j : Fin 300, x0 (ix2 r j) * x3 (ix2 j k)) - x5 (ix2 (0 : Fin 1) k))
        * ((∑ j : Fin 300, x0 (ix2 r j) * x3 (ix2 j k)) - x5 (ix2 (0 : Fin 1) k)) := by
  unfold k1_pay5
  rw [mulf_apply, subf_apply]
  have key : ∀ a b : EReal, a = b → a * a = b * b := fun a b h => by rw [h]
  refine key _ _ (congr (congrArg HSub.hSub ?_) ?_)
  · refine (Cert.KBodyDot.plainMatmul_apply dot_S2176x300_S300x200_S2176x200_1_0_0_1_n_n rfl none _ _ r k).trans ?_
    refine Finset.sum_congr rfl fun j _ => ?_
    rw [truncf_apply, k1pay3_apply]
    exact congrArg (x0 (ix2 r j) * ·) (congrFun (shapeCast_self x3 _) (ix2 j k))
  · exact (rowSpread_apply _ r k).trans (congrFun (shapeCast_self x5 _) _)
theorem k1pay4_apply (x0 : Vec Ideal S2176x300 .f32) (x1 x2 : Vec Ideal S300x200 .f32) (x4 x7 : Vec Ideal S1x200 .f32) (r : Fin 2176) (k : Fin 200) :
    k1_pay4 x0 x1 x2 x4 x7 (ix2 r k)
      = x7 (ix2 (0 : Fin 1) k) - Scalar.ofBits (F := Ideal) .f32 0x3F000000#32
          * (((∑ j : Fin 300, (x0 (ix2 r j) * x0 (ix2 r j)) * x1 (ix2 j k))
              - Scalar.ofBits (F := Ideal) .f32 0x40000000#32 * (∑ j : Fin 300, x0 (ix2 r j) * x2 (ix2 j k))) + x4 (ix2 (0 : Fin 1) k)) := by
  unfold k1_pay4
  rw [subf_apply, mulf_apply, broadcast_apply, addf_apply, subf_apply, mulf_apply, broadcast_apply]
  refine congr (congrArg HSub.hSub ?_) (congrArg (_ * ·) (congr (congrArg HAdd.hAdd (congr (congrArg HSub.hSub ?_) (congrArg (_ * ·) ?_))) ?_))
  · exact (rowSpread_apply _ r k).trans (congrFun (shapeCast_self x7 _) _)
  · refine (Cert.KBodyDot.plainMatmul_apply dot_S2176x300_S300x200_S2176x200_1_0_0_1_n_n rfl (some .fp32) _ _ r k).trans ?_
    refine Finset.sum_congr rfl fun j _ => ?_
    rw [mulf_apply, k1pay2_apply]
    exact congrArg ((x0 (ix2 r j) * x0 (ix2 r j)) * ·) (congrFun (shapeCast_self x1 _) (ix2 j k))
  · refine (Cert.KBodyDot.plainMatmul_apply dot_S2176x300_S300x200_S2176x200_1_0_0_1_n_n rfl none _ _ r k).trans ?_
    refine Finset.sum_congr rfl fun j _ => ?_
    rw [truncf_apply, k1pay3_apply]
    exact congrArg (x0 (ix2 r j) * ·) (congrFun (shapeCast_self x2 _) (ix2 j k))
  · exact (rowSpread_apply _ r k).trans (congrFun (shapeCast_self x4 _) _)

/-- The second kernel's unmasked logit is the shared formula. -/
theorem k1logit_eq (x0 : Vec Ideal S2176x300 .f32) (x1 x2 x3 : Vec Ideal S300x200 .f32) (x4 x5 x6 x7 : Vec Ideal S1x200 .f32)
    (r : Fin 2176) (k : Fin 200) :
    k1_pay4 x0 x1 x2 x4 x7 (ix2 r k) + k1_pay5 x0 x3 x5 (ix2 r k) * k1_pay6 x6 (ix2 r k) = logitAt x0 x1 x2 x3 x4 x5 x6 x7 r k := by
  unfold logitAt
  rw [k1pay4_apply, k1pay5_apply, k1pay6_apply]

theorem expSub_apply (a b : FVec Ideal S2176x200 .f32) (i : S2176x200.Idx) : exp (subf a b) i = Ideal.exp (a i - b i) := rfl

/-- THE STORED VALUE at `(b, r)`: the samples' row `b` against exp (masked logit of row `r` - log-normaliser), over the topics. -/
theorem mixPay_apply (i : grid1.Coords) (x0 : Vec Ideal S2176x300 .f32) (x1 : Vec Ideal S300x200 .f32) (x2 : Vec Ideal S300x200 .f32) (x3 : Vec Ideal S300x200 .f32) (x4 : Vec Ideal S1x200 .f32) (x5 : Vec Ideal S1x200 .f32) (x6 : Vec Ideal S1x200 .f32) (x7 : Vec Ideal S1x200 .f32) (x8 : Vec Ideal S1x200 .f32) (x9 : Vec Ideal S256x200 .f32) (b : Fin 256) (r : Fin 2176) :
    mixPay i x0 x1 x2 x3 x4 x5 x6 x7 x8 x9 (ix2 b r)
      = ∑ k : Fin 200, x9 (ix2 b k) * Ideal.exp (Scalar.select (inVocabBit (tileStart1 i) r) (logitAt x0 x1 x2 x3 x4 x5 x6 x7 r k) (⊥ : EReal) - x8 (ix2 (0 : Fin 1) k)) := by
  unfold mixPay
  simp only [View.ld_unit_zero (S := S2176x300) hz2', View.ld_unit_zero (S := S300x200) hz2', View.ld_unit_zero (S := S1x200) hz2', View.ld_unit_zero (S := S256x200) hz2']
  unfold k1_pay1
  refine (Cert.LanesDot.lanesMatmul_apply dot_S256x200_S2176x200_S256x2176_1_1_0_0_n_n_wf dot_S256x200_S2176x200_S256x2176_1_1_0_0_n_n rfl none _ _ b r).trans ?_
  refine Finset.sum_congr rfl fun k _ => ?_
  rw [truncf_apply, truncf_apply]
  refine congrArg (x9 (ix2 b k) * ·) ?_
  rw [expSub_apply, select_apply, broadcast_apply, negBig_eq]
  refine congrArg Ideal.exp (congr (congrArg HSub.hSub ((congr (congrArg (fun bit => Scalar.select bit) ?_) ?_ |> fun h => congrFun h _))) ?_)
  · show Scalar.cmpi .slt (Scalar.addi (tileStart1 i) (iota .tc S2176x200 32 [0] iota_S2176x200_d0_w32 (ix2 r k))) 100000#32 = _
    rw [iota_single_apply]
  · rw [addf_apply, mulf_apply]; exact k1logit_eq x0 x1 x2 x3 x4 x5 x6 x7 r k
  · exact (rowSpread_apply _ r k).trans (congrFun (shapeCast_self x8 _) _)

end Cert.KernelIdeal.Hand
end
-- ==== Proof.LibOnlineLse.lean ====
/-
  A running log-sum-exp on the extended reals, kept as a pair (M, S) of a reference level and a scaled sum.

  The entries are extended reals that are real numbers or -∞ (never +∞); the weight of an entry `x` is `exp x`, with
  `exp (-∞) = 0`, so an entry at -∞ is an absent entry. A pair (M, S) with `S ≥ 0` stands for the total weight
  `S · exp M`. Moving the pair to ANY finite level `M'` while absorbing a block of entries,

      S' = exp (M - M') · S + Σ i, exp (x i - M'),

  adds exactly the block's weight: `S' · exp M' = S · exp M + Σ i, exp (x i)`. Nothing asks `M'` to be the maximum
  of anything; it only has to be finite. The empty pair is (-∞, 0), of weight 0. Two pairs are merged the same way.
  From a pair of positive finite weight `Z`, `L = M + log S` is `log Z`, and `exp (x - L) · Z = exp x`: the
  entry's share of the total. The two-pass form (subtract a finite level `m`, exponentiate, divide by the sum)
  satisfies the same equation, and a share is determined by it, also when all entries of one family are those of
  another moved by a common finite amount.
-/
import Idealize.ShloMosaic.PureOps.Ideal

noncomputable section

namespace Cert.Lib.OnlineLse

open Idealize.ShloMosaic

/-- The exponential on the extended reals is nowhere negative. -/
theorem exp_nonneg (x : EReal) : 0 ≤ Ideal.exp x := by
  induction x using EReal.rec with
  | bot => simp
  | top => simp
  | coe r => rw [Ideal.exp_coe]; exact_mod_cast (Real.exp_pos r).le

/-- `exp (x - M) · exp M = exp x` for a finite level `M` and an entry that is not +∞ (at -∞ both sides are 0). -/
theorem exp_sub_mul_exp (x : EReal) (hx : x ≠ ⊤) (M : ℝ) :
    Ideal.exp (x - (M : EReal)) * Ideal.exp (M : EReal) = Ideal.exp x := by
  induction x using EReal.rec with
  | bot => rw [EReal.bot_sub, Ideal.exp_bot, zero_mul]
  | top => exact absurd rfl hx
  | coe r =>
    rw [← EReal.coe_sub, Ideal.exp_coe, Ideal.exp_coe, Ideal.exp_coe, ← EReal.coe_mul, ← Real.exp_add]
    congr 2; ring

/-- A block's sum of `exp (x i - M')`, scaled back by `exp M'`, is the block's weight. -/
theorem block_weight {ι : Type} (s : Finset ι) (x : ι → EReal) (hx : ∀ i ∈ s, x i ≠ ⊤) (M' : ℝ) :
    (∑ i ∈ s, Ideal.exp (x i - (M' : EReal))) * Ideal.exp (M' : EReal) = ∑ i ∈ s, Ideal.exp (x i) := by
  classical
  induction s using Finset.induction_on with
  | empty => simp
  | insert a s ha ih =>
    rw [Finset.sum_insert ha, Finset.sum_insert ha,
      EReal.right_distrib_of_nonneg (exp_nonneg _) (Finset.sum_nonneg fun i _ => exp_nonneg _),
      exp_sub_mul_exp _ (hx a (Finset.mem_insert_self a s)) M',
      ih fun i hi => hx i (Finset.mem_insert_of_mem hi)]

/-- A block's sum of exponentials is nowhere negative. -/
theorem block_nonneg {ι : Type} (s : Finset ι) (y : ι → EReal) : 0 ≤ ∑ i ∈ s, Ideal.exp (y i) :=
  Finset.sum_nonneg fun i _ => exp_nonneg _

/-- Moving a pair (M, S) to a finite level `M'` keeps its weight: `(exp (M - M') · S) · exp M' = S · exp M`. -/
theorem carry_weight (M S : EReal) (hM : M ≠ ⊤) (M' : ℝ) :
    (Ideal.exp (M - (M' : EReal)) * S) * Ideal.exp (M' : EReal) = S * Ideal.exp M := by
  rw [mul_comm (Ideal.exp (M - (M' : EReal))) S, mul_assoc, exp_sub_mul_exp M hM M']

/-- ONE STEP of the running pair: from (M, S) of weight `Z`, the pair
    (M', exp (M - M') · S + Σ i, exp (x i - M')) has weight `Z + Σ i, exp (x i)`, and its sum is again nowhere negative. -/
theorem step {ι : Type} (s : Finset ι) (x : ι → EReal) (hx : ∀ i ∈ s, x i ≠ ⊤)
    (M S Z : EReal) (hM : M ≠ ⊤) (hS : 0 ≤ S) (hZ : S * Ideal.exp M = Z) (M' : ℝ) :
    (Ideal.exp (M - (M' : EReal)) * S + ∑ i ∈ s, Ideal.exp (x i - (M' : EReal))) * Ideal.exp (M' : EReal)
        = Z + ∑ i ∈ s, Ideal.exp (x i)
      ∧ 0 ≤ Ideal.exp (M - (M' : EReal)) * S + ∑ i ∈ s, Ideal.exp (x i - (M' : EReal)) := by
  have h1 : 0 ≤ Ideal.exp (M - (M' : EReal)) * S := mul_nonneg (exp_nonneg _) hS
  have h2 : 0 ≤ ∑ i ∈ s, Ideal.exp (x i - (M' : EReal)) := block_nonneg s _
  refine ⟨?_, add_nonneg h1 h2⟩
  rw [EReal.right_distrib_of_nonneg h1 h2, carry_weight M S hM M', block_weight s x hx M', hZ]

/-- The empty pair (-∞, 0) has weight 0. -/
theorem empty_weight : (0 : EReal) * Ideal.exp ⊥ = 0 := by simp

/-- MERGING two pairs at a finite level `M'`: the weights add. -/
theorem merge (M₀ S₀ Z₀ M₁ S₁ Z₁ : EReal) (h₀ : M₀ ≠ ⊤) (h₁ : M₁ ≠ ⊤) (hS₀ : 0 ≤ S₀) (hS₁ : 0 ≤ S₁)
    (hZ₀ : S₀ * Ideal.exp M₀ = Z₀) (hZ₁ : S₁ * Ideal.exp M₁ = Z₁) (M' : ℝ) :
    (Ideal.exp (M₀ - (M' : EReal)) * S₀ + Ideal.exp (M₁ - (M' : EReal)) * S₁) * Ideal.exp (M' : EReal) = Z₀ + Z₁ := by
  rw [EReal.right_distrib_of_nonneg (mul_nonneg (exp_nonneg _) hS₀) (mul_nonneg (exp_nonneg _) hS₁),
    carry_weight M₀ S₀ h₀ M', carry_weight M₁ S₁ h₁ M', hZ₀, hZ₁]

/-- A sum `S` whose pair at a finite level `M` has a positive real weight `z` is itself a positive real. -/
theorem sum_pos_real (S : EReal) (M z : ℝ) (hz : 0 < z) (h : S * Ideal.exp (M : EReal) = (z : EReal)) :
    S = ((z * Real.exp (-M) : ℝ) : EReal) ∧ 0 < z * Real.exp (-M) := by
  refine ⟨?_, mul_pos hz (Real.exp_pos _)⟩
  rw [Ideal.exp_coe] at h
  induction S using EReal.rec with
  | bot =>
    rw [EReal.bot_mul_of_pos (by exact_mod_cast Real.exp_pos M)] at h
    exact absurd h (EReal.coe_ne_bot z).symm
  | top =>
    rw [EReal.top_mul_of_pos (by exact_mod_cast Real.exp_pos M)] at h
    exact absurd h (EReal.coe_ne_top z).symm
  | coe r =>
    rw [← EReal.coe_mul] at h
    have h' : r * Real.exp M = z := by exact_mod_cast h
    congr 1
    rw [← h', mul_assoc, ← Real.exp_add, add_neg_cancel, Real.exp_zero, mul_one]

/-- THE SHARE from a pair: with `L = M + log S` for a pair of positive real weight `z`,
    `exp (x - L) · z = exp x` at every entry that is not +∞. -/
theorem share_of_pair (S : EReal) (M z : ℝ) (hz : 0 < z) (h : S * Ideal.exp (M : EReal) = (z : EReal))
    (x : EReal) (hx : x ≠ ⊤) :
    Ideal.exp (x - ((M : EReal) + Ideal.log S)) * (z : EReal) = Ideal.exp x := by
  obtain ⟨hS, hpos⟩ := sum_pos_real S M z hz h
  have hL : (M : EReal) + Ideal.log S = ((M + Real.log (z * Real.exp (-M)) : ℝ) : EReal) := by
    rw [hS, Ideal.log_coe, if_neg (not_le.mpr hpos), EReal.coe_add]
  have hz' : (z : EReal) = Ideal.exp ((M + Real.log (z * Real.exp (-M)) : ℝ) : EReal) := by
    rw [Ideal.exp_coe, Real.exp_add, Real.exp_log hpos, mul_comm z, ← mul_assoc, ← Real.exp_add, add_neg_cancel,
      Real.exp_zero, one_mul]
  rw [hL, hz']
  exact exp_sub_mul_exp x hx _

/-- THE SHARE the two-pass way: subtract a finite level `m`, exponentiate, divide by the sum of those; if the
    family's weight is the positive real `z` then `(exp (x - m) / Σ) · z = exp x`. -/
theorem share_two_pass {ι : Type} (s : Finset ι) (y : ι → EReal) (hy : ∀ i ∈ s, y i ≠ ⊤) (m z : ℝ) (hz : 0 < z)
    (hZ : ∑ i ∈ s, Ideal.exp (y i) = (z : EReal)) (x : EReal) (hx : x ≠ ⊤) :
    Ideal.div (Ideal.exp (x - (m : EReal))) (∑ i ∈ s, Ideal.exp (y i - (m : EReal))) * (z : EReal) = Ideal.exp x := by
  have hw := block_weight s y hy m
  rw [hZ] at hw
  obtain ⟨hS, hpos⟩ := sum_pos_real _ m z hz hw
  rw [hS, Ideal.div_coe hpos.ne']
  have hx' := exp_sub_mul_exp x hx m
  induction x using EReal.rec with
  | bot => rw [EReal.bot_sub, Ideal.exp_bot, zero_mul, zero_mul]
  | top => exact absurd rfl hx
  | coe r =>
    rw [← EReal.coe_sub, Ideal.exp_coe, Ideal.exp_coe, ← EReal.coe_mul, ← EReal.coe_mul]
    congr 1
    rw [one_div, mul_inv, ← Real.exp_neg, neg_neg, Real.exp_sub]
    field_simp

/-- A share is determined by its equation: `p · z = e` with `z` a nonzero real fixes `p`. -/
theorem share_unique (p q e : EReal) (z : ℝ) (hz : z ≠ 0) (hp : p * (z : EReal) = e) (hq : q * (z : EReal) = e) :
    p = q := by
  have key : ∀ r : EReal, r = (r * (z : EReal)) * ((z⁻¹ : ℝ) : EReal) := fun r => by
    rw [mul_assoc, ← EReal.coe_mul, mul_inv_cancel₀ hz, EReal.coe_one, mul_one]
  rw [key p, key q, hp, hq]

end Cert.Lib.OnlineLse

end
-- ==== Proof.ValReal.lean ====
/-
  Extended reals that are real numbers, and the one arithmetic fact that joins the two programs' logits.

  Every quantity either program computes before its exponentials is a real number when the inputs are finite and the
  diagonal covariance is positive; this module has the closure lemmas that say so (sums, differences, products,
  quotients by a nonzero real, finite sums, exponentials, logarithms of positive reals, maxima), the float literals both
  programs spell as the reals their patterns denote, and the identity: for real `A B C` (the three inner products of a
  word with a topic's tables), `s u` (the topic's two table sums), `ℓ` (its log-determinant) and a nonzero
  capacitance `κ`, the kernel's

      (K₁ - ½ ℓ) - ½ ((A - 2 B) + s) + ((C - u) (C - u)) (½ / κ)

  is the reference's `-½ ((K₂ + ℓ) + (((A - 2 B) + s) - (C - u) (C - u) / κ))` plus the constant `K₁ + ½ K₂`, whatever the
  two constants are — the same shift for every word and every topic.
-/
import Idealize.ShloMosaic.PureOps.Ideal

noncomputable section

namespace Cert.Val

open Idealize.ShloMosaic

/-- An extended real that is a real number. -/
def IsReal (x : EReal) : Prop := ∃ r : ℝ, x = (r : EReal)

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩
theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a
theorem max {x y : EReal} (hx : IsReal x) (hy : IsReal y) : IsReal (max x y) := by
  rcases max_choice x y with h | h <;> rw [h] <;> assumption
theorem sum {ι : Type} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))
theorem exp {x : EReal} (hx : IsReal x) : IsReal (Ideal.exp x) := by
  obtain ⟨a, rfl⟩ := hx; exact ⟨Real.exp a, rfl⟩
theorem exp_pos {x : EReal} (hx : IsReal x) : 0 < Ideal.exp x := by
  obtain ⟨a, rfl⟩ := hx; rw [Ideal.exp_coe]; exact_mod_cast Real.exp_pos a
theorem log {x : EReal} (hx : IsReal x) (hpos : 0 < x) : IsReal (Ideal.log x) := by
  obtain ⟨a, rfl⟩ := hx
  have ha : 0 < a := by exact_mod_cast hpos
  exact ⟨Real.log a, by rw [Ideal.log_coe, if_neg (not_le.mpr ha)]⟩
theorem div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; exact EReal.coe_zero)
  exact ⟨a * (1 / b), by rw [Ideal.div_coe hb, ← EReal.coe_mul]⟩

end IsReal

/-! ## The float literals the two programs spell -/

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- The kernel's host-folded constant, -275.6815490722656. -/
theorem ofBits_K1 : Ideal.ofBits .f32 0xC389D73D#32 = ((-(9033533 / 32768) : ℝ) : EReal) := by
  simp [Ideal.ofBits, Ideal.ieee, -EReal.coe_mul]; norm_num
/-- The reference's 300.0 and its float of log 2π, 1.8378770351409912. -/
theorem ofBits_300 : Ideal.ofBits .f32 0x43960000#32 = ((300 : ℝ) : EReal) := by
  simp [Ideal.ofBits, Ideal.ieee, -EReal.coe_mul]; norm_num
theorem ofBits_log2pi : Ideal.ofBits .f32 0x3FEB3F8E#32 = ((7708615 / 4194304 : ℝ) : EReal) := by
  simp [Ideal.ofBits, Ideal.ieee, -EReal.coe_mul]; norm_num

/-! ## The two logit formulas differ by a constant -/

/-- The kernel's logit from the three inner products and the topic's tables. -/
def kLogit (K₁ A B C s u ℓ κ : EReal) : EReal :=
  ((K₁ - ((1 / 2 : ℝ) : EReal) * ℓ) - ((1 / 2 : ℝ) : EReal) * ((A - ((2 : ℝ) : EReal) * B) + s))
    + ((C - u) * (C - u)) * Ideal.div ((1 / 2 : ℝ) : EReal) κ

/-- The reference's. -/
def rLogit (K₂ A B C s u ℓ κ : EReal) : EReal :=
  ((-(1 / 2) : ℝ) : EReal) * ((K₂ + ℓ) + (((A - ((2 : ℝ) : EReal) * B) + s) - Ideal.div ((C - u) * (C - u)) κ))

theorem kLogit_eq_rLogit_add (K₁ K₂ A B C s u ℓ κ : ℝ) (hκ : κ ≠ 0) :
    kLogit K₁ A B C s u ℓ κ = rLogit K₂ A B C s u ℓ κ + ((K₁ + (1 / 2) * K₂ : ℝ) : EReal) := by
  unfold kLogit rLogit
  simp only [Ideal.div_coe hκ, ← EReal.coe_mul, ← EReal.coe_add, ← EReal.coe_sub]
  congr 1
  field_simp
  ring

theorem kLogit_isReal {K₁ A B C s u ℓ κ : EReal} (hK : IsReal K₁) (hA : IsReal A) (hB : IsReal B) (hC : IsReal C)
    (hs : IsReal s) (hu : IsReal u) (hℓ : IsReal ℓ) (hκ : IsReal κ) (hκ0 : κ ≠ 0) : IsReal (kLogit K₁ A B C s u ℓ κ) :=
  (((hK.sub ((IsReal.coe _).mul hℓ)).sub ((IsReal.coe _).mul ((hA.sub ((IsReal.coe _).mul hB)).add hs))).add
    (((hC.sub hu).mul (hC.sub hu)).mul ((IsReal.coe _).div hκ hκ0)))

end Cert.Val

end
-- ==== Proof.ValFold.lean ====
/-
  Two small facts about the extended reals used by the running maximum: an extended real that is neither infinity is a
  real number, and the largest of finitely many entries, none +∞ and one of them real, started from -∞, is a real number.
-/
import proofs.«136091_j11613591568915_2_alg».proof.Proof.ValReal
import Mathlib.Data.Finset.Fold

noncomputable section

namespace Cert.Val

open Idealize.ShloMosaic

theorem isReal_of_ne {x : EReal} (h1 : x ≠ ⊥) (h2 : x ≠ ⊤) : IsReal x := ⟨x.toReal, (EReal.coe_toReal h2 h1).symm⟩

/-- The word the maximum reductions start from denotes -∞. -/
theorem negInf_word : Ideal.ofBits .f32 0xFF800000#32 = (⊥ : EReal) := by simp [Ideal.ofBits, Ideal.ieee]

theorem fold_max_isReal {n : ℕ} (f : Fin n → EReal) (htop : ∀ r, f r ≠ ⊤) (hreal : ∃ r, IsReal (f r)) :
    IsReal ((Finset.univ : Finset (Fin n)).fold max (⊥ : EReal) f) := by
  obtain ⟨r0, hr0⟩ := hreal
  refine isReal_of_ne ?_ ?_
  · have h : f r0 ≤ (Finset.univ : Finset (Fin n)).fold max ⊥ f :=
      (Finset.le_fold_max _).mpr (Or.inr ⟨r0, Finset.mem_univ _, le_rfl⟩)
    intro hb; rw [hb] at h; exact hr0.ne_bot (le_bot_iff.mp h)
  · have h : (Finset.univ : Finset (Fin n)).fold max ⊥ f < ⊤ :=
      (Finset.fold_max_lt _).mpr ⟨bot_lt_top, fun x _ => lt_top_iff_ne_top.mpr (htop x)⟩
    exact h.ne

/-- The larger of an entry that is not +∞ and a real number is a real number. -/
theorem max_isReal_right {a b : EReal} (ha : a ≠ ⊤) (hb : IsReal b) : IsReal (max a b) := by
  rcases le_total a b with h | h
  · rw [max_eq_right h]; exact hb
  · rw [max_eq_left h]
    exact isReal_of_ne (fun hbot => hb.ne_bot (le_bot_iff.mp (hbot ▸ h))) ha

end Cert.Val

end
-- ==== Proof.IStatsInv.lean ====
/-
  The first kernel's running pair keeps its weight. For a topic `k`, after tile `n` the level row's entry is a real
  number, the sum row's entry is not negative, and sum · exp level is the total of exp (masked logit) over the rows of the
  tiles swept so far in tile `n`'s sweep — by induction on the tile, one application of the general step per tile:
  a sweep's first tile starts from the empty pair (-∞, 0), every other tile from what the tile before left.
  Assumed of the masked logits, and discharged where the tables are known to be real: no entry is +∞, and every column
  of every tile has a real entry.
-/
import proofs.«136091_j11613591568915_2_alg».proof.Proof.IStatsIdx
import proofs.«136091_j11613591568915_2_alg».proof.Proof.LibOnlineLse
import proofs.«136091_j11613591568915_2_alg».proof.Proof.ValFold
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Val

variable (V : (c : Dev nD) → (b : Ref sig .tc) → Buf (Elt Ideal) ((c : Thread nD τ).loc b))

/-- The masked logits of tile `t`. -/
def mlog (c : Dev nD) (t : Fin cfg0.N) : FVec Ideal S2176x200 .f32 :=
  k0_pay13 (tileStart0 (grid0.coords t)) (k0_pay6 (blk0 V c 5 t)) (k0_pay7 (blk0 V c 6 t)) (k0_pay8 (blk0 V c 7 t)) (k0_pay10 (blk0 V c 0 t) (blk0 V c 3 t)) (k0_pay11 (blk0 V c 0 t) (blk0 V c 1 t) (blk0 V c 2 t)) (k0_pay12 (blk0 V c 4 t))

/-- The tile's weight at topic `k`. -/
def tw (c : Dev nD) (t : Fin cfg0.N) (k : Fin 200) : EReal := ∑ r : Fin 2176, Ideal.exp (mlog V c t (ix2 r k))

/-- The weight swept so far in tile `n`'s sweep. -/
def acc (c : Dev nD) (k : Fin 200) : (n : ℕ) → n < cfg0.N → EReal
  | 0, hn => tw V c ⟨0, hn⟩ k
  | n + 1, hn => if (n + 1) % 23 = 0 then tw V c ⟨n + 1, hn⟩ k else acc c k n (Nat.lt_of_succ_lt hn) + tw V c ⟨n + 1, hn⟩ k

theorem fresh_level (k : Fin 200) : (k0_pay3 (F := Ideal)) (ix2 (0 : Fin 1) k) = (⊥ : EReal) := by
  unfold k0_pay3
  refine (congrFun (shapeCast_self _ _) _).trans ?_
  rw [broadcast_apply]; exact negBig_eq
theorem fresh_sum (k : Fin 200) : (k0_pay4 (F := Ideal)) (ix2 (0 : Fin 1) k) = (0 : EReal) := by
  unfold k0_pay4
  refine (congrFun (shapeCast_self _ _) _).trans ?_
  rw [broadcast_apply]; exact Ideal.ofBits_zero_f32

/-- ONE TILE: from a pair of weight `Z` at topic `k`, the pair after tile `t` has weight `Z` plus the tile's. -/
theorem tile_step (c : Dev nD) (t : Fin cfg0.N) (k : Fin 200)
    (hlog : ∀ r, mlog V c t (ix2 r k) ≠ ⊤) (hreal : ∃ r, IsReal (mlog V c t (ix2 r k)))
    (lv sm : Vec Ideal S1x200 .f32) (Z : EReal) (hM : lv (ix2 (0 : Fin 1) k) ≠ ⊤) (hS : 0 ≤ sm (ix2 (0 : Fin 1) k))
    (hZ : sm (ix2 (0 : Fin 1) k) * Ideal.exp (lv (ix2 (0 : Fin 1) k)) = Z) :
    IsReal (newLevel (grid0.coords t) (blk0 V c 0 t) (blk0 V c 1 t) (blk0 V c 2 t) (blk0 V c 3 t) (blk0 V c 4 t) (blk0 V c 5 t) (blk0 V c 6 t) (blk0 V c 7 t) lv (ix2 (0 : Fin 1) k))
      ∧ 0 ≤ newSum (grid0.coords t) (blk0 V c 0 t) (blk0 V c 1 t) (blk0 V c 2 t) (blk0 V c 3 t) (blk0 V c 4 t) (blk0 V c 5 t) (blk0 V c 6 t) (blk0 V c 7 t) lv sm (ix2 (0 : Fin 1) k)
      ∧ newSum (grid0.coords t) (blk0 V c 0 t) (blk0 V c 1 t) (blk0 V c 2 t) (blk0 V c 3 t) (blk0 V c 4 t) (blk0 V c 5 t) (blk0 V c 6 t) (blk0 V c 7 t) lv sm (ix2 (0 : Fin 1) k)
          * Ideal.exp (newLevel (grid0.coords t) (blk0 V c 0 t) (blk0 V c 1 t) (blk0 V c 2 t) (blk0 V c 3 t) (blk0 V c 4 t) (blk0 V c 5 t) (blk0 V c 6 t) (blk0 V c 7 t) lv (ix2 (0 : Fin 1) k)) = Z + tw V c t k := by
  have hNL : newLevel (grid0.coords t) (blk0 V c 0 t) (blk0 V c 1 t) (blk0 V c 2 t) (blk0 V c 3 t) (blk0 V c 4 t) (blk0 V c 5 t) (blk0 V c 6 t) (blk0 V c 7 t) lv (ix2 (0 : Fin 1) k)
      = max (lv (ix2 (0 : Fin 1) k)) ((Finset.univ : Finset (Fin 2176)).fold max (⊥ : EReal) (fun r => mlog V c t (ix2 r k))) := by
    unfold newLevel; rw [pay16_apply, pay14_apply, negInf_word]; rfl
  have hNLr : IsReal (newLevel (grid0.coords t) (blk0 V c 0 t) (blk0 V c 1 t) (blk0 V c 2 t) (blk0 V c 3 t) (blk0 V c 4 t) (blk0 V c 5 t) (blk0 V c 6 t) (blk0 V c 7 t) lv (ix2 (0 : Fin 1) k)) := by
    rw [hNL]; exact max_isReal_right hM (fold_max_isReal _ hlog hreal)
  obtain ⟨M', hM'⟩ := hNLr
  have hNS : newSum (grid0.coords t) (blk0 V c 0 t) (blk0 V c 1 t) (blk0 V c 2 t) (blk0 V c 3 t) (blk0 V c 4 t) (blk0 V c 5 t) (blk0 V c 6 t) (blk0 V c 7 t) lv sm (ix2 (0 : Fin 1) k)
      = Ideal.exp (lv (ix2 (0 : Fin 1) k) - (M' : EReal)) * sm (ix2 (0 : Fin 1) k)
        + ∑ r : Fin 2176, Ideal.exp (mlog V c t (ix2 r k) - (M' : EReal)) := by
    unfold newSum; rw [pay15_apply, ← pay16_apply]
    have e : k0_pay16 (tileStart0 (grid0.coords t)) (k0_pay6 (blk0 V c 5 t)) (k0_pay7 (blk0 V c 6 t)) (k0_pay8 (blk0 V c 7 t)) (k0_pay10 (blk0 V c 0 t) (blk0 V c 3 t)) (k0_pay11 (blk0 V c 0 t) (blk0 V c 1 t) (blk0 V c 2 t)) (k0_pay12 (blk0 V c 4 t)) lv (ix2 (0 : Fin 1) k) = (M' : EReal) := hM'
    rw [e]; rfl
  have hstep := Cert.Lib.OnlineLse.step Finset.univ (fun r => mlog V c t (ix2 r k)) (fun r _ => hlog r)
    (lv (ix2 (0 : Fin 1) k)) (sm (ix2 (0 : Fin 1) k)) Z hM hS hZ M'
  refine ⟨⟨M', hM'⟩, ?_, ?_⟩
  · rw [hNS]; exact hstep.2
  · rw [hNS, hM']; exact hstep.1

/-- What is assumed of the masked logits: no entry is +∞, and every column of every tile has a real entry. -/
structure LogOk (c : Dev nD) : Prop where
  ne_top : ∀ (t : Fin cfg0.N) (r : Fin 2176) (k : Fin 200), mlog V c t (ix2 r k) ≠ ⊤
  some_real : ∀ (t : Fin cfg0.N) (k : Fin 200), ∃ r, IsReal (mlog V c t (ix2 r k))

theorem acc_first (c : Dev nD) (k : Fin 200) : ∀ (n : ℕ) (hn : n < cfg0.N), n % 23 = 0 → acc V c k n hn = tw V c ⟨n, hn⟩ k
  | 0, _, _ => rfl
  | n + 1, hn, h => by show (if (n + 1) % 23 = 0 then _ else _) = _; rw [if_pos h]
theorem acc_next (c : Dev nD) (k : Fin 200) (n : ℕ) (hn : n + 1 < cfg0.N) (h : ¬(n + 1) % 23 = 0) :
    acc V c k (n + 1) hn = acc V c k n (Nat.lt_of_succ_lt hn) + tw V c ⟨n + 1, hn⟩ k := by
  show (if (n + 1) % 23 = 0 then _ else _) = _; rw [if_neg h]

/-- A sweep's first tile, from the fresh rows. -/
theorem inv_first (c : Dev nD) (h : LogOk V c) (k : Fin 200) (t : Fin cfg0.N) (h0 : t.val % 23 = 0) (h1 : ¬t.val % 23 = 22) :
    IsReal ((stateAt0 V c t.val t.isLt).2.1 (ix2 (0 : Fin 1) k)) ∧ 0 ≤ (stateAt0 V c t.val t.isLt).2.2 (ix2 (0 : Fin 1) k)
      ∧ (stateAt0 V c t.val t.isLt).2.2 (ix2 (0 : Fin 1) k) * Ideal.exp ((stateAt0 V c t.val t.isLt).2.1 (ix2 (0 : Fin 1) k))
          = acc V c k t.val t.isLt := by
  rw [stateAt0_A V c t h0 h1, rowsA_eq, acc_first V c k t.val t.isLt h0]
  have hs := tile_step V c t k (fun r => h.ne_top t r k) (h.some_real t k) (k0_pay3 (F := Ideal)) (k0_pay4 (F := Ideal)) 0
    (by rw [fresh_level]; exact bot_ne_top) (by rw [fresh_sum]) (by rw [fresh_sum, zero_mul])
  rw [zero_add] at hs
  exact hs

/-- Any later tile of a sweep, from what the tile before left. -/
theorem inv_next (c : Dev nD) (h : LogOk V c) (k : Fin 200) (n : ℕ) (hn : n + 1 < cfg0.N) (h0 : ¬(n + 1) % 23 = 0)
    (ih : IsReal ((stateAt0 V c n (Nat.lt_of_succ_lt hn)).2.1 (ix2 (0 : Fin 1) k)) ∧ 0 ≤ (stateAt0 V c n (Nat.lt_of_succ_lt hn)).2.2 (ix2 (0 : Fin 1) k)
      ∧ (stateAt0 V c n (Nat.lt_of_succ_lt hn)).2.2 (ix2 (0 : Fin 1) k) * Ideal.exp ((stateAt0 V c n (Nat.lt_of_succ_lt hn)).2.1 (ix2 (0 : Fin 1) k))
          = acc V c k n (Nat.lt_of_succ_lt hn)) :
    IsReal ((stateAt0 V c (n + 1) hn).2.1 (ix2 (0 : Fin 1) k)) ∧ 0 ≤ (stateAt0 V c (n + 1) hn).2.2 (ix2 (0 : Fin 1) k)
      ∧ (stateAt0 V c (n + 1) hn).2.2 (ix2 (0 : Fin 1) k) * Ideal.exp ((stateAt0 V c (n + 1) hn).2.1 (ix2 (0 : Fin 1) k))
          = acc V c k (n + 1) hn := by
  obtain ⟨ihM, ihS, ihZ⟩ := ih
  have hs := tile_step V c ⟨n + 1, hn⟩ k (fun r => h.ne_top _ r k) (h.some_real _ k)
    (stateAt0 V c n (Nat.lt_of_succ_lt hn)).2.1 (stateAt0 V c n (Nat.lt_of_succ_lt hn)).2.2 _ ihM.ne_top ihS ihZ
  rw [acc_next V c k n hn h0]
  by_cases h1 : (n + 1) % 23 = 22
  · have e : (stateAt0 V c (n + 1) hn).2 = _ := congrArg Prod.snd (stateAt0_C V c ⟨n + 1, hn⟩ h0 h1)
    rw [e, rowsC_eq]; exact hs
  · have e : (stateAt0 V c (n + 1) hn).2 = _ := stateAt0_B V c ⟨n + 1, hn⟩ h0 h1
    rw [e, rowsB_eq]; exact hs

/-- THE INVARIANT at every tile. -/
theorem inv (c : Dev nD) (h : LogOk V c) (k : Fin 200) : ∀ (n : ℕ) (hn : n < cfg0.N),
    IsReal ((stateAt0 V c n hn).2.1 (ix2 (0 : Fin 1) k)) ∧ 0 ≤ (stateAt0 V c n hn).2.2 (ix2 (0 : Fin 1) k)
      ∧ (stateAt0 V c n hn).2.2 (ix2 (0 : Fin 1) k) * Ideal.exp ((stateAt0 V c n hn).2.1 (ix2 (0 : Fin 1) k)) = acc V c k n hn
  | 0, hn => inv_first V c h k ⟨0, hn⟩ (Nat.zero_mod 23) (by show ¬(0 % 23 = 22); decide)
  | n + 1, hn => by
    by_cases h0 : (n + 1) % 23 = 0
    · exact inv_first V c h k ⟨n + 1, hn⟩ h0 (by show ¬(n + 1) % 23 = 22; omega)
    · exact inv_next V c h k n hn h0 (inv c h k n (Nat.lt_of_succ_lt hn))

end Cert.KernelIdeal.Hand
end
-- ==== Proof.IEntry.lean ====
/-
  Both kernels' logits as one function of the host arrays. For a padded word `v < 100096` and a topic `k`, the logit is
  a function of row `v` of the padded word vectors, column `k` of the three tables and entry `k` of the four per-topic
  rows; a word is in the vocabulary when `v < 100000`, which is what the body's signed comparison of `2176 t + r` with
  100000 decides (no wrap: the operands are far below 2³¹). The masked logit is the logit for a word of the vocabulary and
  -∞ for a padded row. Tile `t`'s row `r` is the word `2176 t + r` in both kernels.
-/
import proofs.«136091_j11613591568915_2_alg».proof.Proof.IGlue2
import proofs.«136091_j11613591568915_2_alg».proof.Proof.IMixIdx
import proofs.«136091_j11613591568915_2_alg».proof.Proof.IStatsInv
import Idealize.ShloMosaic.Lib.Affine
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Idealize.ShloMosaic.StableHlo Cert.Val

/-! ## The mask -/

theorem coords1_val : ∀ t : Fin cfg1.N, ((grid1.coords t) 0).val = t.val :=
  (by decide +kernel : ∀ t : Fin grid1.N, ((grid1.coords t) 0).val = t.val)
theorem coords0_val : ∀ t : Fin cfg0.N, ((grid0.coords t) 0).val = t.val / 23 ∧ ((grid0.coords t) 1).val = t.val % 23 :=
  (by decide +kernel : ∀ t : Fin grid0.N, ((grid0.coords t) 0).val = t.val / 23 ∧ ((grid0.coords t) 1).val = t.val % 23)

theorem tileStart1_isInt (t : Fin cfg1.N) : Affine.IsInt (tileStart1 (grid1.coords t)) ((2176 * t.val : ℕ) : ℤ) := by
  have hN : t.val < 46 := lt_of_lt_of_eq t.isLt (show cfg1.N = 46 from N_1)
  unfold tileStart1
  refine Affine.muli (Affine.ofNat _ ⟨rfl, by rw [coords1_val]; omega⟩) (Affine.ofNat 2176 ⟨rfl, by norm_num⟩) ⟨?_, ?_, ?_⟩
  · rw [coords1_val]; push_cast; ring
  · push_cast; omega
  · push_cast; omega

theorem tileStart0_isInt (t : Fin cfg0.N) : Affine.IsInt (tileStart0 (grid0.coords t)) ((2176 * t.val : ℕ) : ℤ) := by
  have hN : t.val < 46 := lt_of_lt_of_eq t.isLt (show cfg0.N = 46 from N_0)
  obtain ⟨e0, e1⟩ := coords0_val t
  unfold tileStart0
  have h1 : Affine.IsInt (Scalar.addi (Scalar.muli (BitVec.ofNat 32 ((grid0.coords t) 0).val) 23#32) (BitVec.ofNat 32 ((grid0.coords t) 1).val)) ((t.val : ℕ) : ℤ) := by
    refine Affine.addi (Affine.muli (Affine.ofNat _ ⟨rfl, by rw [e0]; omega⟩) (Affine.ofNat 23 ⟨rfl, by norm_num⟩) ⟨rfl, ?_, ?_⟩)
      (Affine.ofNat _ ⟨rfl, by rw [e1]; omega⟩) ⟨?_, ?_, ?_⟩
    · rw [e0]; push_cast; omega
    · rw [e0]; push_cast; omega
    · rw [e0, e1]; push_cast; omega
    · push_cast; omega
    · push_cast; omega
  refine Affine.muli h1 (Affine.ofNat 2176 ⟨rfl, by norm_num⟩) ⟨?_, ?_, ?_⟩
  · push_cast; ring
  · push_cast; omega
  · push_cast; omega

/-- The body's comparison decides "the word is in the vocabulary". -/
theorem inVocab_one (s : BitVec 32) (n : ℕ) (hs : Affine.IsInt s ((2176 * n : ℕ) : ℤ)) (hn : n < 46) (r : Fin 2176)
    (h : 2176 * n + r.val < 100000) : inVocabBit s r = 1#1 :=
  Affine.slt_holds (Affine.addi hs (Affine.ofNat r.val ⟨rfl, by have := r.isLt; omega⟩) ⟨rfl, by push_cast; omega, by push_cast; have := r.isLt; omega⟩)
    (Affine.ofNat 100000 ⟨rfl, by norm_num⟩) (by push_cast; omega)
theorem inVocab_zero (s : BitVec 32) (n : ℕ) (hs : Affine.IsInt s ((2176 * n : ℕ) : ℤ)) (hn : n < 46) (r : Fin 2176)
    (h : ¬2176 * n + r.val < 100000) : inVocabBit s r = 0#1 :=
  eq_zero_of_ne_one (Affine.slt_fails (Affine.addi hs (Affine.ofNat r.val ⟨rfl, by have := r.isLt; omega⟩) ⟨rfl, by push_cast; omega, by push_cast; have := r.isLt; omega⟩)
    (Affine.ofNat 100000 ⟨rfl, by norm_num⟩) (by push_cast; omega))

/-! ## The logit of a word for a topic -/

/-- From one row of word coordinates, one column of each table and the topic's four entries. -/
def logitRow (w T1 T2 T3 : Fin 300 → EReal) (ms mu hic c0 : EReal) : EReal :=
  (c0 - Scalar.ofBits (F := Ideal) .f32 0x3F000000#32
      * (((∑ j : Fin 300, (w j * w j) * T1 j) - Scalar.ofBits (F := Ideal) .f32 0x40000000#32 * (∑ j : Fin 300, w j * T2 j)) + ms))
    + (((∑ j : Fin 300, w j * T3 j) - mu) * ((∑ j : Fin 300, w j * T3 j) - mu)) * hic

theorem logitAt_eq_row (x0 : Vec Ideal S2176x300 .f32) (x1 x2 x3 : Vec Ideal S300x200 .f32) (x4 x5 x6 x7 : Vec Ideal S1x200 .f32)
    (r : Fin 2176) (k : Fin 200) :
    logitAt x0 x1 x2 x3 x4 x5 x6 x7 r k
      = logitRow (fun j => x0 (ix2 r j)) (fun j => x1 (ix2 j k)) (fun j => x2 (ix2 j k)) (fun j => x3 (ix2 j k))
          (x4 (ix2 (0 : Fin 1) k)) (x5 (ix2 (0 : Fin 1) k)) (x6 (ix2 (0 : Fin 1) k)) (x7 (ix2 (0 : Fin 1) k)) := rfl

variable (m : (ℓ : Loc nD τ sig) → Buf (Elt Ideal) ℓ)

/-- THE KERNEL'S LOGIT of padded word `v` for topic `k`, from the host arrays the kernels are handed. -/
def KL (c : Dev nD) (v : Fin 100096) (k : Fin 200) : EReal :=
  logitRow (fun j => W2 m c main_v31 (ix2 v j)) (fun j => W2 m c main_v24 (ix2 j k)) (fun j => W2 m c main_v25 (ix2 j k))
    (fun j => W2 m c main_v26 (ix2 j k)) (W2 m c main_v28 (ix2 (0 : Fin 1) k)) (W2 m c main_v29 (ix2 (0 : Fin 1) k))
    (W2 m c main_v27 (ix2 (0 : Fin 1) k)) (W2 m c main_v30 (ix2 (0 : Fin 1) k))

/-- THE MASKED LOGIT: -∞ past the vocabulary. -/
def ML (c : Dev nD) (v : Fin 100096) (k : Fin 200) : EReal := if v.val < 100000 then KL m c v k else ⊥

/-- The word that row `r` of tile `t` is. -/
def wordOf (n : ℕ) (hn : n < 46) (r : Fin 2176) : Fin 100096 := ⟨2176 * n + r.val, by have := r.isLt; omega⟩

/-- The first kernel's masked logits are `ML`. -/
theorem mlog_eq (c : Dev nD) (t : Fin cfg0.N) (r : Fin 2176) (k : Fin 200) :
    mlog (V2 m) c t (ix2 r k) = ML m c (wordOf t.val (lt_of_lt_of_eq t.isLt (show cfg0.N = 46 from N_0)) r) k := by
  have hN : t.val < 46 := lt_of_lt_of_eq t.isLt (show cfg0.N = 46 from N_0)
  unfold mlog
  rw [pay13_apply, rawLogit_eq, logitAt_eq_row]
  have hrow : (fun j => blk0 (V2 m) c 0 t (ix2 r j)) = fun j => W2 m c main_v31 (ix2 (wordOf t.val hN r) j) := funext fun j => blk0_0_apply (V2 m) c t r j
  have h1 : (fun j => blk0 (V2 m) c 1 t (ix2 j k)) = fun j => W2 m c main_v24 (ix2 j k) := funext fun j => blk0_1_apply (V2 m) c t j k
  have h2 : (fun j => blk0 (V2 m) c 2 t (ix2 j k)) = fun j => W2 m c main_v25 (ix2 j k) := funext fun j => blk0_2_apply (V2 m) c t j k
  have h3 : (fun j => blk0 (V2 m) c 3 t (ix2 j k)) = fun j => W2 m c main_v26 (ix2 j k) := funext fun j => blk0_3_apply (V2 m) c t j k
  rw [hrow, h1, h2, h3, blk0_4_apply, blk0_5_apply, blk0_6_apply, blk0_7_apply]
  unfold ML
  by_cases hv : (wordOf t.val hN r).val < 100000
  · rw [if_pos hv, inVocab_one _ t.val (tileStart0_isInt t) hN r hv, select_one]; rfl
  · rw [if_neg hv, inVocab_zero _ t.val (tileStart0_isInt t) hN r hv, select_zero]

end Cert.KernelIdeal.Hand
end
-- ==== Proof.LibRegroup.lean ====
/-
  A sum over `m · n` consecutive indices, grouped into `m` blocks of `n`: the sum over the blocks of the sums inside
  each block, in any commutative additive monoid.
-/
import Mathlib.Algebra.BigOperators.Fin
import Mathlib.Logic.Equiv.Fin.Basic
import Mathlib.Tactic.Ring

namespace Cert.Regroup

variable {M : Type*} [AddCommMonoid M]

/-- The sum over `Fin (m * n)` is the sum over blocks `q` and offsets `r` of the term at `n · q + r`. -/
theorem sum_blocks (m n : ℕ) (f : Fin (m * n) → M) :
    (∑ q : Fin m, ∑ r : Fin n, f ⟨n * q.val + r.val, by
        have hq := q.isLt; have hr := r.isLt
        calc n * q.val + r.val < n * q.val + n := by omega
          _ = n * (q.val + 1) := by ring
          _ ≤ n * m := Nat.mul_le_mul_left _ hq
          _ = m * n := Nat.mul_comm _ _⟩) = ∑ i : Fin (m * n), f i := by
  rw [← Equiv.sum_comp finProdFinEquiv f, Fintype.sum_prod_type]
  refine Finset.sum_congr rfl fun q _ => Finset.sum_congr rfl fun r _ => congrArg f (Fin.ext ?_)
  show n * q.val + r.val = (finProdFinEquiv (q, r)).val
  simp [finProdFinEquiv]
  ring

end Cert.Regroup
-- ==== Proof.IZ.lean ====
/-
  The kernel's total weight at a topic. Each sweep's final pair weighs the sum of its 23 tiles' weights; merged at the
  larger level, the pair the log-normaliser is read from weighs the sum over all 46 tiles, which — the tiles' rows being
  the 100096 padded words in order, the padded ones weighing exp (-∞) = 0 — is the sum of exp (logit) over the 100000
  words of the vocabulary.
-/
import proofs.«136091_j11613591568915_2_alg».proof.Proof.IEntry
import proofs.«136091_j11613591568915_2_alg».proof.Proof.LibRegroup
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Idealize.ShloMosaic.StableHlo Cert.Val

variable (m : (ℓ : Loc nD τ sig) → Buf (Elt Ideal) ℓ)

/-- A tile's weight, by tile number. -/
def twN (c : Dev nD) (k : Fin 200) (n : ℕ) : EReal := if h : n < cfg0.N then tw (V2 m) c ⟨n, h⟩ k else 0
/-- The swept weight, by tile number. -/
def accN (c : Dev nD) (k : Fin 200) (n : ℕ) : EReal := if h : n < cfg0.N then acc (V2 m) c k n h else 0

theorem N0 : cfg0.N = 46 := N_0

theorem accN_first (c : Dev nD) (k : Fin 200) (n : ℕ) (hn : n < 46) (h : n % 23 = 0) : accN m c k n = twN m c k n := by
  have hn' : n < cfg0.N := by rw [N0]; exact hn
  unfold accN twN; rw [dif_pos hn', dif_pos hn']; exact acc_first (V2 m) c k n hn' h
theorem accN_next (c : Dev nD) (k : Fin 200) (n : ℕ) (hn : n + 1 < 46) (h : ¬(n + 1) % 23 = 0) :
    accN m c k (n + 1) = accN m c k n + twN m c k (n + 1) := by
  have hn' : n + 1 < cfg0.N := by rw [N0]; exact hn
  unfold accN twN; rw [dif_pos hn', dif_pos hn', dif_pos (Nat.lt_of_succ_lt hn')]; exact acc_next (V2 m) c k n hn' h

/-- A sweep's swept weight after its first `j + 1` tiles is the sum of their weights. -/
theorem accN_sweep (c : Dev nD) (k : Fin 200) (s : ℕ) (hs : s < 2) : ∀ j : ℕ, j < 23 →
    accN m c k (23 * s + j) = ∑ i ∈ Finset.range (j + 1), twN m c k (23 * s + i)
  | 0, _ => by
    rw [Finset.sum_range_one]; exact accN_first m c k (23 * s + 0) (by omega) (by omega)
  | j + 1, hj => by
    rw [Finset.sum_range_succ, ← accN_sweep c k s hs j (by omega)]
    exact accN_next m c k (23 * s + j) (by omega) (by omega)

/-- The padded words' masked logits, by word number. -/
def MLn (c : Dev nD) (k : Fin 200) (v : ℕ) : EReal := if h : v < 100096 then ML m c ⟨v, h⟩ k else ⊥

theorem twN_eq (c : Dev nD) (k : Fin 200) (n : ℕ) (hn : n < 46) :
    twN m c k n = ∑ r : Fin 2176, Ideal.exp (MLn m c k (2176 * n + r.val)) := by
  have hn' : n < cfg0.N := by rw [N0]; exact hn
  unfold twN tw; rw [dif_pos hn']
  refine Finset.sum_congr rfl fun r _ => ?_
  rw [mlog_eq]
  unfold MLn wordOf
  rw [dif_pos (by have := r.isLt; omega)]

/-- THE TOTAL over all 46 tiles is the sum over the padded words. -/
theorem total_padded (c : Dev nD) (k : Fin 200) :
    accN m c k 22 + accN m c k 45 = ∑ v ∈ Finset.range 100096, Ideal.exp (MLn m c k v) := by
  have h0 := accN_sweep m c k 0 (by norm_num) 22 (by norm_num)
  have h1 := accN_sweep m c k 1 (by norm_num) 22 (by norm_num)
  rw [show 23 * 0 + 22 = 22 from rfl] at h0
  rw [show 23 * 1 + 22 = 45 from rfl] at h1
  rw [h0, h1]
  have e0 : ∑ i ∈ Finset.range (22 + 1), twN m c k (23 * 0 + i) = ∑ i ∈ Finset.range 23, twN m c k i :=
    Finset.sum_congr rfl fun i _ => by rw [Nat.mul_zero, Nat.zero_add]
  have e1 : ∑ i ∈ Finset.range (22 + 1), twN m c k (23 * 1 + i) = ∑ i ∈ Finset.range 23, twN m c k (23 + i) :=
    Finset.sum_congr rfl fun i _ => by rw [Nat.mul_one]
  rw [e0, e1, ← Finset.sum_range_add (fun i => twN m c k i) 23 23]
  -- 46 tiles of 2176 rows are the 100096 padded words
  have hreg := Cert.Regroup.sum_blocks 46 2176 (fun i : Fin (46 * 2176) => Ideal.exp (MLn m c k i.val))
  rw [← Fin.sum_univ_eq_sum_range (fun i => twN m c k i) (23 + 23)]
  rw [show (100096 : ℕ) = 46 * 2176 from rfl, ← Fin.sum_univ_eq_sum_range (fun v => Ideal.exp (MLn m c k v)) (46 * 2176), ← hreg]
  refine Finset.sum_congr rfl fun q _ => ?_
  exact twN_eq m c k q.val q.isLt

/-- and the sum over the vocabulary, the padded words weighing nothing. -/
theorem total_vocab (c : Dev nD) (k : Fin 200) :
    ∑ v ∈ Finset.range 100096, Ideal.exp (MLn m c k v)
      = ∑ v : Fin 100000, Ideal.exp (KL m c ⟨v.val, by have := v.isLt; omega⟩ k) := by
  rw [← Fin.sum_univ_eq_sum_range (fun v => Ideal.exp (MLn m c k v)) 100096]
  show ∑ i : Fin (100000 + 96), Ideal.exp (MLn m c k i.val) = _
  rw [Fin.sum_univ_add]
  have hz : ∑ i : Fin 96, Ideal.exp (MLn m c k (Fin.natAdd 100000 i).val) = 0 := by
    refine Finset.sum_eq_zero fun i _ => ?_
    have hv : ¬(100000 + i.val) < 100000 := by omega
    show Ideal.exp (MLn m c k (100000 + i.val)) = 0
    unfold MLn ML
    rw [dif_pos (by have := i.isLt; omega), if_neg hv, Ideal.exp_bot]
  rw [hz, add_zero]
  refine Finset.sum_congr rfl fun v _ => ?_
  show Ideal.exp (MLn m c k v.val) = _
  unfold MLn ML
  rw [dif_pos (by have := v.isLt; omega), if_pos v.isLt]

end Cert.KernelIdeal.Hand
end
-- ==== Proof.RefVal.lean ====
/-
  The reference's result buffer is its composed stages. Every stage but the last is a chain of host operations whose
  fold over the launch memory simplifies, operation by operation, to the stage's definition; the last operation, the
  concatenate of the samples with the word distribution, is peeled off the fold by hand.
-/
import proofs.«136091_j11613591568915_2_alg».proof.Proof.RefReadP
set_option maxRecDepth 65536
noncomputable section
namespace Cert.ReferenceIdeal.RefVal
open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-- The fold over a list ending in `op` is `op` applied to the fold over the rest. -/
theorem after_snoc {τ : Topo} {sig : RefSig} {Val : EltTy → Type} (l : List (HloOp τ sig Val)) (op : HloOp τ sig Val) (V : Valuation τ sig Val) :
    after (l ++ [op]) V = op.result (after l V) := by
  induction l generalizing V with
  | nil => rfl
  | cons a l ih => rw [List.cons_append, after_cons, after_cons]; exact ih _

set_option maxHeartbeats 4000000 in
/-- The word distribution's buffer is its stage. -/
theorem stage59 (m : (ℓ : Loc nD τ sig) → Buf (Elt Ideal) ℓ) (c : Dev nD) :
    after (ops (F := Ideal)) (launchContents m c) (Proc.devRef .tc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [val_main_cst, val_main_v0, val_main_v1, val_main_v2, val_main_v3, val_main_cst_0, val_main_v4, val_main_cst_1, val_main_v5, val_main_v6, val_main_v7, val_main_cst_2, val_main_v8, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_v29, val_main_cst_5, val_main_v30, val_main_v31, val_main_v32, val_main_v33, val_main_v34, val_main_v35, val_main_v36, val_main_v37, val_main_v38, val_main_cst_6, val_main_cst_7, val_main_v39, val_main_v40, val_main_v41, val_main_v42, val_main_v43, val_main_v44, val_main_cst_8, val_main_v45, val_main_v46, val_main_v47, val_main_cst_9, val_main_v48, val_main_cst_10, val_main_v49, val_main_v50, val_main_v51, val_main_v52, val_main_v53, val_main_v54, val_main_cst_11, val_main_v55, val_main_v56, val_main_v57, val_main_v58, val_main_v59, val_main_v60]; after_results_simp

set_option maxHeartbeats 4000000 in
theorem stage_arg0 (m : (ℓ : Loc nD τ sig) → Buf (Elt Ideal) ℓ) (c : Dev nD) :
    after (ops (F := Ideal)) (launchContents m c) (Proc.devRef .tc main_arg0) = m ((c.tc : Thread nD τ).loc main_arg0) := by
  after_results_simp

/-- The last operation. -/
abbrev lastOp : HloOp τ sig (Elt Ideal) :=
  binary main_arg0 main_v59 main_v60 ((fun a b => concatenate S256x100200 1 [⟨S256x200, a⟩, ⟨S256x100000, b⟩] concatenates_S256x200_S256x100000_S256x100200_d1) : (⟨S256x200, .f32⟩ : BufTy).Contents (Elt Ideal) → (⟨S256x100000, .f32⟩ : BufTy).Contents (Elt Ideal) → (⟨S256x100200, .f32⟩ : BufTy).Contents (Elt Ideal))

theorem ops_split : (ops (F := Ideal)) = (ops (F := Ideal)).dropLast ++ [lastOp] := by
  have hne : (ops (F := Ideal)) ≠ [] := List.cons_ne_nil _ _
  have h := (List.dropLast_append_getLast hne).symm
  rwa [show (ops (F := Ideal)).getLast hne = lastOp from rfl] at h

set_option maxHeartbeats 4000000 in
/-- THE RESULT BUFFER is the last stage. -/
theorem result_eq (m : (ℓ : Loc nD τ sig) → Buf (Elt Ideal) ℓ) (c : Dev nD) :
    after (ops (F := Ideal)) (launchContents m c) (Proc.devRef .tc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h59 := stage59 m c
  have h0 := stage_arg0 m c
  rw [ops_split, after_snoc] at h59 h0 ⊢
  rw [show lastOp.result (after (ops (F := Ideal)).dropLast (launchContents m c)) (Proc.devRef .tc main_v59)
      = after (ops (F := Ideal)).dropLast (launchContents m c) (Proc.devRef .tc main_v59) from
    lastOp.result_of_not_mem _ (by decide)] at h59
  rw [show lastOp.result (after (ops (F := Ideal)).dropLast (launchContents m c)) (Proc.devRef .tc main_arg0)
      = after (ops (F := Ideal)).dropLast (launchContents m c) (Proc.devRef .tc main_arg0) from
    lastOp.result_of_not_mem _ (by decide)] at h0
  rw [binary_result, h59, h0]
  rfl

end Cert.ReferenceIdeal.RefVal
end
-- ==== Proof.RefEntry.lean ====
/-
  The reference's softmax at an index. For a topic `k` and a word `v`, the entry of the word distribution before the
  product with the samples is exp (logit `(v, k)` - level `k`) over the sum of those over the vocabulary, where the level
  is the reference's maximum of the topic's logits.
-/
import proofs.«136091_j11613591568915_2_alg».proof.Proof.RefVal
import Idealize.ShloMosaic.Lib.ValueIdx
set_option maxRecDepth 65536
noncomputable section
namespace Cert.ReferenceIdeal.RefVal
open Cert.ReferenceIdeal Cert.ReferenceIdeal.Gen Cert.ReferenceIdeal.ReadP Idealize.ShloMosaic Idealize.ShloMosaic.TcCoe Idealize.ShloMosaic.ValueIdx

variable (x1 : (⟨S100000x300, .f32⟩ : BufTy).Contents (Elt Ideal)) (x2 x3 x4 : (⟨S200x300, .f32⟩ : BufTy).Contents (Elt Ideal))

/-- The reference's logit of word `v` for topic `k`, and the topic's level. -/
def XR (v : Fin 100000) (k : Fin 200) : EReal := val_main_v46 (F := Ideal) x1 x2 x3 x4 (ix2 v k)
def MX (k : Fin 200) : EReal := val_main_v50 (F := Ideal) x1 x2 x3 x4 (ix1 k)

theorem expo_apply (k : Fin 200) (v : Fin 100000) :
    val_main_v54 (F := Ideal) x1 x2 x3 x4 (ix2 k v) = Ideal.exp (XR x1 x2 x3 x4 v k - MX x1 x2 x3 x4 k) := by
  rw [val_main_v54_apply, val_main_v53_apply, val_main_v47_apply, val_main_v52_apply, val_main_v51_apply]
  have e47 : idx_main_v47 (ix2 k v) = ix2 v k := funext fun a => Fin.ext (by match a with | ⟨0, _⟩ => rfl | ⟨1, _⟩ => rfl)
  have e51 : idx_main_v51 (idx_main_v52 (ix2 k v)) = ix1 k := funext fun a => Fin.ext (by match a with | ⟨0, _⟩ => rfl)
  rw [e47, e51]; rfl

/-- THE SOFTMAX ENTRY. -/
theorem soft_apply (k : Fin 200) (v : Fin 100000) :
    val_main_v58 (F := Ideal) x1 x2 x3 x4 (ix2 k v)
      = Ideal.div (Ideal.exp (XR x1 x2 x3 x4 v k - MX x1 x2 x3 x4 k)) (∑ v' : Fin 100000, Ideal.exp (XR x1 x2 x3 x4 v' k - MX x1 x2 x3 x4 k)) := by
  rw [val_main_v58_apply, expo_apply, val_main_v57_apply, val_main_v56_apply, val_main_v55_apply, val_main_cst_11_apply]
  have e55 : ∀ v' : Fin 100000, idx_main_v55 (idx_main_v56 (idx_main_v57 (ix2 k v))) v' = ix2 k v' := fun v' =>
    funext fun a => Fin.ext (by match a with | ⟨0, _⟩ => rfl | ⟨1, _⟩ => rfl)
  simp only [e55, expo_apply]
  show Ideal.div _ (Ideal.ofBits .f32 0x00000000#32 + _) = _
  rw [Ideal.ofBits_zero_f32, zero_add]

/-- The word distribution's entry: the samples' row against the topic shares. -/
theorem dist_apply (x0 : (⟨S256x200, .f32⟩ : BufTy).Contents (Elt Ideal)) (b : Fin 256) (v : Fin 100000) :
    val_main_v59 (F := Ideal) x0 x1 x2 x3 x4 (ix2 b v) = ∑ k : Fin 200, x0 (ix2 b k) * val_main_v58 (F := Ideal) x1 x2 x3 x4 (ix2 k v) := by
  rw [val_main_v59_apply]
  refine Finset.sum_congr rfl fun k _ => ?_
  have el : lidx_main_v59 (ix2 b v) k = ix2 b k := funext fun a => Fin.ext (by match a with | ⟨0, _⟩ => rfl | ⟨1, _⟩ => rfl)
  have er : ridx_main_v59 (ix2 b v) k = ix2 k v := funext fun a => Fin.ext (by match a with | ⟨0, _⟩ => rfl | ⟨1, _⟩ => rfl)
  rw [el, er]

end Cert.ReferenceIdeal.RefVal
end
-- ==== Proof.RefStages.lean ====
/-
  The reference's stages at an index, and that they are real numbers when the inputs are finite and the diagonal is
  positive: the inverse diagonal; the three inner products of a word with a topic's scaled tables; the topic's two table
  sums; its capacitance (at least 1) and its log-determinant. The reference's logit is then the shared scalar form.
-/
import proofs.«136091_j11613591568915_2_alg».proof.Proof.RefEntry
import proofs.«136091_j11613591568915_2_alg».proof.Proof.ValFold
set_option maxRecDepth 65536
noncomputable section
namespace Cert.ReferenceIdeal.RefVal
open Cert.ReferenceIdeal Cert.ReferenceIdeal.Gen Cert.ReferenceIdeal.ReadP Idealize.ShloMosaic Idealize.ShloMosaic.TcCoe Idealize.ShloMosaic.ValueIdx Cert.Val

variable (x1 : (⟨S100000x300, .f32⟩ : BufTy).Contents (Elt Ideal)) (x2 x3 x4 : (⟨S200x300, .f32⟩ : BufTy).Contents (Elt Ideal))

/-! ## Index identifications -/
theorem i13 (j : Fin 300) (k : Fin 200) : idx_main_v13 (ix2 j k) = ix2 k j := funext fun a => Fin.ext (by match a with | ⟨0, _⟩ => rfl | ⟨1, _⟩ => rfl)
theorem i16 (j : Fin 300) (k : Fin 200) : idx_main_v16 (ix2 j k) = ix2 k j := funext fun a => Fin.ext (by match a with | ⟨0, _⟩ => rfl | ⟨1, _⟩ => rfl)
theorem i27 (j : Fin 300) (k : Fin 200) : idx_main_v27 (ix2 j k) = ix2 k j := funext fun a => Fin.ext (by match a with | ⟨0, _⟩ => rfl | ⟨1, _⟩ => rfl)
theorem iRow (k : Fin 200) (j : Fin 300) : idx_main_v4 (ix1 k) j = ix2 k j := funext fun a => Fin.ext (by match a with | ⟨0, _⟩ => rfl | ⟨1, _⟩ => rfl)

/-! ## The inverse diagonal -/
theorem dinv_apply (i : S200x300.Idx) : val_main_v1 (F := Ideal) x4 i = Ideal.div ((1 : ℝ) : EReal) (x4 i) := by
  rw [val_main_v1_apply, val_main_v0_apply, val_main_cst_apply]
  show Ideal.div (Ideal.ofBits .f32 0x3F800000#32) (x4 i) = _
  rw [ofBits_one]

section Real
variable (h1 : ∀ i, IsReal (x1 i)) (h2 : ∀ i, IsReal (x2 i)) (h3 : ∀ i, IsReal (x3 i)) (h4 : ∀ i, IsReal (x4 i)) (hpos : ∀ i, 0 < x4 i)
include h4 hpos in
theorem dinv_real (i : S200x300.Idx) : IsReal (val_main_v1 (F := Ideal) x4 i) := by
  rw [dinv_apply]; exact (IsReal.coe 1).div (h4 i) (hpos i).ne'
include h4 hpos in
theorem dinv_nonneg (i : S200x300.Idx) : 0 ≤ val_main_v1 (F := Ideal) x4 i := by
  rw [dinv_apply]
  obtain ⟨r, hr⟩ := h4 i
  have hp := hpos i; rw [hr] at hp ⊢
  have hr0 : 0 < r := EReal.coe_pos.mp hp
  rw [Ideal.div_coe hr0.ne']
  exact EReal.coe_nonneg.mpr (by positivity)

/-! ## The three inner products -/
theorem A_apply (v : Fin 100000) (k : Fin 200) :
    val_main_v14 (F := Ideal) x1 x4 (ix2 v k) = ∑ j : Fin 300, (x1 (ix2 v j) * x1 (ix2 v j)) * val_main_v13 (F := Ideal) x4 (ix2 j k) := by
  rw [val_main_v14_apply]
  refine Finset.sum_congr rfl fun j _ => ?_
  have el : lidx_main_v14 (ix2 v k) j = ix2 v j := funext fun a => Fin.ext (by match a with | ⟨0, _⟩ => rfl | ⟨1, _⟩ => rfl)
  have er : ridx_main_v14 (ix2 v k) j = ix2 j k := funext fun a => Fin.ext (by match a with | ⟨0, _⟩ => rfl | ⟨1, _⟩ => rfl)
  rw [el, er, val_main_v12_apply]; rfl
theorem B_apply (v : Fin 100000) (k : Fin 200) :
    val_main_v17 (F := Ideal) x1 x2 x4 (ix2 v k) = ∑ j : Fin 300, x1 (ix2 v j) * val_main_v16 (F := Ideal) x2 x4 (ix2 j k) := by
  rw [val_main_v17_apply]
  refine Finset.sum_congr rfl fun j _ => ?_
  have el : lidx_main_v17 (ix2 v k) j = ix2 v j := funext fun a => Fin.ext (by match a with | ⟨0, _⟩ => rfl | ⟨1, _⟩ => rfl)
  have er : ridx_main_v17 (ix2 v k) j = ix2 j k := funext fun a => Fin.ext (by match a with | ⟨0, _⟩ => rfl | ⟨1, _⟩ => rfl)
  rw [el, er]
theorem C_apply (v : Fin 100000) (k : Fin 200) :
    val_main_v28 (F := Ideal) x1 x3 x4 (ix2 v k) = ∑ j : Fin 300, x1 (ix2 v j) * val_main_v27 (F := Ideal) x3 x4 (ix2 j k) := by
  rw [val_main_v28_apply]
  refine Finset.sum_congr rfl fun j _ => ?_
  have el : lidx_main_v28 (ix2 v k) j = ix2 v j := funext fun a => Fin.ext (by match a with | ⟨0, _⟩ => rfl | ⟨1, _⟩ => rfl)
  have er : ridx_main_v28 (ix2 v k) j = ix2 j k := funext fun a => Fin.ext (by match a with | ⟨0, _⟩ => rfl | ⟨1, _⟩ => rfl)
  rw [el, er]

include h4 hpos in
theorem t13_real (j : Fin 300) (k : Fin 200) : IsReal (val_main_v13 (F := Ideal) x4 (ix2 j k)) := by
  rw [val_main_v13_apply]; exact dinv_real x4 h4 hpos _
include h2 h4 hpos in
theorem t16_real (j : Fin 300) (k : Fin 200) : IsReal (val_main_v16 (F := Ideal) x2 x4 (ix2 j k)) := by
  rw [val_main_v16_apply, val_main_v15_apply]; exact (h2 _).mul (dinv_real x4 h4 hpos _)
include h3 h4 hpos in
theorem t27_real (j : Fin 300) (k : Fin 200) : IsReal (val_main_v27 (F := Ideal) x3 x4 (ix2 j k)) := by
  rw [val_main_v27_apply, val_main_v11_apply]; exact (h3 _).mul (dinv_real x4 h4 hpos _)

include h1 h4 hpos in
theorem A_real (v : Fin 100000) (k : Fin 200) : IsReal (val_main_v14 (F := Ideal) x1 x4 (ix2 v k)) := by
  rw [A_apply]; exact IsReal.sum _ _ fun j _ => ((h1 _).mul (h1 _)).mul (t13_real x4 h4 hpos j k)
include h1 h2 h4 hpos in
theorem B_real (v : Fin 100000) (k : Fin 200) : IsReal (val_main_v17 (F := Ideal) x1 x2 x4 (ix2 v k)) := by
  rw [B_apply]; exact IsReal.sum _ _ fun j _ => (h1 _).mul (t16_real x2 x4 h2 h4 hpos j k)
include h1 h3 h4 hpos in
theorem C_real (v : Fin 100000) (k : Fin 200) : IsReal (val_main_v28 (F := Ideal) x1 x3 x4 (ix2 v k)) := by
  rw [C_apply]; exact IsReal.sum _ _ fun j _ => (h1 _).mul (t27_real x3 x4 h3 h4 hpos j k)

/-! ## The per-topic sums -/
include h2 h4 hpos in
theorem s23_real (k : Fin 200) : IsReal (val_main_v23 (F := Ideal) x2 x4 (ix1 k)) := by
  rw [val_main_v23_apply, val_main_cst_4_apply]
  refine IsReal.add (by show IsReal (Ideal.ofBits .f32 0x00000000#32); rw [Ideal.ofBits_zero_f32]; exact IsReal.zero) (IsReal.sum _ _ fun j _ => ?_)
  rw [val_main_v22_apply, val_main_v21_apply]; exact ((h2 _).mul (h2 _)).mul (dinv_real x4 h4 hpos _)
include h2 h3 h4 hpos in
theorem s30_real (k : Fin 200) : IsReal (val_main_v30 (F := Ideal) x2 x3 x4 (ix1 k)) := by
  rw [val_main_v30_apply, val_main_cst_5_apply]
  refine IsReal.add (by show IsReal (Ideal.ofBits .f32 0x00000000#32); rw [Ideal.ofBits_zero_f32]; exact IsReal.zero) (IsReal.sum _ _ fun j _ => ?_)
  rw [val_main_v29_apply, val_main_v11_apply]; exact (h2 _).mul ((h3 _).mul (dinv_real x4 h4 hpos _))

/-- The capacitance is a real number, at least 1. -/
theorem cap_eq (k : Fin 200) :
    val_main_v6 (F := Ideal) x3 x4 (ix1 k) = ((1 : ℝ) : EReal) + ∑ j : Fin 300, (x3 (idx_main_v4 (ix1 k) j) * x3 (idx_main_v4 (ix1 k) j)) * val_main_v1 (F := Ideal) x4 (idx_main_v4 (ix1 k) j) := by
  rw [val_main_v6_apply, val_main_v5_apply, val_main_cst_1_apply, val_main_v4_apply, val_main_cst_0_apply]
  show Ideal.ofBits .f32 0x3F800000#32 + (Ideal.ofBits .f32 0x00000000#32 + _) = _
  rw [ofBits_one, Ideal.ofBits_zero_f32, zero_add]
  refine congrArg (((1 : ℝ) : EReal) + ·) (Finset.sum_congr rfl fun j _ => ?_)
  rw [val_main_v3_apply, val_main_v2_apply]; rfl
include h3 h4 hpos in
theorem cap_real (k : Fin 200) : IsReal (val_main_v6 (F := Ideal) x3 x4 (ix1 k)) := by
  rw [cap_eq]; exact (IsReal.coe 1).add (IsReal.sum _ _ fun j _ => ((h3 _).mul (h3 _)).mul (dinv_real x4 h4 hpos _))
include h3 h4 hpos in
theorem cap_pos (k : Fin 200) : 0 < val_main_v6 (F := Ideal) x3 x4 (ix1 k) := by
  rw [cap_eq]
  have hs : 0 ≤ ∑ j : Fin 300, (x3 (idx_main_v4 (ix1 k) j) * x3 (idx_main_v4 (ix1 k) j)) * val_main_v1 (F := Ideal) x4 (idx_main_v4 (ix1 k) j) :=
    Finset.sum_nonneg fun j _ => by
      obtain ⟨r, hr⟩ := h3 (idx_main_v4 (ix1 k) j)
      rw [hr, ← EReal.coe_mul]
      exact mul_nonneg (EReal.coe_nonneg.mpr (mul_self_nonneg r)) (dinv_nonneg x4 h4 hpos _)
  calc (0 : EReal) < ((1 : ℝ) : EReal) := EReal.coe_pos.mpr one_pos
    _ ≤ ((1 : ℝ) : EReal) + _ := le_add_of_nonneg_right hs

include h3 h4 hpos in
theorem ld_real (k : Fin 200) : IsReal (val_main_v10 (F := Ideal) x3 x4 (ix1 k)) := by
  rw [val_main_v10_apply, val_main_v8_apply, val_main_cst_2_apply, val_main_v9_apply]
  refine IsReal.add (IsReal.add (by show IsReal (Ideal.ofBits .f32 0x00000000#32); rw [Ideal.ofBits_zero_f32]; exact IsReal.zero) (IsReal.sum _ _ fun j _ => ?_)) ?_
  · rw [val_main_v7_apply]; exact (h4 _).log (hpos _)
  · exact (cap_real x3 x4 h3 h4 hpos k).log (cap_pos x3 x4 h3 h4 hpos k)

end Real

/-! ## The reference's logit in the shared form -/
theorem XR_eq (v : Fin 100000) (k : Fin 200) :
    XR x1 x2 x3 x4 v k = rLogit (Ideal.ofBits .f32 0x43960000#32 * Ideal.ofBits .f32 0x3FEB3F8E#32)
      (val_main_v14 (F := Ideal) x1 x4 (ix2 v k)) (val_main_v17 (F := Ideal) x1 x2 x4 (ix2 v k)) (val_main_v28 (F := Ideal) x1 x3 x4 (ix2 v k))
      (val_main_v23 (F := Ideal) x2 x4 (ix1 k)) (val_main_v30 (F := Ideal) x2 x3 x4 (ix1 k)) (val_main_v10 (F := Ideal) x3 x4 (ix1 k)) (val_main_v6 (F := Ideal) x3 x4 (ix1 k)) := by
  unfold XR rLogit
  rw [val_main_v46_apply, val_main_v45_apply, val_main_cst_8_apply, val_main_v44_apply, val_main_v43_apply, val_main_v42_apply, val_main_v41_apply,
    val_main_v40_apply, val_main_v39_apply, val_main_cst_6_apply, val_main_cst_7_apply, val_main_v38_apply, val_main_v26_apply, val_main_v20_apply,
    val_main_v19_apply, val_main_v18_apply, val_main_cst_3_apply, val_main_v25_apply, val_main_v24_apply, val_main_v37_apply, val_main_v34_apply,
    val_main_v33_apply, val_main_v32_apply, val_main_v31_apply, val_main_v36_apply, val_main_v35_apply]
  have e1 : idx_main_v42 (idx_main_v43 (ix2 v k)) = ix1 k := funext fun a => Fin.ext (by match a with | ⟨0, _⟩ => rfl)
  have e2 : idx_main_v24 (idx_main_v25 (ix2 v k)) = ix1 k := funext fun a => Fin.ext (by match a with | ⟨0, _⟩ => rfl)
  have e3 : idx_main_v31 (idx_main_v32 (ix2 v k)) = ix1 k := funext fun a => Fin.ext (by match a with | ⟨0, _⟩ => rfl)
  have e4 : idx_main_v35 (idx_main_v36 (ix2 v k)) = ix1 k := funext fun a => Fin.ext (by match a with | ⟨0, _⟩ => rfl)
  rw [e1, e2, e3, e4]
  show Ideal.ofBits .f32 0xBF000000#32 * (((Ideal.ofBits .f32 0x43960000#32 * Ideal.ofBits .f32 0x3FEB3F8E#32) + _) + (((_ - Ideal.ofBits .f32 0x40000000#32 * _) + _) - Ideal.div _ _)) = _
  rw [ofBits_neg_half, ofBits_two]
  rfl

end Cert.ReferenceIdeal.RefVal
end
-- ==== Proof.ValShare.lean ====
/-
  The two programs' shares agree. The reference's logits `x v` (real numbers, over a finite vocabulary) and the kernel's
  `x v + δ` differ by one constant; the kernel's pair `(cm, cs)` has weight `e^δ · Σ e^{x v}` (its own logits' total); its
  log-normaliser is `L = cm + log cs`. Then `exp ((x v + δ) - L)` is the reference's `exp (x v - m) / Σ exp (x i - m)`
  for any finite level `m`: both, times `Σ e^{x i}`, are `e^{x v}`.
-/
import proofs.«136091_j11613591568915_2_alg».proof.Proof.LibOnlineLse
import proofs.«136091_j11613591568915_2_alg».proof.Proof.ValReal

noncomputable section

namespace Cert.Val

open Idealize.ShloMosaic Cert.Lib.OnlineLse

theorem coe_sum_exp {ι : Type} (s : Finset ι) (x : ι → ℝ) :
    ∑ i ∈ s, Ideal.exp ((x i : ℝ) : EReal) = ((∑ i ∈ s, Real.exp (x i) : ℝ) : EReal) := by
  classical
  induction s using Finset.induction_on with
  | empty => simp
  | insert a s ha ih => rw [Finset.sum_insert ha, Finset.sum_insert ha, ih, Ideal.exp_coe, EReal.coe_add]

theorem share_eq {ι : Type} (s : Finset ι) (x : ι → ℝ) (δ cm : ℝ) (cs : EReal) (hne : s.Nonempty)
    (hZ : cs * Ideal.exp (cm : EReal) = ((Real.exp δ * ∑ i ∈ s, Real.exp (x i) : ℝ) : EReal))
    (mx : ℝ) (v : ι) :
    Ideal.exp (((x v + δ : ℝ) : EReal) - ((cm : EReal) + Ideal.log cs))
      = Ideal.div (Ideal.exp (((x v : ℝ) : EReal) - (mx : EReal))) (∑ i ∈ s, Ideal.exp (((x i : ℝ) : EReal) - (mx : EReal))) := by
  have hzr : 0 < ∑ i ∈ s, Real.exp (x i) := Finset.sum_pos (fun i _ => Real.exp_pos _) hne
  have hz : 0 < Real.exp δ * ∑ i ∈ s, Real.exp (x i) := mul_pos (Real.exp_pos _) hzr
  -- the kernel's share times e^δ · Σ is e^{x v + δ}
  have hk := share_of_pair cs cm _ hz hZ (((x v + δ : ℝ) : EReal)) (EReal.coe_ne_top _)
  -- the reference's share times Σ is e^{x v}
  have hr := share_two_pass s (fun i => ((x i : ℝ) : EReal)) (fun i _ => EReal.coe_ne_top _) mx _ hzr (coe_sum_exp s x)
    (((x v : ℝ) : EReal)) (EReal.coe_ne_top _)
  -- cancel e^δ on the kernel's side
  have hk' : Ideal.exp (((x v + δ : ℝ) : EReal) - ((cm : EReal) + Ideal.log cs)) * ((∑ i ∈ s, Real.exp (x i) : ℝ) : EReal)
      = Ideal.exp ((x v : ℝ) : EReal) := by
    have e1 : ((Real.exp δ * ∑ i ∈ s, Real.exp (x i) : ℝ) : EReal) = ((∑ i ∈ s, Real.exp (x i) : ℝ) : EReal) * ((Real.exp δ : ℝ) : EReal) := by
      rw [← EReal.coe_mul, mul_comm]
    have e2 : Ideal.exp (((x v + δ : ℝ) : EReal)) = Ideal.exp ((x v : ℝ) : EReal) * ((Real.exp δ : ℝ) : EReal) := by
      rw [Ideal.exp_coe, Ideal.exp_coe, Real.exp_add, EReal.coe_mul]
    rw [e1, e2, ← mul_assoc] at hk
    have hδ : (Real.exp δ) ≠ 0 := (Real.exp_pos δ).ne'
    have key : ∀ a b : EReal, a * ((Real.exp δ : ℝ) : EReal) = b * ((Real.exp δ : ℝ) : EReal) → a = b := fun a b h => by
      have := congrArg (· * (((Real.exp δ)⁻¹ : ℝ) : EReal)) h
      simp only [mul_assoc, ← EReal.coe_mul, mul_inv_cancel₀ hδ, EReal.coe_one, mul_one] at this
      exact this
    exact key _ _ hk
  exact share_unique _ _ _ _ hzr.ne' hk' hr

end Cert.Val

end
-- ==== Proof.ILink.lean ====
/-
  The link. With the inputs finite and the diagonal positive: the kernel's logit of a vocabulary word is the reference's
  plus one constant `δ` (both are the shared scalar forms of the same real inner products and table entries); so the
  masked logits meet the running pair's assumptions, the pair the log-normaliser is read from weighs `e^δ` times the
  reference's total, and the kernel's `exp (logit - log-normaliser)` is the reference's softmax entry.
-/
import proofs.«136091_j11613591568915_2_alg».proof.Proof.ITables2
import proofs.«136091_j11613591568915_2_alg».proof.Proof.IZ
import proofs.«136091_j11613591568915_2_alg».proof.Proof.RefStages
import proofs.«136091_j11613591568915_2_alg».proof.Proof.ValShare
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Idealize.ShloMosaic.StableHlo Cert.Val

variable (m : (ℓ : Loc nD τ sig) → Buf (Elt Ideal) ℓ)

/-- The argument arrays, typed as the reference's stages take them. -/
abbrev A0 (c : Dev nD) : (⟨Cert.ReferenceIdeal.S256x200, .f32⟩ : BufTy).Contents (Elt Ideal) := m ((c : Thread nD τ).loc main_arg0)
abbrev A1 (c : Dev nD) : (⟨Cert.ReferenceIdeal.S100000x300, .f32⟩ : BufTy).Contents (Elt Ideal) := m ((c : Thread nD τ).loc main_arg1)
abbrev A2 (c : Dev nD) : (⟨Cert.ReferenceIdeal.S200x300, .f32⟩ : BufTy).Contents (Elt Ideal) := m ((c : Thread nD τ).loc main_arg2)
abbrev A3 (c : Dev nD) : (⟨Cert.ReferenceIdeal.S200x300, .f32⟩ : BufTy).Contents (Elt Ideal) := m ((c : Thread nD τ).loc main_arg3)
abbrev A4 (c : Dev nD) : (⟨Cert.ReferenceIdeal.S200x300, .f32⟩ : BufTy).Contents (Elt Ideal) := m ((c : Thread nD τ).loc main_arg4)

/-- The inputs are finite and the diagonal positive, on core `c`. -/
structure InOk (c : Dev nD) : Prop where
  h1 : ∀ i, IsReal (A1 m c i)
  h2 : ∀ i, IsReal (A2 m c i)
  h3 : ∀ i, IsReal (A3 m c i)
  h4 : ∀ i, IsReal (A4 m c i)
  hpos : ∀ i, 0 < A4 m c i

/-- The vocabulary word `v` among the padded words. -/
abbrev pw (v : Fin 100000) : Fin 100096 := ⟨v.val, by have := v.isLt; omega⟩

/-- THE KERNEL'S LOGIT in the shared form, over the reference's stages. -/
theorem KL_eq (c : Dev nD) (v : Fin 100000) (k : Fin 200) :
    KL m c (pw v) k = kLogit (((-(9033533 / 32768) : ℝ)) : EReal)
      (Cert.ReferenceIdeal.ReadP.val_main_v14 (F := Ideal) (A1 m c) (A4 m c) (ix2 v k)) (Cert.ReferenceIdeal.ReadP.val_main_v17 (F := Ideal) (A1 m c) (A2 m c) (A4 m c) (ix2 v k))
      (Cert.ReferenceIdeal.ReadP.val_main_v28 (F := Ideal) (A1 m c) (A3 m c) (A4 m c) (ix2 v k))
      (Cert.ReferenceIdeal.ReadP.val_main_v23 (F := Ideal) (A2 m c) (A4 m c) (ix1 k)) (Cert.ReferenceIdeal.ReadP.val_main_v30 (F := Ideal) (A2 m c) (A3 m c) (A4 m c) (ix1 k))
      (Cert.ReferenceIdeal.ReadP.val_main_v10 (F := Ideal) (A3 m c) (A4 m c) (ix1 k)) (Cert.ReferenceIdeal.ReadP.val_main_v6 (F := Ideal) (A3 m c) (A4 m c) (ix1 k)) := by
  unfold KL logitRow kLogit
  have e31 : (fun j => W2 m c main_v31 (ix2 (pw v) j)) = fun j => A1 m c (ix2 v j) := funext fun j => padded_apply m c v j
  have e24 : (fun j : Fin 300 => W2 m c main_v24 (ix2 j k)) = fun j => Cert.ReferenceIdeal.ReadP.val_main_v13 (F := Ideal) (A4 m c) (ix2 j k) :=
    funext fun j => by rw [W2_of_W1 m c main_v24 (by decide), tbl24]
  have e25 : (fun j : Fin 300 => W2 m c main_v25 (ix2 j k)) = fun j => Cert.ReferenceIdeal.ReadP.val_main_v16 (F := Ideal) (A2 m c) (A4 m c) (ix2 j k) :=
    funext fun j => by rw [W2_of_W1 m c main_v25 (by decide), tbl25]
  have e26 : (fun j : Fin 300 => W2 m c main_v26 (ix2 j k)) = fun j => Cert.ReferenceIdeal.ReadP.val_main_v27 (F := Ideal) (A3 m c) (A4 m c) (ix2 j k) :=
    funext fun j => by rw [W2_of_W1 m c main_v26 (by decide), tbl26]
  rw [e31, e24, e25, e26, W2_of_W1 m c main_v28 (by decide), row28, W2_of_W1 m c main_v29 (by decide), row29,
    W2_of_W1 m c main_v27 (by decide), row27, W2_of_W1 m c main_v30 (by decide), row30]
  rw [← Cert.ReferenceIdeal.RefVal.A_apply (A1 m c) (A4 m c) v k, ← Cert.ReferenceIdeal.RefVal.B_apply (A1 m c) (A2 m c) (A4 m c) v k, ← Cert.ReferenceIdeal.RefVal.C_apply (A1 m c) (A3 m c) (A4 m c) v k]
  show (Ideal.ofBits .f32 0xC389D73D#32 - Ideal.ofBits .f32 0x3F000000#32 * _ - Ideal.ofBits .f32 0x3F000000#32 * ((_ - Ideal.ofBits .f32 0x40000000#32 * _) + _))
      + _ * Ideal.div (Ideal.ofBits .f32 0x3F000000#32) _ = _
  rw [ofBits_K1, ofBits_half, ofBits_two]

/-- The constant between the two programs' logits. -/
def δ : ℝ := -(9033533 / 32768) + (1 / 2) * (300 * (7708615 / 4194304))

theorem rLogit_isReal {K₂ A B C s u ℓ κ : EReal} (hK : IsReal K₂) (hA : IsReal A) (hB : IsReal B) (hC : IsReal C)
    (hs : IsReal s) (hu : IsReal u) (hℓ : IsReal ℓ) (hκ : IsReal κ) (hκ0 : κ ≠ 0) : IsReal (rLogit K₂ A B C s u ℓ κ) :=
  (IsReal.coe _).mul ((hK.add hℓ).add (((hA.sub ((IsReal.coe _).mul hB)).add hs).sub (((hC.sub hu).mul (hC.sub hu)).div hκ hκ0)))

/-- THE SHIFT: the reference's logit is a real number and the kernel's is it plus `δ`. -/
theorem KL_shift (c : Dev nD) (h : InOk m c) (v : Fin 100000) (k : Fin 200) :
    ∃ xr : ℝ, Cert.ReferenceIdeal.RefVal.XR (A1 m c) (A2 m c) (A3 m c) (A4 m c) v k = (xr : EReal) ∧ KL m c (pw v) k = ((xr + δ : ℝ) : EReal) := by
  obtain ⟨rA, hA⟩ := Cert.ReferenceIdeal.RefVal.A_real (A1 m c) (A4 m c) h.h1 h.h4 h.hpos v k
  obtain ⟨rB, hB⟩ := Cert.ReferenceIdeal.RefVal.B_real (A1 m c) (A2 m c) (A4 m c) h.h1 h.h2 h.h4 h.hpos v k
  obtain ⟨rC, hC⟩ := Cert.ReferenceIdeal.RefVal.C_real (A1 m c) (A3 m c) (A4 m c) h.h1 h.h3 h.h4 h.hpos v k
  obtain ⟨rs, hs⟩ := Cert.ReferenceIdeal.RefVal.s23_real (A2 m c) (A4 m c) h.h2 h.h4 h.hpos k
  obtain ⟨ru, hu⟩ := Cert.ReferenceIdeal.RefVal.s30_real (A2 m c) (A3 m c) (A4 m c) h.h2 h.h3 h.h4 h.hpos k
  obtain ⟨rl, hl⟩ := Cert.ReferenceIdeal.RefVal.ld_real (A3 m c) (A4 m c) h.h3 h.h4 h.hpos k
  obtain ⟨rk, hk⟩ := Cert.ReferenceIdeal.RefVal.cap_real (A3 m c) (A4 m c) h.h3 h.h4 h.hpos k
  have hk0 : rk ≠ 0 := by
    have hp := Cert.ReferenceIdeal.RefVal.cap_pos (A3 m c) (A4 m c) h.h3 h.h4 h.hpos k
    rw [hk] at hp
    exact (EReal.coe_pos.mp hp).ne'
  have hK2 : Ideal.ofBits .f32 0x43960000#32 * Ideal.ofBits .f32 0x3FEB3F8E#32 = ((300 * (7708615 / 4194304) : ℝ) : EReal) := by
    rw [ofBits_300, ofBits_log2pi, ← EReal.coe_mul]
  have hXR := Cert.ReferenceIdeal.RefVal.XR_eq (A1 m c) (A2 m c) (A3 m c) (A4 m c) v k
  rw [hK2, hA, hB, hC, hs, hu, hl, hk] at hXR
  have hKL := KL_eq m c v k
  rw [hA, hB, hC, hs, hu, hl, hk] at hKL
  obtain ⟨xr, hxr⟩ := rLogit_isReal (IsReal.coe (300 * (7708615 / 4194304))) (IsReal.coe rA) (IsReal.coe rB) (IsReal.coe rC) (IsReal.coe rs)
    (IsReal.coe ru) (IsReal.coe rl) (IsReal.coe rk) (fun h0 => hk0 (by exact_mod_cast h0))
  refine ⟨xr, hXR.trans hxr, ?_⟩
  rw [hKL, kLogit_eq_rLogit_add (-(9033533 / 32768)) (300 * (7708615 / 4194304)) rA rB rC rs ru rl rk hk0, hxr, ← EReal.coe_add]
  rfl

end Cert.KernelIdeal.Hand
end
-- ==== Proof.RefStages2.lean ====
/-
  The reference's logits and level are real numbers. The level of a topic is the larger of -∞ and the maximum, from -∞,
  of the topic's 100000 logits, each a real number; so it is one.
-/
import proofs.«136091_j11613591568915_2_alg».proof.Proof.RefStages
set_option maxRecDepth 65536
noncomputable section
namespace Cert.ReferenceIdeal.RefVal
open Cert.ReferenceIdeal Cert.ReferenceIdeal.Gen Cert.ReferenceIdeal.ReadP Idealize.ShloMosaic Idealize.ShloMosaic.TcCoe Idealize.ShloMosaic.ValueIdx Cert.Val

variable (x1 : (⟨S100000x300, .f32⟩ : BufTy).Contents (Elt Ideal)) (x2 x3 x4 : (⟨S200x300, .f32⟩ : BufTy).Contents (Elt Ideal))
variable (h1 : ∀ i, IsReal (x1 i)) (h2 : ∀ i, IsReal (x2 i)) (h3 : ∀ i, IsReal (x3 i)) (h4 : ∀ i, IsReal (x4 i)) (hpos : ∀ i, 0 < x4 i)

theorem rLogit_isReal' {K₂ A B C s u ℓ κ : EReal} (hK : IsReal K₂) (hA : IsReal A) (hB : IsReal B) (hC : IsReal C)
    (hs : IsReal s) (hu : IsReal u) (hℓ : IsReal ℓ) (hκ : IsReal κ) (hκ0 : κ ≠ 0) : IsReal (rLogit K₂ A B C s u ℓ κ) :=
  (IsReal.coe _).mul ((hK.add hℓ).add (((hA.sub ((IsReal.coe _).mul hB)).add hs).sub (((hC.sub hu).mul (hC.sub hu)).div hκ hκ0)))

include h1 h2 h3 h4 hpos in
theorem XR_isReal (v : Fin 100000) (k : Fin 200) : IsReal (XR x1 x2 x3 x4 v k) := by
  rw [XR_eq]
  refine rLogit_isReal' ?_ (A_real x1 x4 h1 h4 hpos v k) (B_real x1 x2 x4 h1 h2 h4 hpos v k) (C_real x1 x3 x4 h1 h3 h4 hpos v k)
    (s23_real x2 x4 h2 h4 hpos k) (s30_real x2 x3 x4 h2 h3 h4 hpos k) (ld_real x3 x4 h3 h4 hpos k) (cap_real x3 x4 h3 h4 hpos k)
    (cap_pos x3 x4 h3 h4 hpos k).ne'
  rw [ofBits_300, ofBits_log2pi]; exact (IsReal.coe _).mul (IsReal.coe _)

include h1 h2 h3 h4 hpos in
theorem v47_isReal (i : S200x100000.Idx) : IsReal (val_main_v47 (F := Ideal) x1 x2 x3 x4 i) := by
  rw [val_main_v47_apply]
  have e : idx_main_v47 i = ix2 (i 1) (i 0) := funext fun a => Fin.ext (by match a with | ⟨0, _⟩ => rfl | ⟨1, _⟩ => rfl)
  rw [e]; exact XR_isReal x1 x2 x3 x4 h1 h2 h3 h4 hpos (i 1) (i 0)

include h1 h2 h3 h4 hpos in
/-- THE LEVEL is a real number. -/
theorem MX_isReal (k : Fin 200) : IsReal (MX x1 x2 x3 x4 k) := by
  unfold MX
  rw [val_main_v50_apply, val_main_v49_apply, val_main_cst_10_apply]
  show IsReal (max (Ideal.ofBits .f32 0xFF800000#32) (val_main_v48 (F := Ideal) x1 x2 x3 x4 (ix1 k)))
  rw [negInf_word]
  refine max_isReal_right bot_ne_top ?_
  unfold val_main_v48
  rw [Host.reduce_eq_fold_single FloatOps.maximumf _ _ reducesTo_S200x100000_S200_d1 (by decide) h_S_]
  show IsReal ((Finset.univ : Finset (Fin 100000)).fold max (Ideal.ofBits .f32 0xFF800000#32) _)
  rw [negInf_word]
  exact fold_max_isReal _ (fun r => (v47_isReal x1 x2 x3 x4 h1 h2 h3 h4 hpos _).ne_top) ⟨⟨0, by norm_num⟩, v47_isReal x1 x2 x3 x4 h1 h2 h3 h4 hpos _⟩

end Cert.ReferenceIdeal.RefVal
end
-- ==== Proof.ILink2.lean ====
/-
  The link, concluded. The masked logits meet the running pair's assumptions; the merged pair weighs `e^δ` times the
  reference's total; so at every topic the kernel's exp (logit - log-normaliser) is the reference's softmax entry; and
  an entry of the kernel's word distribution is the samples' row against those, as the reference's is.
-/
import proofs.«136091_j11613591568915_2_alg».proof.Proof.ILink
import proofs.«136091_j11613591568915_2_alg».proof.Proof.RefStages2
set_option maxHeartbeats 4000000
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Idealize.ShloMosaic.StableHlo Cert.Val

variable (m : (ℓ : Loc nD τ sig) → Buf (Elt Ideal) ℓ)

theorem pw_of (w : Fin 100096) (hv : w.val < 100000) : pw ⟨w.val, hv⟩ = w := Fin.ext rfl

theorem KL_real (c : Dev nD) (h : InOk m c) (w : Fin 100096) (hv : w.val < 100000) (k : Fin 200) : IsReal (KL m c w k) := by
  obtain ⟨xr, -, hk⟩ := KL_shift m c h ⟨w.val, hv⟩ k
  rw [pw_of] at hk; exact ⟨_, hk⟩

/-- The running pair's assumptions hold. -/
theorem logOk (c : Dev nD) (h : InOk m c) : LogOk (V2 m) c where
  ne_top t r k := by
    rw [mlog_eq]; unfold ML
    split
    · rename_i hv; exact (KL_real m c h _ hv k).ne_top
    · exact bot_ne_top
  some_real t k := by
    have hN : t.val < 46 := lt_of_lt_of_eq t.isLt (show cfg0.N = 46 from N_0)
    refine ⟨⟨0, by norm_num⟩, ?_⟩
    rw [mlog_eq]; unfold ML
    have hv : (wordOf t.val hN ⟨0, by norm_num⟩).val < 100000 := by show 2176 * t.val + 0 < 100000; omega
    rw [if_pos hv]; exact KL_real m c h _ hv k

/-- The reference's logit as a real number. -/
def xrF (c : Dev nD) (h : InOk m c) (k : Fin 200) (v : Fin 100000) : ℝ := Classical.choose (KL_shift m c h v k)
theorem xrF_XR (c : Dev nD) (h : InOk m c) (k : Fin 200) (v : Fin 100000) :
    Cert.ReferenceIdeal.RefVal.XR (A1 m c) (A2 m c) (A3 m c) (A4 m c) v k = ((xrF m c h k v : ℝ) : EReal) := (Classical.choose_spec (KL_shift m c h v k)).1
theorem xrF_KL (c : Dev nD) (h : InOk m c) (k : Fin 200) (v : Fin 100000) :
    KL m c (pw v) k = ((xrF m c h k v + δ : ℝ) : EReal) := (Classical.choose_spec (KL_shift m c h v k)).2

/-- THE MERGED PAIR'S WEIGHT. -/
theorem pair_weight (c : Dev nD) (h : InOk m c) (k : Fin 200) :
    ∃ cm : ℝ, max (lvl m c t22 k) (lvl m c t45 k) = (cm : EReal) ∧
      (Ideal.exp (lvl m c t22 k - (cm : EReal)) * sm m c t22 k + Ideal.exp (lvl m c t45 k - (cm : EReal)) * sm m c t45 k) * Ideal.exp (cm : EReal)
        = ((Real.exp δ * ∑ v : Fin 100000, Real.exp (xrF m c h k v) : ℝ) : EReal) := by
  have hL := logOk m c h
  obtain ⟨hM0, hS0, hZ0⟩ := inv (V2 m) c hL k 22 t22.isLt
  obtain ⟨hM1, hS1, hZ1⟩ := inv (V2 m) c hL k 45 t45.isLt
  obtain ⟨cm, hcm⟩ := IsReal.max hM0 hM1
  refine ⟨cm, hcm, ?_⟩
  have hmerge := Cert.Lib.OnlineLse.merge _ _ _ _ _ _ hM0.ne_top hM1.ne_top hS0 hS1 hZ0 hZ1 cm
  refine hmerge.trans ?_
  have ha22 : acc (V2 m) c k 22 t22.isLt = accN m c k 22 := by unfold accN; rw [dif_pos t22.isLt]
  have ha45 : acc (V2 m) c k 45 t45.isLt = accN m c k 45 := by unfold accN; rw [dif_pos t45.isLt]
  rw [ha22, ha45, total_padded, total_vocab]
  have hsum : ∑ v : Fin 100000, Ideal.exp (KL m c ⟨v.val, by have := v.isLt; omega⟩ k)
      = ∑ v : Fin 100000, Ideal.exp (((xrF m c h k v + δ : ℝ)) : EReal) :=
    Finset.sum_congr rfl fun v _ => congrArg Ideal.exp (xrF_KL m c h k v)
  rw [hsum, coe_sum_exp]
  refine congrArg (fun x : ℝ => (x : EReal)) ?_
  rw [Finset.mul_sum]
  exact Finset.sum_congr rfl fun v _ => by rw [Real.exp_add, mul_comm]

/-- AT EVERY TOPIC the kernel's share is the reference's softmax entry. -/
theorem share_topic (c : Dev nD) (h : InOk m c) (k : Fin 200) (v : Fin 100000) :
    Ideal.exp (KL m c (pw v) k - W4 m c main_v46 (ix2 (0 : Fin 1) k))
      = Cert.ReferenceIdeal.ReadP.val_main_v58 (F := Ideal) (A1 m c) (A2 m c) (A3 m c) (A4 m c) (ix2 k v) := by
  obtain ⟨cm, hcm, hZ⟩ := pair_weight m c h k
  obtain ⟨mx, hmx⟩ := Cert.ReferenceIdeal.RefVal.MX_isReal (A1 m c) (A2 m c) (A3 m c) (A4 m c) h.h1 h.h2 h.h3 h.h4 h.hpos k
  rw [lse_apply, hcm, xrF_KL m c h k v, Cert.ReferenceIdeal.RefVal.soft_apply, hmx]
  simp only [xrF_XR m c h k]
  exact share_eq Finset.univ (xrF m c h k) δ cm _ Finset.univ_nonempty hZ mx v

theorem V4_arg0 (c : Dev nD) : V4 m c main_arg0 = m ((c : Thread nD τ).loc main_arg0) :=
  (StableHlo.after_of_writes_sub hostOps1 _ hostOps1_writes (by decide)).trans
    ((W3_of_ne m c main_arg0 (by decide)).trans
      ((StableHlo.after_of_writes_sub hostOps0_1 _ hostOps0_1_writes (by decide)).trans
        (StableHlo.after_of_writes_sub hostOps0 _ hostOps0_writes (by decide))))

/-- A vocabulary row of a tile of the second kernel. -/
theorem mix_row (c : Dev nD) (t : Fin cfg1.N) (b : Fin 256) (r : Fin 2176) (hv : 2176 * t.val + r.val < 100000) :
    mixPay (grid1.coords t) (blk1 (V4 m) c 0 t) (blk1 (V4 m) c 1 t) (blk1 (V4 m) c 2 t) (blk1 (V4 m) c 3 t) (blk1 (V4 m) c 4 t) (blk1 (V4 m) c 5 t) (blk1 (V4 m) c 6 t) (blk1 (V4 m) c 7 t) (blk1 (V4 m) c 8 t) (blk1 (V4 m) c 9 t) (ix2 b r)
      = ∑ k : Fin 200, A0 m c (ix2 b k) * Ideal.exp (KL m c (wordOf t.val (lt_of_lt_of_eq t.isLt (show cfg1.N = 46 from N_1)) r) k - W4 m c main_v46 (ix2 (0 : Fin 1) k)) := by
  have hN : t.val < 46 := lt_of_lt_of_eq t.isLt (show cfg1.N = 46 from N_1)
  rw [mixPay_apply]
  refine Finset.sum_congr rfl fun k _ => ?_
  rw [blk1_9_apply, V4_arg0, inVocab_one _ t.val (tileStart1_isInt t) hN r hv, select_one, blk1_8_apply, logitAt_eq_row]
  have hrow : (fun j => blk1 (V4 m) c 0 t (ix2 r j)) = fun j => W2 m c main_v31 (ix2 (wordOf t.val hN r) j) :=
    funext fun j => (blk1_0_apply (V4 m) c t r j).trans (congrFun (V4_main_v31 m c) _)
  have h1 : (fun j => blk1 (V4 m) c 1 t (ix2 j k)) = fun j => W2 m c main_v24 (ix2 j k) := funext fun j => (blk1_1_apply (V4 m) c t j k).trans (congrFun (V4_main_v24 m c) _)
  have h2 : (fun j => blk1 (V4 m) c 2 t (ix2 j k)) = fun j => W2 m c main_v25 (ix2 j k) := funext fun j => (blk1_2_apply (V4 m) c t j k).trans (congrFun (V4_main_v25 m c) _)
  have h3 : (fun j => blk1 (V4 m) c 3 t (ix2 j k)) = fun j => W2 m c main_v26 (ix2 j k) := funext fun j => (blk1_3_apply (V4 m) c t j k).trans (congrFun (V4_main_v26 m c) _)
  rw [hrow, h1, h2, h3, blk1_4_apply, blk1_5_apply, blk1_6_apply, blk1_7_apply, V4_main_v28, V4_main_v29, V4_main_v27, V4_main_v30]
  rfl

/-- AN ENTRY of the kernel's word distribution. -/
theorem kernel_entry (c : Dev nD) (b : Fin 256) (v : Fin 100000) :
    extractStridedSlice S256x100000 ![0, 0] (mixArr (V4 m) c) slices_S256x100096_S256x100000_0_0 (ix2 b v)
      = ∑ k : Fin 200, A0 m c (ix2 b k) * Ideal.exp (KL m c (pw v) k - W4 m c main_v46 (ix2 (0 : Fin 1) k)) := by
  rw [slice2_axis1_eq 0]
  unfold mixArr
  have hv := v.isLt
  have hdm : 2176 * ((0 + v.val) / 2176) + (0 + v.val) % 2176 = v.val := by omega
  refine (mix_row m c (tileOf1 (ix2 b ⟨0 + v.val, by omega⟩)) ⟨b.val, b.isLt⟩ ⟨(0 + v.val) % 2176, Nat.mod_lt _ (by norm_num)⟩ (by show 2176 * ((0 + v.val) / 2176) + (0 + v.val) % 2176 < 100000; omega)).trans ?_
  refine Finset.sum_congr rfl fun k _ => ?_
  have hw : wordOf (tileOf1 (ix2 b (⟨0 + v.val, by omega⟩ : Fin 100096))).val (lt_of_lt_of_eq (tileOf1 (ix2 b (⟨0 + v.val, by omega⟩ : Fin 100096))).isLt (show cfg1.N = 46 from N_1)) ⟨(0 + v.val) % 2176, Nat.mod_lt _ (by norm_num)⟩ = pw v :=
    Fin.ext hdm
  rw [hw]

end Cert.KernelIdeal.Hand
end
-- ==== Proof.PreDecode.lean ====
/-
  The precondition, entry by entry. `finite_inputs` is a conjunction of six `all`s: the absolute value of every entry of
  each of the five arguments is below +∞, and every entry of the diagonal is above 0. Over the extended reals the first
  says the entry is a real number.
-/
import proofs.«136091_j11613591568915_2_alg».proof.Pre_finite_inputs
import proofs.«136091_j11613591568915_2_alg».proof.Proof.ValFold
import Idealize.ShloMosaic.Lib.ReduceAll
import Idealize.ShloMosaic.PureOps.Ideal.Laws
import Idealize.ShloMosaic.Lib.Affine
import Idealize.ShloMosaic.Lib.ValueIdx
import Idealize.ShloMosaic.Lib.Pipeline.Value
noncomputable section
namespace Cert.Pre_finite_inputs
open Idealize.ShloMosaic Cert.Val
variable [Facts]
open Facts

instance : Subsingleton S_.Idx := ⟨fun a b => funext fun x => x.elim0⟩

theorem posInf_word : Ideal.ofBits .f32 0x7F800000#32 = (⊤ : EReal) := by simp [Ideal.ofBits, Ideal.ieee]

theorem cmp_olt {x y : EReal} (h : Ideal.cmp .olt x y = 1#1) : x < y := by
  unfold Ideal.cmp at h
  by_contra hn
  simp [hn] at h
theorem cmp_ogt {x y : EReal} (h : Ideal.cmp .ogt x y = 1#1) : y < x := by
  unfold Ideal.cmp at h
  by_contra hn
  simp [hn] at h

/-- An entry whose absolute value is below +∞ is a real number. -/
theorem isReal_of_abs (x : EReal) (h : max x (-x) < ⊤) : IsReal x := by
  refine isReal_of_ne ?_ ?_
  · rintro rfl; simp at h
  · rintro rfl; simp at h

/-- One `all (|a| < +∞)`. -/
theorem all_finite {n0 n1 : ℕ} (a : FVec Ideal (⟨2, ![n0, n1]⟩ : Shape) .f32) (hb : S_.BroadcastsInDim (⟨2, ![n0, n1]⟩ : Shape) (![] : Fin 0 → Fin 2)) (hr : (⟨2, ![n0, n1]⟩ : Shape).ReducesTo [0, 1] S_)
    (e : (fun x v => Host.reduce IntOp.andi x v hr h_S_) (cmpf .olt (Host.absf a) (broadcastInDim (⟨2, ![n0, n1]⟩ : Shape) ![] hb (constant (F := Ideal) S_ .f32 0x7F800000#32))) (constantI S_ 1 1#1) ValueIdx.ix0 = 1#1)
    (i : (⟨2, ![n0, n1]⟩ : Shape).Idx) : IsReal (a i) := by
  have h1 := Host.reduce_andi_all _ _ hr h_S_ ValueIdx.ix0 e i
  have h2 : Ideal.cmp .olt (max (a i) (-(a i))) (broadcastInDim (⟨2, ![n0, n1]⟩ : Shape) ![] hb (constant (F := Ideal) S_ .f32 0x7F800000#32) i) = 1#1 := h1
  rw [show broadcastInDim (⟨2, ![n0, n1]⟩ : Shape) ![] hb (constant (F := Ideal) S_ .f32 0x7F800000#32) i = Ideal.ofBits .f32 0x7F800000#32 from
    (broadcastInDim_apply _ hb _ i (fun a => a.elim0) (fun a => a.elim0)).trans rfl, posInf_word] at h2
  exact isReal_of_abs _ (cmp_olt h2)

/-- THE PRECONDITION, DECODED. -/
theorem decode (a0 : FVec Ideal S256x200 .f32) (a1 : FVec Ideal S100000x300 .f32) (a2 a3 a4 : FVec Ideal S200x300 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, 0 < a4 i) := by
  have h0 := congrFun h ValueIdx.ix0
  dsimp only [fn, fn_part1] at h0
  rw [show ∀ (p q : IVec S_ 1), andi p q ValueIdx.ix0 = IntOp.andi (p ValueIdx.ix0) (q ValueIdx.ix0) from fun _ _ => rfl] at h0
  obtain ⟨h5, hpos⟩ := IntOp.andi_eq_one.mp h0
  rw [show ∀ (p q : IVec S_ 1), andi p q ValueIdx.ix0 = IntOp.andi (p ValueIdx.ix0) (q ValueIdx.ix0) from fun _ _ => rfl] at h5
  obtain ⟨h4, hf4⟩ := IntOp.andi_eq_one.mp h5
  rw [show ∀ (p q : IVec S_ 1), andi p q ValueIdx.ix0 = IntOp.andi (p ValueIdx.ix0) (q ValueIdx.ix0) from fun _ _ => rfl] at h4
  obtain ⟨h3, hf3⟩ := IntOp.andi_eq_one.mp h4
  rw [show ∀ (p q : IVec S_ 1), andi p q ValueIdx.ix0 = IntOp.andi (p ValueIdx.ix0) (q ValueIdx.ix0) from fun _ _ => rfl] at h3
  obtain ⟨h2, hf2⟩ := IntOp.andi_eq_one.mp h3
  rw [show ∀ (p q : IVec S_ 1), andi p q ValueIdx.ix0 = IntOp.andi (p ValueIdx.ix0) (q ValueIdx.ix0) from fun _ _ => rfl] at h2
  obtain ⟨hf0, hf1⟩ := IntOp.andi_eq_one.mp h2
  refine ⟨all_finite a0 _ _ hf0, all_finite a1 _ _ hf1, all_finite a2 _ _ hf2, all_finite a3 _ _ hf3, all_finite a4 _ _ hf4, fun i => ?_⟩
  have h1 := Host.reduce_andi_all _ _ reducesTo_S200x300_S_d0_1 h_S_ ValueIdx.ix0 hpos i
  have h2' : Ideal.cmp .ogt (a4 i) (broadcastInDim S200x300 ![] bcast_S_S200x300 (constant (F := Ideal) S_ .f32 0x00000000#32) i) = 1#1 := h1
  rw [show broadcastInDim S200x300 ![] bcast_S_S200x300 (constant (F := Ideal) S_ .f32 0x00000000#32) i = Ideal.ofBits .f32 0x00000000#32 from
    (broadcastInDim_apply _ bcast_S_S200x300 _ i (fun a => a.elim0) (fun a => a.elim0)).trans rfl, Ideal.ofBits_zero_f32] at h2'
  exact cmp_ogt h2'

end Cert.Pre_finite_inputs
end
-- ==== Proof.IFinal.lean ====
/-
  The two results are one array. Entry by entry the kernel's word distribution is the reference's (the samples' row
  against equal shares), so the kernel's result buffer — the samples beside it — is the reference's last stage.
-/
import proofs.«136091_j11613591568915_2_alg».proof.Proof.ILink2
import proofs.«136091_j11613591568915_2_alg».proof.Proof.PreDecode
set_option maxHeartbeats 4000000
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Idealize.ShloMosaic.StableHlo Cert.Val

variable (m : (ℓ : Loc nD τ sig) → Buf (Elt Ideal) ℓ)

/-- THE WORD DISTRIBUTIONS are equal as arrays. -/
theorem dist_eq (c : Dev nD) (h : InOk m c) :
    extractStridedSlice S256x100000 ![0, 0] (mixArr (V4 m) c) slices_S256x100096_S256x100000_0_0
      = Cert.ReferenceIdeal.ReadP.val_main_v59 (F := Ideal) (A0 m c) (A1 m c) (A2 m c) (A3 m c) (A4 m c) := by
  have key : ∀ (b : Fin 256) (v : Fin 100000),
      extractStridedSlice S256x100000 ![0, 0] (mixArr (V4 m) c) slices_S256x100096_S256x100000_0_0 (ix2 b v)
        = Cert.ReferenceIdeal.ReadP.val_main_v59 (F := Ideal) (A0 m c) (A1 m c) (A2 m c) (A3 m c) (A4 m c) (ix2 b v) := fun b v => by
    rw [kernel_entry, Cert.ReferenceIdeal.RefVal.dist_apply]
    exact Finset.sum_congr rfl fun k _ => congrArg (A0 m c (ix2 b k) * ·) (share_topic m c h k v)
  funext i
  have hi : i = ix2 (⟨(i 0).val, (i 0).isLt⟩ : Fin 256) (⟨(i 1).val, (i 1).isLt⟩ : Fin 100000) :=
    funext fun a => Fin.ext (by match a with | ⟨0, _⟩ => rfl | ⟨1, _⟩ => rfl)
  rw [hi]
  exact key _ _

/-- THE RESULT BUFFERS are equal. -/
theorem final_eq (c : Dev nD) (h : InOk m c) :
    W6 m c (Proc.devRef .tc main_v49) = Cert.ReferenceIdeal.ReadP.val_main_v60 (F := Ideal) (A0 m c) (A1 m c) (A2 m c) (A3 m c) (A4 m c) := by
  rw [result_eq]
  unfold Cert.ReferenceIdeal.ReadP.val_main_v60
  exact congrArg (fun y => concatenate S256x100200 1 [⟨S256x200, m ((c : Thread nD τ).loc main_arg0)⟩, ⟨S256x100000, y⟩]
    concatenates_S256x200_S256x100000_S256x100200_d1) (dist_eq m c h)

/-- The precondition gives the inputs' finiteness and the diagonal's positivity. -/
theorem inOk_of_pre [hPre : Cert.Pre_finite_inputs.Facts] (c : Dev nD)
    (hpre : Cert.Pre_finite_inputs.fn (F := Ideal) (A0 m c) (A1 m c) (A2 m c) (A3 m c) (A4 m c) = fun _ => 1#1) : InOk m c := by
  obtain ⟨-, h1, h2, h3, h4, hpos⟩ := Cert.Pre_finite_inputs.decode _ _ _ _ _ hpre
  exact ⟨h1, h2, h3, h4, hpos⟩

end Cert.KernelIdeal.Hand
end
-- ==== Proof.lean ====
/-
  The certificate of a topic model's word distribution: for 200 topics, each a Gaussian over 300-dimensional word
  vectors with a rank-one-plus-diagonal covariance, the log-density of each of 100000 words under each topic (by the
  Sherman–Morrison form: three inner products of the word with per-topic tables), a softmax of those over the
  vocabulary, and the 256 × 200 sample matrix times the result, the samples themselves prepended.

  The kernel never holds the 100000 × 200 logits: a first pass sweeps the vocabulary in 46 tiles of 2176 words, two
  halves of 23, keeping per topic a running (level, sum) pair whose weight sum · exp level is the tiles' total of
  exp logit; a few host lines merge the two halves' pairs into one log-normaliser per topic; a second pass recomputes
  each tile's logits and stores the samples times exp (logit - log-normaliser). The vocabulary is padded to
  46 · 2176 = 100096 rows; the padded rows' logits are replaced by a fill that the idealization reads as -∞, so that they
  weigh nothing.

  FRAMES. Each program's run is assembled from its segments — host stretches and the two kernels as regions over proof
  data that name, tile by tile, what the body leaves (Proof/KRun.lean, Proof/IRun.lean); the reference is a straight line
  of host operations (Proof/RefFrame.lean). The ledger's three entries are the fill's three sites (Proof/Preserves.lean).

  VALUES, over the extended reals. The running pair keeps its weight through every tile (Proof/LibOnlineLse.lean,
  Proof/IStatsInv.lean), so the merged pair weighs the sum of exp logit over the vocabulary (Proof/IZ.lean) and
  exp (logit - log-normaliser) is the share of that total. The kernel's host-prepared tables are the reference's own
  stages (Proof/ITables.lean), so for finite inputs and a positive diagonal the kernel's logit is the reference's plus one
  constant, the same for every word and topic (Proof/ILink.lean): the host-folded -275.68… against -½ · 300 · log 2π as
  the reference spells it. A constant shift cancels in a share (Proof/ValShare.lean), so the two word distributions agree
  entry by entry (Proof/ILink2.lean, Proof/IFinal.lean).
-/
import proofs.«136091_j11613591568915_2_alg».proof.Defs
import proofs.«136091_j11613591568915_2_alg».proof.Proof.Gen.Kernel
import proofs.«136091_j11613591568915_2_alg».proof.Proof.Gen.KernelIdeal
import proofs.«136091_j11613591568915_2_alg».proof.Proof.Gen.ReferenceIdeal
import proofs.«136091_j11613591568915_2_alg».proof.Proof.Gen.Pre_finite_inputs
import proofs.«136091_j11613591568915_2_alg».proof.Proof.KRun
import proofs.«136091_j11613591568915_2_alg».proof.Proof.IRun
import proofs.«136091_j11613591568915_2_alg».proof.Proof.RefFrame
import proofs.«136091_j11613591568915_2_alg».proof.Proof.Preserves
import proofs.«136091_j11613591568915_2_alg».proof.Proof.IFinal
import Idealize.ShloMosaic.Adequacy
import Idealize.ShloMosaic.Init

noncomputable section

namespace Cert.Proof

open Idealize.ShloMosaic Idealize.SL.Sem

/-- The word-level kernel runs to the end, faults nowhere and leaves its five argument arrays as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Over the extended reals the idealized kernel and the idealized reference end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W6 m c (Proc.devRef .tc Cert.KernelIdeal.main_v49), ?_, ?_⟩
  · exact (θ_run Cert.KernelIdeal.defs _ _).mono (fun r h c =>
      ⟨h c _ (Cert.KernelIdeal.Hand.mem_uc Cert.KernelIdeal.main_v49 (by decide)),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c)⟩) (Cert.KernelIdeal.Hand.run_all m g)
  · refine (θ_run Cert.ReferenceIdeal.defs _ _).mono (fun r h c => ⟨?_, (h c).2⟩) (Cert.ReferenceIdeal.ValueP.run (F := Ideal) m' g')
    have hin := Cert.KernelIdeal.Hand.inOk_of_pre (hPre := Cert.Pre_finite_inputs.Gen.facts) m c (hpre c)
    obtain ⟨e0, e1, e2, e3, e4⟩ := hagree c
    rw [(h c).1, Cert.ReferenceIdeal.RefVal.result_eq m' c, e0, e1, e2, e3, e4]
    exact (Cert.KernelIdeal.Hand.final_eq m c hin).symm

theorem claim : Cert.Claim := ⟨Cert.Kernel.Gen.facts, Cert.KernelIdeal.Gen.facts, Cert.ReferenceIdeal.Gen.facts, Cert.Pre_finite_inputs.Gen.facts,
  frame_p, frame_pi, Cert.Proof.Parts.frame_ri, Cert.Proof.Parts.preserves, algebraic⟩

end Cert.Proof

end
